-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S2x64x64 : Shape := ⟨3, ![2, 64, 64]⟩
abbrev S2x64 : Shape := ⟨2, ![2, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg8 : FVec F S2x64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  main_v38

def fn_part1 {F : FTy → Type} [FloatOps F] (main_arg5 : FVec F S2x64 .f32) (main_arg6 : FVec F S2x64x64 .f32) (main_arg7 : FVec F S2x64 .f32) (main_arg8 : FVec F S2x64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64x64 .f32 := Host.absf main_arg6
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S2x64x64 .f32) (main_arg3 : FVec F S2x64 .f32) (main_arg4 : FVec F S2x64x64 .f32) (main_arg5 : FVec F S2x64 .f32) (main_arg6 : FVec F S2x64x64 .f32) (main_arg7 : FVec F S2x64 .f32) (main_arg8 : FVec F S2x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2x64x64 .f32 := Host.absf main_arg2
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S2x64x64 .f32 := Host.absf main_arg4
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S2x64x64 : Shape := ⟨3, ![2, 64, 64]⟩
abbrev S2x64 : Shape := ⟨2, ![2, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S800000x64 : Shape := ⟨2, ![800000, 64]⟩
abbrev S2000x64 : Shape := ⟨2, ![2000, 64]⟩
abbrev S2000x1 : Shape := ⟨2, ![2000, 1]⟩
abbrev S2000 : Shape := ⟨1, ![2000]⟩

abbrev nBuf : Space → Nat
  | .hbm => 96
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S2x64x64, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S2x64x64, .f32⟩
  | .hbm, ⟨7, _⟩ => ⟨S2x64, .f32⟩
  | .hbm, ⟨8, _⟩ => ⟨S2x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S1x64x64, .f32⟩
  | .hbm, ⟨25, _⟩ => ⟨S64x64, .f32⟩
  | .hbm, ⟨26, _⟩ => ⟨S64x64, .f32⟩
  | .hbm, ⟨27, _⟩ => ⟨S1x64x64, .f32⟩
  | .hbm, ⟨28, _⟩ => ⟨S64x64, .f32⟩
  | .hbm, ⟨29, _⟩ => ⟨S64x64, .f32⟩
  | .hbm, ⟨30, _⟩ => ⟨S1x64x64, .f32⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S50000x64, .f32⟩
  | .hbm, ⟨60, _⟩ => ⟨S1x64x64, .f32⟩
  | .hbm, ⟨61, _⟩ => ⟨S64x64, .f32⟩
  | .hbm, ⟨62, _⟩ => ⟨S64x64, .f32⟩
  | .hbm, ⟨63, _⟩ => ⟨S1x64x64, .f32⟩
  | .hbm, ⟨64, _⟩ => ⟨S64x64, .f32⟩
  | .hbm, ⟨65, _⟩ => ⟨S64x64, .f32⟩
  | .hbm, ⟨66, _⟩ => ⟨S1x64x64, .f32⟩
  | .hbm, ⟨67, _⟩ => ⟨S64x64, .f32⟩
  | .hbm, ⟨68, _⟩ => ⟨S64x64, .f32⟩
  | .hbm, ⟨69, _⟩ => ⟨S1x64, .f32⟩
  | .hbm, ⟨70, _⟩ => ⟨S64, .f32⟩
  | .hbm, ⟨71, _⟩ => ⟨S1x64, .f32⟩
  | .hbm, ⟨72, _⟩ => ⟨S50000x64, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S1x64, .f32⟩
  | .hbm, ⟨87, _⟩ => ⟨S64, .f32⟩
  | .hbm, ⟨88, _⟩ => ⟨S1x64, .f32⟩
  | .hbm, ⟨89, _⟩ => ⟨S64, .f32⟩
  | .hbm, ⟨90, _⟩ => ⟨S1x64, .f32⟩
  | .hbm, ⟨91, _⟩ => ⟨S64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S2000x64, .f32⟩
  | .local _ .vmem, ⟨18, _⟩ => ⟨S2000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S2000x64, .f32⟩
  | .local _ .vmem, ⟨26, _⟩ => ⟨S2000x64, .f32⟩
  | .local _ .vmem, ⟨27, _⟩ => ⟨S2000x1, .f32⟩
  | .local _ .vmem, ⟨28, _⟩ => ⟨S2000x1, .f32⟩
  | .local _ .vmem, ⟨29, _⟩ => ⟨S2000x64, .f32⟩
  | .local _ .vmem, ⟨30, _⟩ => ⟨S2000x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S1x64, .f32⟩
  | .local _ .vmem, ⟨35, _⟩ => ⟨S1x64, .f32⟩
  | .local _ .vmem, ⟨36, _⟩ => ⟨S2000x64, .f32⟩
  | .local _ .vmem, ⟨37, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_4 : Ref sig .tc := ⟨.hbm, 73, rfl⟩
abbrev main_v56 : Ref sig .tc := ⟨.hbm, 74, rfl⟩
abbrev main_v57 : Ref sig .tc := ⟨.hbm, 75, rfl⟩
abbrev main_c_5 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  broadcasts_S1x64_S2000x64 : S1x64.Broadcasts S2000x64
  reduces_S2000x64_S2000 : S2000x64.Reduces [1] S2000
  shapeCasts_S2000_S2000x1 : S2000.ShapeCasts S2000x1
  slices_S2x64x64_S1x64x64_1_0_0 : S2x64x64.Slices ![1, 0, 0] S1x64x64
  slices_S2x64_S1x64_1_0 : S2x64.Slices ![1, 0] S1x64
  shapeCasts_S5000x64_S5000x64 : S5000x64.ShapeCasts S5000x64
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S50000x64.size a
  hwx1_8 : ∀ i : grid1.Coords, EltTy.bits .f32 = 32 ∨ (Rect.block (s := S50000x64) S2000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x64.size a ≤ S50000x64.size a
  hwx3_8 : ∀ i : grid3.Coords, EltTy.bits .f32 = 32 ∨ (Rect.block (s := S50000x64) S2000x64.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v74) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v75) S2000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S2x64x64 : Shape := ⟨3, ![2, 64, 64]⟩
abbrev S2x64 : Shape := ⟨2, ![2, 64]⟩
abbrev S1x800000 : Shape := ⟨2, ![1, 800000]⟩
abbrev S800000 : Shape := ⟨1, ![800000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩

abbrev nBuf : Space → Nat
  | .hbm => 213
  | .vmem => 0
  | .smem => 0
  | _ => 0

abbrev hbmTy0_0 (i : Nat) : BufTy := match i % 128 with
  | 0 => ⟨S50000x64, .f32⟩
  | 1 => ⟨S2x800000, .i32⟩
  | 2 => ⟨S2x64x64, .f32⟩
  | 3 => ⟨S2x64, .f32⟩
  | 4 => ⟨S2x64x64, .f32⟩
  | 5 => ⟨S2x64, .f32⟩
  | 6 => ⟨S2x64x64, .f32⟩
  | 7 => ⟨S2x64, .f32⟩
  | 8 => ⟨S2x64, .f32⟩
  | 9 => ⟨S1x800000, .i32⟩
  | 10 => ⟨S800000, .i32⟩
  | 11 => ⟨S1x800000, .i32⟩
  | 12 => ⟨S800000, .i32⟩
  | 13 => ⟨S1x64x64, .f32⟩
  | 14 => ⟨S64x64, .f32⟩
  | 15 => ⟨S1x64, .f32⟩
  | 16 => ⟨S64, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S1x64, .f32⟩
  | 26 => ⟨S64, .f32⟩
  | 27 => ⟨S64x64, .f32⟩
  | 28 => ⟨S50000x64, .f32⟩
  | 29 => ⟨S1x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S_, .f32⟩
  | 49 => ⟨S800000, .f32⟩
  | 50 => ⟨S_, .f32⟩
  | 51 => ⟨S50000, .f32⟩
  | 52 => ⟨S800000x1, .i32⟩
  | 53 => ⟨S50000, .f32⟩
  | 54 => ⟨S_, .f32⟩
  | 55 => ⟨S_, .f32⟩
  | 56 => ⟨S50000, .f32⟩
  | 57 => ⟨S50000, .f32⟩
  | 58 => ⟨S50000x1, .f32⟩
  | 59 => ⟨S50000x64, .f32⟩
  | 60 => ⟨S50000x64, .f32⟩
  | 61 => ⟨S64x64, .f32⟩
  | 62 => ⟨S50000x64, .f32⟩
  | 63 => ⟨S1x64, .f32⟩
  | 64 => ⟨S50000x64, .f32⟩
  | 65 => ⟨S50000x64, .f32⟩
  | 66 => ⟨S64x64, .f32⟩
  | 67 => ⟨S50000x64, .f32⟩
  | 68 => ⟨S50000x64, .f32⟩
  | 69 => ⟨S_, .f32⟩
  | 70 => ⟨S50000, .f32⟩
  | 71 => ⟨S50000x1, .f32⟩
  | 72 => ⟨S_, .f32⟩
  | 73 => ⟨S50000x1, .f32⟩
  | 74 => ⟨S50000x1, .f32⟩
  | 75 => ⟨S_, .i32⟩
  | 76 => ⟨S_, .f32⟩
  | 77 => ⟨S50000, .f32⟩
  | 78 => ⟨S50000x1, .f32⟩
  | 79 => ⟨S_, .f32⟩
  | 80 => ⟨S50000x1, .f32⟩
  | 81 => ⟨S50000x1, .f32⟩
  | 82 => ⟨S50000x64, .f32⟩
  | 83 => ⟨S50000x64, .f32⟩
  | 84 => ⟨S50000x64, .f32⟩
  | 85 => ⟨S_, .f32⟩
  | 86 => ⟨S_, .f32⟩
  | 87 => ⟨S_, .f32⟩
  | 88 => ⟨S_, .f32⟩
  | 89 => ⟨S50000, .f32⟩
  | 90 => ⟨S50000x1, .f32⟩
  | 91 => ⟨S50000x1, .f32⟩
  | 92 => ⟨S50000x1, .f32⟩
  | 93 => ⟨S_, .f32⟩
  | 94 => ⟨S_, .i1⟩
  | 95 => ⟨S_, .f32⟩
  | 96 => ⟨S_, .f32⟩
  | 97 => ⟨S50000x1, .f32⟩
  | 98 => ⟨S50000x1, .f32⟩
  | 99 => ⟨S50000x64, .f32⟩
  | 100 => ⟨S50000x64, .f32⟩
  | 101 => ⟨S_, .f32⟩
  | 102 => ⟨S50000x1, .f32⟩
  | 103 => ⟨S50000x1, .f32⟩
  | 104 => ⟨S50000x1, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S1x64x64, .f32⟩
  | 114 => ⟨S64x64, .f32⟩
  | 115 => ⟨S1x64, .f32⟩
  | 116 => ⟨S64, .f32⟩
  | 117 => ⟨S1x64x64, .f32⟩
  | 118 => ⟨S64x64, .f32⟩
  | 119 => ⟨S1x64, .f32⟩
  | 120 => ⟨S64, .f32⟩
  | 121 => ⟨S1x64x64, .f32⟩
  | 122 => ⟨S64x64, .f32⟩
  | 123 => ⟨S1x64, .f32⟩
  | 124 => ⟨S64, .f32⟩
  | 125 => ⟨S1x64, .f32⟩
  | 126 => ⟨S64, .f32⟩
  | 127 => ⟨S64x64, .f32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S50000x1, .f32⟩
  | 31 => ⟨S50000x64, .f32⟩
  | 32 => ⟨S50000x64, .f32⟩
  | 33 => ⟨S64x64, .f32⟩
  | 34 => ⟨S50000x64, .f32⟩
  | 35 => ⟨S1x64, .f32⟩
  | 36 => ⟨S50000x64, .f32⟩
  | 37 => ⟨S50000x64, .f32⟩
  | 38 => ⟨S64x64, .f32⟩
  | 39 => ⟨S50000x64, .f32⟩
  | 40 => ⟨S50000x64, .f32⟩
  | 41 => ⟨S_, .f32⟩
  | 42 => ⟨S50000, .f32⟩
  | 43 => ⟨S50000x1, .f32⟩
  | 44 => ⟨S_, .f32⟩
  | 45 => ⟨S50000x1, .f32⟩
  | 46 => ⟨S50000x1, .f32⟩
  | 47 => ⟨S_, .i32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x64, .f32⟩
  | 55 => ⟨S50000x64, .f32⟩
  | 56 => ⟨S50000x64, .f32⟩
  | 57 => ⟨S_, .f32⟩
  | 58 => ⟨S_, .f32⟩
  | 59 => ⟨S_, .f32⟩
  | 60 => ⟨S_, .f32⟩
  | 61 => ⟨S50000, .f32⟩
  | 62 => ⟨S50000x1, .f32⟩
  | 63 => ⟨S50000x1, .f32⟩
  | 64 => ⟨S50000x1, .f32⟩
  | 65 => ⟨S_, .f32⟩
  | 66 => ⟨S_, .i1⟩
  | 67 => ⟨S_, .f32⟩
  | 68 => ⟨S_, .f32⟩
  | 69 => ⟨S50000x1, .f32⟩
  | 70 => ⟨S50000x1, .f32⟩
  | 71 => ⟨S50000x64, .f32⟩
  | 72 => ⟨S50000x64, .f32⟩
  | 73 => ⟨S_, .f32⟩
  | 74 => ⟨S50000x1, .f32⟩
  | 75 => ⟨S50000x1, .f32⟩
  | 76 => ⟨S50000x1, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_c_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_4 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_c_6 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_cst_2 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_cst_3 : Ref sig .tc := ⟨.hbm, 93, rfl⟩
abbrev main_call2_v13 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_7 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_call3_cst : Ref sig .tc := ⟨.hbm, 132, rfl⟩
abbrev main_call3_v0 : Ref sig .tc := ⟨.hbm, 133, rfl⟩
abbrev main_v87 : Ref sig .tc := ⟨.hbm, 134, rfl⟩
abbrev main_c_8 : Ref sig .tc := ⟨.hbm, 135, rfl⟩
abbrev main_v88 : Ref sig .tc := ⟨.hbm, 136, rfl⟩
abbrev main_v89 : Ref sig .tc := ⟨.hbm, 137, rfl⟩
abbrev main_c_9 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_10 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_11 : Ref sig .tc := ⟨.hbm, 148, rfl⟩
abbrev main_v98 : Ref sig .tc := ⟨.hbm, 149, rfl⟩
abbrev main_cst_12 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_13 : Ref sig .tc := ⟨.hbm, 154, rfl⟩
abbrev main_call4_v0 : Ref sig .tc := ⟨.hbm, 155, rfl⟩
abbrev main_call4_v1 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_14 : Ref sig .tc := ⟨.hbm, 169, rfl⟩
abbrev main_v114 : Ref sig .tc := ⟨.hbm, 170, rfl⟩
abbrev main_v115 : Ref sig .tc := ⟨.hbm, 171, rfl⟩
abbrev main_cst_15 : Ref sig .tc := ⟨.hbm, 172, rfl⟩
abbrev main_v116 : Ref sig .tc := ⟨.hbm, 173, rfl⟩
abbrev main_v117 : Ref sig .tc := ⟨.hbm, 174, rfl⟩
abbrev main_c_16 : Ref sig .tc := ⟨.hbm, 175, rfl⟩
abbrev main_call5_cst : Ref sig .tc := ⟨.hbm, 176, rfl⟩
abbrev main_call5_v0 : Ref sig .tc := ⟨.hbm, 177, rfl⟩
abbrev main_call5_v1 : Ref sig .tc := ⟨.hbm, 178, rfl⟩
abbrev main_call5_cst_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_v6 : Ref sig .tc := ⟨.hbm, 184, rfl⟩
abbrev main_call5_v7 : Ref sig .tc := ⟨.hbm, 185, rfl⟩
abbrev main_call5_cst_1 : Ref sig .tc := ⟨.hbm, 186, rfl⟩
abbrev main_call5_v8 : Ref sig .tc := ⟨.hbm, 187, rfl⟩
abbrev main_call5_cst_2 : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_v12 : Ref sig .tc := ⟨.hbm, 192, rfl⟩
abbrev main_call5_cst_3 : Ref sig .tc := ⟨.hbm, 193, rfl⟩
abbrev main_call5_v13 : Ref sig .tc := ⟨.hbm, 194, rfl⟩
abbrev main_call5_cst_4 : Ref sig .tc := ⟨.hbm, 195, rfl⟩
abbrev main_call5_call0_v0 : Ref sig .tc := ⟨.hbm, 196, rfl⟩
abbrev main_call5_call0_v1 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_cst_17 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  slices_S2x64x64_S1x64x64_1_0_0 : S2x64x64.Slices ![1, 0, 0] S1x64x64
  slices_S2x64_S1x64_1_0 : S2x64.Slices ![1, 0] S1x64
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KRun.lean ====
/-
  The idealized kernel program's run with its result named.

  The program is four pipelined regions among stretches of host operations. Running the segments in order from the
  launch memory, every weakly fair execution terminates, and in every final state each unscoped buffer holds the
  contents the fold of the segments leaves at the last boundary: in particular the result buffer holds the last
  region's output array there, and the nine argument arrays are as launched.
-/
import proofs.«174102_j12249246728621_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, the
    result buffer ends at the last boundary's contents and every argument array ends as launched. -/
theorem run_result : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Gen

end
-- ==== Proof.Spec.lean ====
/-
  One GraphSAGE layer with a projected source term, mean aggregation and a layer norm, read one row at a time
  on the extended reals.

  A layer maps node features `h` (one row of 64 per node) to
    `LN (mean_agg (relu (h·Wpᵀ + bp))·Wlᵀ + bl + h·Wrᵀ)·γ + β`.
  Every step except the aggregation is local to a row: `projRow` is a row of `relu (h·Wpᵀ + bp)`,
  `outRow` a row of the combined linear term from that node's aggregated sum, its degree and its own
  features, `lnRow` the layer norm of a row with the biased variance. The weights are taken already
  transposed (entry (k, q) multiplies feature k into output q). The literals are kept as the words the two
  programs share: the zero of the relu, the divisor 64 of the two means and the variance's epsilon.
-/
import Idealize.ShloMosaic.PureOps.Ideal.Laws
import Idealize.ShloMosaic.Lib.ValueIdx

noncomputable section

open scoped BigOperators

namespace Cert.Sage

open Idealize.ShloMosaic Idealize.ShloMosaic.ValueIdx

/-- The word of the relu's zero, of the row length 64 and of the variance's epsilon, as extended reals. -/
abbrev w0 : EReal := Ideal.ofBits .f32 0x00000000#32
abbrev w64 : EReal := Ideal.ofBits .f32 0x42800000#32
abbrev wEps : EReal := Ideal.ofBits .f32 0x3727C5AC#32

/-- The word 64.0 denotes the real 64. -/
theorem w64_eq : w64 = ((64 : ℝ) : EReal) := by
  simp [w64, Ideal.ofBits, Ideal.ieee, -EReal.coe_mul]; norm_num

/-- One row of `relu (h·Wᵀ + b)`. -/
def projRow (hr : Fin 64 → EReal) (WT : Fin 64 → Fin 64 → EReal) (b : Fin 64 → EReal) (q : Fin 64) : EReal :=
  max ((∑ k : Fin 64, hr k * WT k q) + b q) w0

/-- One row of `(agg / deg)·Wlᵀ + bl + h·Wrᵀ`: `ar` the node's aggregated row, `d` its clipped degree,
    `hr` its own row. -/
def outRow (ar : Fin 64 → EReal) (d : EReal) (hr : Fin 64 → EReal) (WlT : Fin 64 → Fin 64 → EReal)
    (bl : Fin 64 → EReal) (WrT : Fin 64 → Fin 64 → EReal) (q : Fin 64) : EReal :=
  ((∑ k : Fin 64, Ideal.div (ar k) d * WlT k q) + bl q) + ∑ k : Fin 64, hr k * WrT k q

/-- The mean of a row of 64. -/
def rowMean (o : Fin 64 → EReal) : EReal := Ideal.div (∑ c : Fin 64, o c) w64

/-- The layer norm of a row: centred, scaled by the inverse root of the biased variance plus epsilon, then the
    affine map. -/
def lnRow (o : Fin 64 → EReal) (g be : Fin 64 → EReal) (q : Fin 64) : EReal :=
  (o q - rowMean o) * Ideal.rsqrt (Ideal.div (∑ c : Fin 64, (o c - rowMean o) * (o c - rowMean o)) w64 + wEps) * g q + be q

/-- The projected features of every node, from the feature matrix and the layer's transposed weights and bias. -/
def proj (H : (⟨2, ![50000, 64]⟩ : Shape).Idx → EReal) (WT : (⟨2, ![64, 64]⟩ : Shape).Idx → EReal)
    (b : Fin 64 → EReal) : (⟨2, ![50000, 64]⟩ : Shape).Idx → EReal :=
  fun i => projRow (fun k => H (ix2 (i 0) k)) (fun k q => WT (ix2 k q)) b (i 1)

/-- The layer's output for every node, from the aggregated sums `A`, the clipped degree `dg` of each node, the
    features `H` and the layer's parameters (the bias, scale and shift as functions of the lane). -/
def comb (A : (⟨2, ![50000, 64]⟩ : Shape).Idx → EReal) (dg : Fin 50000 → EReal)
    (H : (⟨2, ![50000, 64]⟩ : Shape).Idx → EReal) (WlT : (⟨2, ![64, 64]⟩ : Shape).Idx → EReal)
    (bl : Fin 64 → EReal) (WrT : (⟨2, ![64, 64]⟩ : Shape).Idx → EReal)
    (g be : Fin 64 → EReal) : (⟨2, ![50000, 64]⟩ : Shape).Idx → EReal :=
  fun i => lnRow (outRow (fun k => A (ix2 (i 0) k)) (dg (i 0)) (fun k => H (ix2 (i 0) k))
      (fun k q => WlT (ix2 k q)) bl (fun k q => WrT (ix2 k q))) g be (i 1)

theorem proj_ix2 (H : (⟨2, ![50000, 64]⟩ : Shape).Idx → EReal) (WT : (⟨2, ![64, 64]⟩ : Shape).Idx → EReal)
    (b : Fin 64 → EReal) (p : Fin 50000) (q : Fin 64) :
    proj H WT b (ix2 p q) = projRow (fun k => H (ix2 p k)) (fun k q => WT (ix2 k q)) b q := rfl

theorem comb_ix2 (A : (⟨2, ![50000, 64]⟩ : Shape).Idx → EReal) (dg : Fin 50000 → EReal)
    (H : (⟨2, ![50000, 64]⟩ : Shape).Idx → EReal) (WlT : (⟨2, ![64, 64]⟩ : Shape).Idx → EReal)
    (bl : Fin 64 → EReal) (WrT : (⟨2, ![64, 64]⟩ : Shape).Idx → EReal)
    (g be : Fin 64 → EReal) (p : Fin 50000) (q : Fin 64) :
    comb A dg H WlT bl WrT g be (ix2 p q)
      = lnRow (outRow (fun k => A (ix2 p k)) (dg p) (fun k => H (ix2 p k))
          (fun k q => WlT (ix2 k q)) bl (fun k q => WrT (ix2 k q))) g be q := rfl

end Cert.Sage

end
-- ==== Proof.Model.lean ====
/-
  The two-layer network both programs compute, as one function of the nine arguments.

  The edge table's two rows are the sources and the targets. A node's clipped degree is the number of edges
  arriving at it, raised to at least one (`degV`). The aggregation of projected features gathers the source
  node's row for every edge (a negative source counted from the end) and sums the gathered rows at the targets
  (`aggV`); these are host gather and scatter-sum operations that both programs apply alike, so they are kept as
  the operations themselves and never opened. Layer ℓ takes block ℓ of each stacked parameter: a weight block
  transposed (`matT0`, `matT1`), a bias block as a vector (`row0`, `row1`). One layer is `comb` of the
  aggregation of `proj` of the features, the degrees, and the features (Spec); the network is layer 1 after layer 0.
-/
import proofs.«174102_j12249246728621_1_alg».proof.KernelIdeal
import proofs.«174102_j12249246728621_1_alg».proof.Proof.Gen.KernelIdeal
import proofs.«174102_j12249246728621_1_alg».proof.Proof.Spec

noncomputable section

namespace Cert.Sage.Model

open Idealize.ShloMosaic Idealize.ShloMosaic.ValueIdx Cert.KernelIdeal Cert.KernelIdeal.Gen

/-- Float and integer arrays of a shape, at the ideal instance. -/
abbrev A (s : Shape) := (⟨s, .f32⟩ : BufTy).Contents (Elt Ideal)
abbrev I (s : Shape) := (⟨s, .i32⟩ : BufTy).Contents (Elt Ideal)

/-- The edges' source nodes: row 0 of the edge table. -/
def srcV (E : I S2x800000) : I S800000 :=
  shapeCast S800000 (extractStridedSlice S1x800000 ![0, 0] E slices_S2x800000_S1x800000_0_0) shapeCasts_S1x800000_S800000

/-- The edges' target nodes: row 1 of the edge table. -/
def dstV (E : I S2x800000) : I S800000 :=
  shapeCast S800000 (extractStridedSlice S1x800000 ![1, 0] E slices_S2x800000_S1x800000_1_0) shapeCasts_S1x800000_S800000

/-- Each node's number of arriving edges, raised to at least one. -/
def degV (E : I S2x800000) : A S50000 :=
  maximumf (F := Ideal) (broadcastInDim S50000 ![] bcast_S_S50000 (id (constant (F := Ideal) S_ .f32 0x3F800000#32)))
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (dstV E))
      (broadcastInDim S800000 ![] bcast_S_S800000 (constant (F := Ideal) S_ .f32 0x3F800000#32)))

/-- The rows of `hp` gathered at the edges' sources and summed at their targets. -/
def aggV (E : I S2x800000) (hp : A S50000x64) : A S50000x64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (dstV E))
    (Host.gather gather_S50000x64_S800000x1_S800000x64_1_0_n_n_0_1_164 hp
      (broadcastInDim S800000x1 ![0] bcast_S800000_S800000x1_0
        (select (cmpi .slt (srcV E) (broadcastInDim S800000 ![] bcast_S_S800000 (constantI S_ 32 0#32)))
          (addi (srcV E) (broadcastInDim S800000 ![] bcast_S_S800000 (constantI S_ 32 50000#32)))
          (srcV E))))

/-- Block 0 and block 1 of a stacked weight, transposed. -/
def matT0 (W : A S2x64x64) : A S64x64 :=
  transpose S64x64 [1, 0] (shapeCast S64x64 (extractStridedSlice S1x64x64 ![0, 0, 0] W slices_S2x64x64_S1x64x64_0_0_0) shapeCasts_S1x64x64_S64x64)
    transposes_S64x64_S64x64_1_0
def matT1 (W : A S2x64x64) : A S64x64 :=
  transpose S64x64 [1, 0] (shapeCast S64x64 (extractStridedSlice S1x64x64 ![1, 0, 0] W slices_S2x64x64_S1x64x64_1_0_0) shapeCasts_S1x64x64_S64x64)
    transposes_S64x64_S64x64_1_0

/-- Block 0 and block 1 of a stacked bias, as a vector. -/
def row0 (B : A S2x64) : A S64 :=
  shapeCast S64 (extractStridedSlice S1x64 ![0, 0] B slices_S2x64_S1x64_0_0) shapeCasts_S1x64_S64
def row1 (B : A S2x64) : A S64 :=
  shapeCast S64 (extractStridedSlice S1x64 ![1, 0] B slices_S2x64_S1x64_1_0) shapeCasts_S1x64_S64

/-- One layer from features `h`, the edge table and the layer's parameters already cut out of their stacks. -/
def layer (h : A S50000x64) (E : I S2x800000) (WpT : A S64x64) (bp : A S64) (WlT : A S64x64) (bl : A S64) (WrT : A S64x64)
    (g be : A S64) : A S50000x64 :=
  Cert.Sage.comb (aggV E (Cert.Sage.proj h WpT (fun q => bp (ix1 q)))) (fun p => degV E (ix1 p)) h WlT (fun q => bl (ix1 q)) WrT
    (fun q => g (ix1 q)) (fun q => be (ix1 q))

/-- The network: layer 1 of layer 0 of the input features. -/
def G (x : A S50000x64) (E : I S2x800000) (Wp : A S2x64x64) (bp : A S2x64) (Wl : A S2x64x64) (bl : A S2x64) (Wr : A S2x64x64)
    (g be : A S2x64) : A S50000x64 :=
  layer (layer x E (matT0 Wp) (row0 bp) (matT0 Wl) (row0 bl) (matT0 Wr) (row0 g) (row0 be)) E
    (matT1 Wp) (row1 bp) (matT1 Wl) (row1 bl) (matT1 Wr) (row1 g) (row1 be)

end Cert.Sage.Model

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.KBody0.lean ====
/-
  The projection kernel's block, read at an entry.

  The body takes a block of 5000 rows of the features, the transposed weights and the bias laid down as one row, and
  stores `relu (x·Wᵀ + b)`: the matrix product into the zero accumulator is the sum over the 64 features (the
  roundings to bf16 on the way in are the identity on the extended reals), the bias row is repeated down the rows,
  and the maximum is taken against the zero word. So entry (p, q) of the stored block is `projRow` of row p.
-/
import proofs.«174102_j12249246728621_1_alg».proof.Proof.Gen.KernelIdeal.Skeleton
import proofs.«174102_j12249246728621_1_alg».proof.Proof.Spec
import proofs.«174102_j12249246728621_1_alg».proof.Proof.LibMatmulAt
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BodyProj

open Idealize.ShloMosaic Idealize.ShloMosaic.ValueIdx Cert.KernelIdeal Cert.KernelIdeal.Gen

/-- The product of a 5000-row block with the 64 by 64 weights, read at (p, q): the sum over the contracted feature. -/
theorem matmul_at (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) :=
  MatmulAt.matmul_zero_ix2 dot_S5000x64_S64x64_S5000x64_1_0_0_1_n_n rfl rfl
    (fun _ _ => rfl) (fun i k => dot_S5000x64_S64x64_S5000x64_1_0_0_1_n_n.lhsIdx_val_of_single rfl i k)
    (fun i k => dot_S5000x64_S64x64_S5000x64_1_0_0_1_n_n.rhsIdx_val_of_single rfl i k) (fun _ _ => rfl) none l r p q

/-- Entry (p, q) of the block the projection kernel stores (layer 0's kernel). -/
theorem pay_at (x0 : Vec Ideal S5000x64 .f32) (x1 : Vec Ideal S64x64 .f32) (x2 : Vec Ideal S1x64 .f32) (p : Fin 5000) (q : Fin 64) :
    k0_pay1 (F := Ideal) x0 x1 x2 (ix2 p q)
      = Cert.Sage.projRow (fun k => x0 (ix2 p k)) (fun k q => x1 (ix2 k q)) (fun q => x2 (ix2 (0 : Fin 1) q)) q := by
  unfold k0_pay1 Cert.Sage.projRow
  rw [maximumf_apply, addf_apply, broadcast_apply]
  refine congrArg₂ max (congrArg₂ (· + ·) ?_ ?_) rfl
  · refine (matmul_at _ _ p q).trans (Finset.sum_congr rfl fun k _ => ?_)
    rw [truncf_apply, truncf_apply, shapeCast_self]
  · rw [broadcastTo_1b_ab_apply, shapeCast_self]

/-- Layer 1's projection kernel stores the same function of its blocks (it first casts the feature block to its own shape). -/
theorem pay_at' (x0 : Vec Ideal S5000x64 .f32) (x1 : Vec Ideal S64x64 .f32) (x2 : Vec Ideal S1x64 .f32) (p : Fin 5000) (q : Fin 64) :
    k2_pay1 (F := Ideal) x0 x1 x2 (ix2 p q)
      = Cert.Sage.projRow (fun k => x0 (ix2 p k)) (fun k q => x1 (ix2 k q)) (fun q => x2 (ix2 (0 : Fin 1) q)) q := by
  have e : k2_pay1 (F := Ideal) x0 x1 x2 = k0_pay1 (shapeCast S5000x64 x0 shapeCasts_S5000x64_S5000x64) x1 x2 := rfl
  rw [e, pay_at]
  simp only [shapeCast_self]

end Cert.KernelIdeal.BodyProj

end
-- ==== Proof.KArr0.lean ====
/-
  Region 0's output array as one function of the arrays the region finds.

  The region runs the projection kernel over ten blocks of 5000 rows: point t reads rows 5000·t … 5000·t + 4999 of the
  features, the whole transposed weight matrix and the whole bias row, and writes back the same rows of the output. What
  point t writes back is block t of `proj` of those arrays (a block's element sits at block index × block size + its
  own coordinate), and the ten blocks cover the 50000 rows, so the output array ends holding `proj` whole.
-/
import proofs.«174102_j12249246728621_1_alg».proof.Proof.Gen.KernelIdeal.Frame
import proofs.«174102_j12249246728621_1_alg».proof.Proof.KBody0
import Idealize.ShloMosaic.Lib.Pipeline.Value

set_option maxRecDepth 16384

noncomputable section

namespace Cert.KernelIdeal.Arr0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and output windows move with the point along the rows, the
    weight and bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A stored block's entry from the arrays, given where its three input blocks read them. -/
theorem blk_proj (x0 : Vec Ideal S5000x64 .f32) (x1 : Vec Ideal S64x64 .f32) (x2 : Vec Ideal S1x64 .f32)
    (H : S50000x64.Idx → EReal) (WT : S64x64.Idx → EReal) (b : Fin 64 → EReal) (p : Fin 5000) (q : Fin 64) (r : Fin 50000)
    (h0 : ∀ k : Fin 64, x0 (ix2 p k) = H (ix2 r k)) (h1 : ∀ (k q : Fin 64), x1 (ix2 k q) = WT (ix2 k q))
    (h2 : ∀ q : Fin 64, x2 (ix2 (0 : Fin 1) q) = b q) :
    k0_pay1 (F := Ideal) x0 x1 x2 (ix2 p q) = Cert.Sage.proj H WT b (ix2 r q) := by
  rw [Cert.KernelIdeal.BodyProj.pay_at, Cert.Sage.proj_ix2]
  simp only [h0, h1, h2]

/-- What point t writes back is block t of `proj` of the arrays as the region finds them. -/
theorem flushed_eq (c : Dev nD) (t : Fin cfg0.N) :
    (dat0 V c).flushed 3 t = ((cfg0.win 3).blk t).view.read (Elt Ideal)
      (Cert.Sage.proj (V c main_arg0) (V c main_v12) (fun q => V c main_v21 (ix2 (0 : Fin 1) q))) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  obtain ⟨f0, f1, f2, f3, f4, f5, f6, f7⟩ := idx_facts t
  refine funext fun (y : S5000x64.Idx) => ?_
  show k0_pay1 (F := Ideal) (iblk0 V c 0 t) (iblk0 V c 1 t) (iblk0 V c 2 t) y
      = Cert.Sage.proj (V c main_arg0) (V c main_v12) (fun q => V c main_v21 (ix2 (0 : Fin 1) q)) (((cfg0.win 3).blk t).view.emb y)
  have e3 : ((cfg0.win 3).blk t).view.emb y = ix2 ((((cfg0.win 3).blk t).view.emb y) 0) (y 1) := by
    funext a; apply Fin.ext
    match a with
    | ⟨0, _⟩ => rfl
    | ⟨1, _⟩ => show win0_3.index t (1 : Fin 2) * 64 + 1 * (y 1).val = (y 1).val; omega
  rw [e3]
  conv_lhs => rw [eq_ix2 y]
  refine blk_proj (iblk0 V c 0 t) (iblk0 V c 1 t) (iblk0 V c 2 t) (V c main_arg0) (V c main_v12)
    (fun q => V c main_v21 (ix2 (0 : Fin 1) q)) (y 0) (y 1) ((((cfg0.win 3).blk t).view.emb y) 0) (fun k => ?_) (fun k q => ?_) (fun q => ?_)
  · show V c main_arg0 (((cfg0.win 0).blk t).view.emb (ix2 (y 0) k)) = V c main_arg0 (ix2 ((((cfg0.win 3).blk t).view.emb y) 0) k)
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 64 + 1 * k.val = k.val; omega
  · show V c main_v12 (((cfg0.win 1).blk t).view.emb (ix2 k q)) = V c main_v12 (ix2 k q)
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  · show V c main_v21 (((cfg0.win 2).blk t).view.emb (ix2 (0 : Fin 1) q)) = V c main_v21 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega

/-- An index of the output array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v22).slice (win0_3.rect t)).set ↔ _
  rw [View.set_slice_whole, Rect.mem_set_unit]
  exact Iff.rfl

/-- Every row of the output lies in the block of the point numbered by its row divided by 5000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  refine ⟨⟨(i 0).val / 5000, ht⟩, flush0_3 _, ?_⟩
  rw [mem_blk]
  obtain ⟨f0, f1, f2, f3, f4, f5, f6, f7⟩ := idx_facts ⟨(i 0).val / 5000, ht⟩
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; rw [f6]; show (i 0).val / 5000 * 5000 ≤ (i 0).val ∧ (i 0).val < (i 0).val / 5000 * 5000 + 5000; omega
  | ⟨1, _⟩ => show win0_3.index ⟨(i 0).val / 5000, ht⟩ (1 : Fin 2) * 64 ≤ (i 1).val ∧ (i 1).val < win0_3.index ⟨(i 0).val / 5000, ht⟩ (1 : Fin 2) * 64 + 64; omega

/-- The region's output array after its ten points: the projected features of the arrays the region found. -/
theorem final (c : Dev nD) :
    (dat0 V c).arrAt 3 cfg0.N
      = Cert.Sage.proj (V c main_arg0) (V c main_v12) (fun q => V c main_v21 (ix2 (0 : Fin 1) q)) :=
  (dat0 V c).arrAt_eq_of_cover 3 _ (fun t _ => flushed_eq V c t) cover

end Cert.KernelIdeal.Arr0

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KBody1.lean ====
/-
  The combine-and-normalise kernel's block, read at an entry.

  The body takes 2000 rows: the aggregated sums, the clipped degrees (one column), the nodes' own features, the two
  transposed weight matrices and three rows (bias, scale, shift). It forms `o = (agg / deg)·Wlᵀ + bl + h·Wrᵀ`, then the
  layer norm of every row of `o`: the row's sum over its 64 lanes divided by 64 is the mean, the centred row's squares
  summed and divided by 64 the variance, and the centred row is scaled by `rsqrt (variance + ε)`, by γ and shifted by β.
  Lane sums are sums over the lane coordinate; a column broadcast reads the column; the roundings to bf16 on the way
  into the two products are the identity. So entry (p, q) of the stored block is `lnRow (outRow …) … q` of row p.
-/
import proofs.«174102_j12249246728621_1_alg».proof.Proof.Gen.KernelIdeal.Skeleton
import proofs.«174102_j12249246728621_1_alg».proof.Proof.Spec
import proofs.«174102_j12249246728621_1_alg».proof.Proof.LibMatmulAt
import proofs.«174102_j12249246728621_1_alg».proof.Proof.LibColBroadcast
import proofs.«174102_j12249246728621_1_alg».proof.Proof.LibColumnCast
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BodyComb

open Idealize.ShloMosaic Idealize.ShloMosaic.ValueIdx Cert.KernelIdeal Cert.KernelIdeal.Gen Cert.Sage

/-- The product of a 2000-row block with 64 by 64 weights, read at (p, q): the sum over the contracted feature. -/
theorem matmul_at (l : FVec Ideal S2000x64 .bf16) (r : FVec Ideal S64x64 .bf16) (p : Fin 2000) (q : Fin 64) :
    matmul dot_S2000x64_S64x64_S2000x64_1_0_0_1_n_n none l r (constant S2000x64 .f32 0x00000000#32) (ix2 p q)
      = ∑ k : Fin 64, l (ix2 p k) * r (ix2 k q) :=
  MatmulAt.matmul_zero_ix2 dot_S2000x64_S64x64_S2000x64_1_0_0_1_n_n rfl rfl
    (fun _ _ => rfl) (fun i k => dot_S2000x64_S64x64_S2000x64_1_0_0_1_n_n.lhsIdx_val_of_single rfl i k)
    (fun i k => dot_S2000x64_S64x64_S2000x64_1_0_0_1_n_n.rhsIdx_val_of_single rfl i k) (fun _ _ => rfl) none l r p q

/-- The lane sum of a block laid as one column, read at row p: the sum of row p. -/
theorem rowSum_at (o : FVec Ideal S2000x64 .f32) (p : Fin 2000) :
    shapeCast S2000x1 (multiReduction .add [1] S2000 o 0x00000000#32 reduces_S2000x64_S2000 (.inl rfl) rfl) shapeCasts_S2000_S2000x1
        (ix2 p (0 : Fin 1))
      = ∑ c : Fin 64, o (ix2 p c) := by
  refine (Cert.LibColumnCast.shapeCast_a_a1_apply _ shapeCasts_S2000_S2000x1 p (0 : Fin 1)).trans ?_
  refine (Ideal.multiReduction_add_single o 0x00000000#32 reduces_S2000x64_S2000 (.inl rfl) rfl (ix1 p)).trans ?_
  exact Finset.sum_congr rfl fun c _ => congrArg o (funext fun a => Fin.ext (by
    match a with
    | ⟨0, _⟩ => rfl
    | ⟨1, _⟩ => rfl))

/-- The row means of a block, spread over the lanes. -/
def meanB (o : FVec Ideal S2000x64 .f32) : FVec Ideal S2000x64 .f32 :=
  broadcastTo S2000x64
    (divf (shapeCast S2000x1 (multiReduction .add [1] S2000 o 0x00000000#32 reduces_S2000x64_S2000 (.inl rfl) rfl) shapeCasts_S2000_S2000x1)
      (broadcast S2000x1 (Scalar.ofBits .f32 0x42800000#32)))
    broadcasts_S2000x1_S2000x64

theorem meanB_at (o : FVec Ideal S2000x64 .f32) (p : Fin 2000) (q : Fin 64) :
    meanB o (ix2 p q) = Ideal.div (∑ c : Fin 64, o (ix2 p c)) w64 := by
  unfold meanB
  rw [Cert.LibColBroadcast.broadcastTo_a1_ab_apply, divf_apply, rowSum_at, broadcast_apply]
  rfl

/-- The block with each row's mean taken off. -/
def centre (o : FVec Ideal S2000x64 .f32) : FVec Ideal S2000x64 .f32 := subf o (meanB o)

theorem centre_at (o : FVec Ideal S2000x64 .f32) (p : Fin 2000) (q : Fin 64) :
    centre o (ix2 p q) = o (ix2 p q) - rowMean (fun c => o (ix2 p c)) := by
  unfold centre rowMean
  rw [subf_apply, meanB_at]

/-- The inverse root of a column, read at an entry. -/
theorem rsqrt_at (v : FVec Ideal S2000x1 .f32) (j : S2000x1.Idx) : rsqrt v j = Ideal.rsqrt (v j) := rfl

/-- The centred block scaled by the inverse root of each row's variance plus epsilon. -/
def normed (o : FVec Ideal S2000x64 .f32) : FVec Ideal S2000x64 .f32 :=
  mulf (centre o)
    (broadcastTo S2000x64
      (rsqrt (addf (divf (shapeCast S2000x1 (multiReduction .add [1] S2000 (mulf (centre o) (centre o)) 0x00000000#32 reduces_S2000x64_S2000 (.inl rfl) rfl) shapeCasts_S2000_S2000x1)
          (broadcast S2000x1 (Scalar.ofBits .f32 0x42800000#32)))
        (broadcast S2000x1 (Scalar.ofBits .f32 0x3727C5AC#32))))
      broadcasts_S2000x1_S2000x64)

theorem normed_at (o : FVec Ideal S2000x64 .f32) (p : Fin 2000) (q : Fin 64) :
    normed o (ix2 p q)
      = (o (ix2 p q) - rowMean (fun c => o (ix2 p c)))
        * Ideal.rsqrt (Ideal.div (∑ c : Fin 64, (o (ix2 p c) - rowMean (fun c => o (ix2 p c))) * (o (ix2 p c) - rowMean (fun c => o (ix2 p c)))) w64 + wEps) := by
  unfold normed
  rw [mulf_apply, centre_at, Cert.LibColBroadcast.broadcastTo_a1_ab_apply]
  refine congrArg (fun z : EReal => (o (ix2 p q) - rowMean (fun c => o (ix2 p c))) * z) ?_
  rw [rsqrt_at, addf_apply, divf_apply, rowSum_at, broadcast_apply, broadcast_apply]
  refine congrArg Ideal.rsqrt (congrArg (fun z : EReal => z + wEps) (congrArg (fun z : EReal => Ideal.div z w64) ?_))
  exact Finset.sum_congr rfl fun c _ => by rw [mulf_apply, centre_at]

/-- The combined linear term of a block before the norm. -/
def lin (x0 : Vec Ideal S2000x64 .f32) (x1 : Vec Ideal S2000x1 .f32) (x2 : Vec Ideal S2000x64 .f32) (x3 : Vec Ideal S64x64 .f32)
    (x5 : Vec Ideal S64x64 .f32) (x4 : Vec Ideal S1x64 .f32) : FVec Ideal S2000x64 .f32 :=
  addf (addf
      (matmul dot_S2000x64_S64x64_S2000x64_1_0_0_1_n_n none
        (truncf .bf16 (divf (shapeCast S2000x64 x0 shapeCasts_S2000x64_S2000x64)
          (broadcastTo S2000x64 (shapeCast S2000x1 x1 shapeCasts_S2000x1_S2000x1) broadcasts_S2000x1_S2000x64)) bitsLt_bf16_f32)
        (truncf .bf16 (shapeCast S64x64 x3 shapeCasts_S64x64_S64x64) bitsLt_bf16_f32) (constant S2000x64 .f32 0x00000000#32))
      (broadcastTo S2000x64 (shapeCast S1x64 x4 shapeCasts_S1x64_S1x64) broadcasts_S1x64_S2000x64))
    (matmul dot_S2000x64_S64x64_S2000x64_1_0_0_1_n_n none (truncf .bf16 x2 bitsLt_bf16_f32)
      (truncf .bf16 (shapeCast S64x64 x5 shapeCasts_S64x64_S64x64) bitsLt_bf16_f32) (constant S2000x64 .f32 0x00000000#32))

theorem lin_at (x0 : Vec Ideal S2000x64 .f32) (x1 : Vec Ideal S2000x1 .f32) (x2 : Vec Ideal S2000x64 .f32) (x3 : Vec Ideal S64x64 .f32)
    (x5 : Vec Ideal S64x64 .f32) (x4 : Vec Ideal S1x64 .f32) (p : Fin 2000) (q : Fin 64) :
    lin x0 x1 x2 x3 x5 x4 (ix2 p q)
      = outRow (fun k => x0 (ix2 p k)) (x1 (ix2 p (0 : Fin 1))) (fun k => x2 (ix2 p k)) (fun k q => x3 (ix2 k q))
          (fun q => x4 (ix2 (0 : Fin 1) q)) (fun k q => x5 (ix2 k q)) q := by
  unfold lin outRow
  rw [addf_apply, addf_apply]
  refine congrArg₂ (· + ·) (congrArg₂ (· + ·) ?_ ?_) ?_
  · refine (matmul_at _ _ p q).trans (Finset.sum_congr rfl fun k _ => ?_)
    rw [truncf_apply, truncf_apply, shapeCast_self, divf_apply, shapeCast_self, Cert.LibColBroadcast.broadcastTo_a1_ab_apply, shapeCast_self]
  · rw [broadcastTo_1b_ab_apply, shapeCast_self]
  · refine (matmul_at _ _ p q).trans (Finset.sum_congr rfl fun k _ => ?_)
    rw [truncf_apply, truncf_apply, shapeCast_self]

/-- The block the kernel stores is the normed linear term, scaled and shifted. -/
theorem pay_eq (x0 : Vec Ideal S2000x64 .f32) (x1 : Vec Ideal S2000x1 .f32) (x2 : Vec Ideal S2000x64 .f32) (x3 : Vec Ideal S64x64 .f32)
    (x4 : Vec Ideal S1x64 .f32) (x5 : Vec Ideal S64x64 .f32) (x6 x7 : Vec Ideal S1x64 .f32) :
    k1_pay1 (F := Ideal) (k1_pay2 x0 x1 x2 x3 x5 x4) x6 x7
      = addf (mulf (normed (lin x0 x1 x2 x3 x5 x4)) (broadcastTo S2000x64 (shapeCast S1x64 x6 shapeCasts_S1x64_S1x64) broadcasts_S1x64_S2000x64))
          (broadcastTo S2000x64 (shapeCast S1x64 x7 shapeCasts_S1x64_S1x64) broadcasts_S1x64_S2000x64) := rfl

/-- Entry (p, q) of the block the combine-and-normalise kernel stores (layer 0's kernel). -/
theorem pay_at (x0 : Vec Ideal S2000x64 .f32) (x1 : Vec Ideal S2000x1 .f32) (x2 : Vec Ideal S2000x64 .f32) (x3 : Vec Ideal S64x64 .f32)
    (x4 : Vec Ideal S1x64 .f32) (x5 : Vec Ideal S64x64 .f32) (x6 x7 : Vec Ideal S1x64 .f32) (p : Fin 2000) (q : Fin 64) :
    k1_pay1 (F := Ideal) (k1_pay2 x0 x1 x2 x3 x5 x4) x6 x7 (ix2 p q)
      = lnRow (outRow (fun k => x0 (ix2 p k)) (x1 (ix2 p (0 : Fin 1))) (fun k => x2 (ix2 p k)) (fun k q => x3 (ix2 k q))
            (fun q => x4 (ix2 (0 : Fin 1) q)) (fun k q => x5 (ix2 k q)))
          (fun q => x6 (ix2 (0 : Fin 1) q)) (fun q => x7 (ix2 (0 : Fin 1) q)) q := by
  rw [pay_eq]
  unfold lnRow
  rw [addf_apply, mulf_apply, normed_at, broadcastTo_1b_ab_apply, broadcastTo_1b_ab_apply, shapeCast_self, shapeCast_self]
  simp only [lin_at]

/-- Layer 1's kernel stores the same function of its blocks (it first casts the feature block to its own shape). -/
theorem pay_at' (x0 : Vec Ideal S2000x64 .f32) (x1 : Vec Ideal S2000x1 .f32) (x2 : Vec Ideal S2000x64 .f32) (x3 : Vec Ideal S64x64 .f32)
    (x4 : Vec Ideal S1x64 .f32) (x5 : Vec Ideal S64x64 .f32) (x6 x7 : Vec Ideal S1x64 .f32) (p : Fin 2000) (q : Fin 64) :
    k3_pay1 (F := Ideal) (k3_pay2 x0 x1 x2 x3 x5 x4) x6 x7 (ix2 p q)
      = lnRow (outRow (fun k => x0 (ix2 p k)) (x1 (ix2 p (0 : Fin 1))) (fun k => x2 (ix2 p k)) (fun k q => x3 (ix2 k q))
            (fun q => x4 (ix2 (0 : Fin 1) q)) (fun k q => x5 (ix2 k q)))
          (fun q => x6 (ix2 (0 : Fin 1) q)) (fun q => x7 (ix2 (0 : Fin 1) q)) q := by
  have e : k3_pay1 (F := Ideal) (k3_pay2 x0 x1 x2 x3 x5 x4) x6 x7
      = k1_pay1 (k1_pay2 x0 x1 (shapeCast S2000x64 x2 shapeCasts_S2000x64_S2000x64) x3 x5 x4) x6 x7 := rfl
  rw [e, pay_at]
  simp only [shapeCast_self]

end Cert.KernelIdeal.BodyComb

end
-- ==== Proof.KArr1.lean ====
/-
  Region 1's output array as one function of the arrays the region finds.

  The region runs the combine-and-normalise kernel over twenty-five blocks of 2000 rows: point t reads rows
  2000·t … 2000·t + 1999 of the aggregated sums, of the degree column and of the features, the two whole weight
  matrices and the three whole rows, and writes back the same rows of the output. What point t writes back is block t
  of `comb` of those arrays, and the blocks cover the 50000 rows, so the output array ends holding `comb` whole.
-/
import proofs.«174102_j12249246728621_1_alg».proof.Proof.Gen.KernelIdeal.Frame
import proofs.«174102_j12249246728621_1_alg».proof.Proof.KBody1
import Idealize.ShloMosaic.Lib.Pipeline.Value

set_option maxRecDepth 16384

noncomputable section

namespace Cert.KernelIdeal.Arr1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the sums, degree, feature and output windows move with the point along the
    rows, the weight windows and the three row windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- A stored block's entry from the arrays, given where its eight input blocks read them. -/
theorem blk_comb (x0 : Vec Ideal S2000x64 .f32) (x1 : Vec Ideal S2000x1 .f32) (x2 : Vec Ideal S2000x64 .f32) (x3 : Vec Ideal S64x64 .f32)
    (x4 : Vec Ideal S1x64 .f32) (x5 : Vec Ideal S64x64 .f32) (x6 x7 : Vec Ideal S1x64 .f32)
    (A : S50000x64.Idx → EReal) (dg : Fin 50000 → EReal) (H : S50000x64.Idx → EReal) (WlT : S64x64.Idx → EReal) (bl : Fin 64 → EReal)
    (WrT : S64x64.Idx → EReal) (g be : Fin 64 → EReal) (p : Fin 2000) (q : Fin 64) (r : Fin 50000)
    (h0 : ∀ k : Fin 64, x0 (ix2 p k) = A (ix2 r k)) (h1 : x1 (ix2 p (0 : Fin 1)) = dg r) (h2 : ∀ k : Fin 64, x2 (ix2 p k) = H (ix2 r k))
    (h3 : ∀ (k q : Fin 64), x3 (ix2 k q) = WlT (ix2 k q)) (h4 : ∀ q : Fin 64, x4 (ix2 (0 : Fin 1) q) = bl q)
    (h5 : ∀ (k q : Fin 64), x5 (ix2 k q) = WrT (ix2 k q)) (h6 : ∀ q : Fin 64, x6 (ix2 (0 : Fin 1) q) = g q)
    (h7 : ∀ q : Fin 64, x7 (ix2 (0 : Fin 1) q) = be q) :
    k1_pay1 (F := Ideal) (k1_pay2 x0 x1 x2 x3 x5 x4) x6 x7 (ix2 p q) = Cert.Sage.comb A dg H WlT bl WrT g be (ix2 r q) := by
  rw [Cert.KernelIdeal.BodyComb.pay_at, Cert.Sage.comb_ix2]
  simp only [h0, h1, h2, h3, h4, h5, h6, h7]

set_option maxHeartbeats 4000000 in
/-- What point t writes back is block t of `comb` of the arrays as the region finds them. -/
theorem flushed_eq (c : Dev nD) (t : Fin cfg1.N) :
    (dat1 V c).flushed 8 t = ((cfg1.win 8).blk t).view.read (Elt Ideal)
      (Cert.Sage.comb (V c main_v32) (fun p => V c main_v9 (ix2 p (0 : Fin 1))) (V c main_arg0) (V c main_v15) (fun q => V c main_v39 (ix2 (0 : Fin 1) q))
        (V c main_v18) (fun q => V c main_v40 (ix2 (0 : Fin 1) q)) (fun q => V c main_v41 (ix2 (0 : Fin 1) q))) := by
  show (cfg1.win 8).cut (grid1.coords t) ((dat1 V c).after 8 t) = _
  rw [after1_8]
  unfold out1_8
  rw [View.canon_unit_zero hz]
  simp only [View.ld_unit_zero (S := S2000x64) hz, View.ld_unit_zero (S := S2000x1) hz, View.ld_unit_zero (S := S64x64) hz, View.ld_unit_zero (S := S1x64) hz]
  obtain ⟨f0, f1, f2, f3, f4, f5, f6, f7, f8, f9, f10, f11, f12, f13, f14, f15, f16, f17⟩ := idx_facts t
  refine funext fun (y : S2000x64.Idx) => ?_
  show k1_pay1 (F := Ideal) (k1_pay2 (iblk1 V c 0 t) (iblk1 V c 1 t) (iblk1 V c 2 t) (iblk1 V c 3 t) (iblk1 V c 5 t) (iblk1 V c 4 t)) (iblk1 V c 6 t) (iblk1 V c 7 t) y
      = (Cert.Sage.comb (V c main_v32) (fun p => V c main_v9 (ix2 p (0 : Fin 1))) (V c main_arg0) (V c main_v15) (fun q => V c main_v39 (ix2 (0 : Fin 1) q))
        (V c main_v18) (fun q => V c main_v40 (ix2 (0 : Fin 1) q)) (fun q => V c main_v41 (ix2 (0 : Fin 1) q))) (((cfg1.win 8).blk t).view.emb y)
  have e8 : ((cfg1.win 8).blk t).view.emb y = ix2 ((((cfg1.win 8).blk t).view.emb y) 0) (y 1) := by
    funext a; apply Fin.ext
    match a with
    | ⟨0, _⟩ => rfl
    | ⟨1, _⟩ => show win1_8.index t (1 : Fin 2) * 64 + 1 * (y 1).val = (y 1).val; omega
  rw [e8]
  conv_lhs => rw [eq_ix2 y]
  refine blk_comb (iblk1 V c 0 t) (iblk1 V c 1 t) (iblk1 V c 2 t) (iblk1 V c 3 t) (iblk1 V c 4 t) (iblk1 V c 5 t) (iblk1 V c 6 t) (iblk1 V c 7 t)
    (V c main_v32) (fun p => V c main_v9 (ix2 p (0 : Fin 1))) (V c main_arg0) (V c main_v15) (fun q => V c main_v39 (ix2 (0 : Fin 1) q))
    (V c main_v18) (fun q => V c main_v40 (ix2 (0 : Fin 1) q)) (fun q => V c main_v41 (ix2 (0 : Fin 1) q))
    (y 0) (y 1) ((((cfg1.win 8).blk t).view.emb y) 0) (fun k => ?_) ?_ (fun k => ?_) (fun k q => ?_) (fun q => ?_) (fun k q => ?_) (fun q => ?_) (fun q => ?_)
  · show V c main_v32 (((cfg1.win 0).blk t).view.emb (ix2 (y 0) k)) = V c main_v32 (ix2 ((((cfg1.win 8).blk t).view.emb y) 0) k)
    refine congrArg _ (funext fun a => Fin.ext ?_)
    match a with
    | ⟨0, _⟩ => show win1_0.index t (0 : Fin 2) * 2000 + 1 * (y 0).val = win1_8.index t (0 : Fin 2) * 2000 + 1 * (y 0).val; omega
    | ⟨1, _⟩ => show win1_0.index t (1 : Fin 2) * 64 + 1 * k.val = k.val; omega
  · show V c main_v9 (((cfg1.win 1).blk t).view.emb (ix2 (y 0) (0 : Fin 1))) = V c main_v9 (ix2 ((((cfg1.win 8).blk t).view.emb y) 0) (0 : Fin 1))
    refine congrArg _ (funext fun a => Fin.ext ?_)
    match a with
    | ⟨0, _⟩ => show win1_1.index t (0 : Fin 2) * 2000 + 1 * (y 0).val = win1_8.index t (0 : Fin 2) * 2000 + 1 * (y 0).val; omega
    | ⟨1, _⟩ => show win1_1.index t (1 : Fin 2) * 1 + 1 * 0 = 0; omega
  · show V c main_arg0 (((cfg1.win 2).blk t).view.emb (ix2 (y 0) k)) = V c main_arg0 (ix2 ((((cfg1.win 8).blk t).view.emb y) 0) k)
    refine congrArg _ (funext fun a => Fin.ext ?_)
    match a with
    | ⟨0, _⟩ => show win1_2.index t (0 : Fin 2) * 2000 + 1 * (y 0).val = win1_8.index t (0 : Fin 2) * 2000 + 1 * (y 0).val; omega
    | ⟨1, _⟩ => show win1_2.index t (1 : Fin 2) * 64 + 1 * k.val = k.val; omega
  · show V c main_v15 (((cfg1.win 3).blk t).view.emb (ix2 k q)) = V c main_v15 (ix2 k q)
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · show V c main_v39 (((cfg1.win 4).blk t).view.emb (ix2 (0 : Fin 1) q)) = V c main_v39 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega
  · show V c main_v18 (((cfg1.win 5).blk t).view.emb (ix2 k q)) = V c main_v18 (ix2 k q)
    refine congrArg _ (funext fun a => Fin.ext ?_)
    match a with
    | ⟨0, _⟩ => show win1_5.index t (0 : Fin 2) * 64 + 1 * k.val = k.val; omega
    | ⟨1, _⟩ => show win1_5.index t (1 : Fin 2) * 64 + 1 * q.val = q.val; omega
  · show V c main_v40 (((cfg1.win 6).blk t).view.emb (ix2 (0 : Fin 1) q)) = V c main_v40 (ix2 (0 : Fin 1) q)
    refine congrArg _ (funext fun a => Fin.ext ?_)
    match a with
    | ⟨0, _⟩ => show win1_6.index t (0 : Fin 2) * 1 + 1 * 0 = 0; omega
    | ⟨1, _⟩ => show win1_6.index t (1 : Fin 2) * 64 + 1 * q.val = q.val; omega
  · show V c main_v41 (((cfg1.win 7).blk t).view.emb (ix2 (0 : Fin 1) q)) = V c main_v41 (ix2 (0 : Fin 1) q)
    refine congrArg _ (funext fun a => Fin.ext ?_)
    match a with
    | ⟨0, _⟩ => show win1_7.index t (0 : Fin 2) * 1 + 1 * 0 = 0; omega
    | ⟨1, _⟩ => show win1_7.index t (1 : Fin 2) * 64 + 1 * q.val = q.val; omega

/-- An index of the output array is in point t's block iff each coordinate is in the block's range on its axis. -/
theorem mem_blk (t : Fin cfg1.N) (i : S50000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v42).slice (win1_8.rect t)).set ↔ _
  rw [View.set_slice_whole, Rect.mem_set_unit]
  exact Iff.rfl

/-- Every row of the output lies in the block of the point numbered by its row divided by 2000. -/
theorem cover (i : S50000x64.Idx) : ∃ t : Fin cfg1.N, (cfg1.win 8).flush t = true ∧ i ∈ ((cfg1.win 8).blk t).view.set := by
  have hi0 : (i 0).val < 50000 := (i 0).isLt
  have hi1 : (i 1).val < 64 := (i 1).isLt
  have hN : grid1.N = 25 := N_1
  have ht : (i 0).val / 2000 < cfg1.N := by show (i 0).val / 2000 < grid1.N; omega
  refine ⟨⟨(i 0).val / 2000, ht⟩, flush1_8 _, ?_⟩
  rw [mem_blk]
  obtain ⟨f0, f1, f2, f3, f4, f5, f6, f7, f8, f9, f10, f11, f12, f13, f14, f15, f16, f17⟩ := idx_facts ⟨(i 0).val / 2000, ht⟩
  intro a
  match a with
  | ⟨0, _⟩ => show win1_8.index ⟨(i 0).val / 2000, ht⟩ (0 : Fin 2) * 2000 ≤ (i 0).val ∧ (i 0).val < win1_8.index ⟨(i 0).val / 2000, ht⟩ (0 : Fin 2) * 2000 + 2000; rw [f16]; show (i 0).val / 2000 * 2000 ≤ (i 0).val ∧ (i 0).val < (i 0).val / 2000 * 2000 + 2000; omega
  | ⟨1, _⟩ => show win1_8.index ⟨(i 0).val / 2000, ht⟩ (1 : Fin 2) * 64 ≤ (i 1).val ∧ (i 1).val < win1_8.index ⟨(i 0).val / 2000, ht⟩ (1 : Fin 2) * 64 + 64; omega

/-- The region's output array after its twenty-five points: the layer's output from the arrays the region found. -/
theorem final (c : Dev nD) :
    (dat1 V c).arrAt 8 cfg1.N
      = (Cert.Sage.comb (V c main_v32) (fun p => V c main_v9 (ix2 p (0 : Fin 1))) (V c main_arg0) (V c main_v15) (fun q => V c main_v39 (ix2 (0 : Fin 1) q))
        (V c main_v18) (fun q => V c main_v40 (ix2 (0 : Fin 1) q)) (fun q => V c main_v41 (ix2 (0 : Fin 1) q))) :=
  (dat1 V c).arrAt_eq_of_cover 8 _ (fun t _ => flushed_eq V c t) cover

end Cert.KernelIdeal.Arr1

end
-- ==== Proof.KArr2.lean ====
/-
  Region 2's output array as one function of the arrays the region finds.

  The region runs the projection kernel over ten blocks of 5000 rows: point t reads rows 5000·t … 5000·t + 4999 of the
  features, the whole transposed weight matrix and the whole bias row, and writes back the same rows of the output. What
  point t writes back is block t of `proj` of those arrays (a block's element sits at block index × block size + its
  own coordinate), and the ten blocks cover the 50000 rows, so the output array ends holding `proj` whole.
-/
import proofs.«174102_j12249246728621_1_alg».proof.Proof.Gen.KernelIdeal.Frame
import proofs.«174102_j12249246728621_1_alg».proof.Proof.KBody0
import Idealize.ShloMosaic.Lib.Pipeline.Value

set_option maxRecDepth 16384

noncomputable section

namespace Cert.KernelIdeal.Arr2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and output windows move with the point along the rows, the
    weight and bias windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A stored block's entry from the arrays, given where its three input blocks read them. -/
theorem blk_proj (x0 : Vec Ideal S5000x64 .f32) (x1 : Vec Ideal S64x64 .f32) (x2 : Vec Ideal S1x64 .f32)
    (H : S50000x64.Idx → EReal) (WT : S64x64.Idx → EReal) (b : Fin 64 → EReal) (p : Fin 5000) (q : Fin 64) (r : Fin 50000)
    (h0 : ∀ k : Fin 64, x0 (ix2 p k) = H (ix2 r k)) (h1 : ∀ (k q : Fin 64), x1 (ix2 k q) = WT (ix2 k q))
    (h2 : ∀ q : Fin 64, x2 (ix2 (0 : Fin 1) q) = b q) :
    k2_pay1 (F := Ideal) x0 x1 x2 (ix2 p q) = Cert.Sage.proj H WT b (ix2 r q) := by
  rw [Cert.KernelIdeal.BodyProj.pay_at', Cert.Sage.proj_ix2]
  simp only [h0, h1, h2]

/-- What point t writes back is block t of `proj` of the arrays as the region finds them. -/
theorem flushed_eq (c : Dev nD) (t : Fin cfg2.N) :
    (dat2 V c).flushed 3 t = ((cfg2.win 3).blk t).view.read (Elt Ideal)
      (Cert.Sage.proj (V c main_v42) (V c main_v45) (fun q => V c main_v54 (ix2 (0 : Fin 1) q))) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  obtain ⟨f0, f1, f2, f3, f4, f5, f6, f7⟩ := idx_facts t
  refine funext fun (y : S5000x64.Idx) => ?_
  show k2_pay1 (F := Ideal) (iblk2 V c 0 t) (iblk2 V c 1 t) (iblk2 V c 2 t) y
      = Cert.Sage.proj (V c main_v42) (V c main_v45) (fun q => V c main_v54 (ix2 (0 : Fin 1) q)) (((cfg2.win 3).blk t).view.emb y)
  have e3 : ((cfg2.win 3).blk t).view.emb y = ix2 ((((cfg2.win 3).blk t).view.emb y) 0) (y 1) := by
    funext a; apply Fin.ext
    match a with
    | ⟨0, _⟩ => rfl
    | ⟨1, _⟩ => show win2_3.index t (1 : Fin 2) * 64 + 1 * (y 1).val = (y 1).val; omega
  rw [e3]
  conv_lhs => rw [eq_ix2 y]
  refine blk_proj (iblk2 V c 0 t) (iblk2 V c 1 t) (iblk2 V c 2 t) (V c main_v42) (V c main_v45)
    (fun q => V c main_v54 (ix2 (0 : Fin 1) q)) (y 0) (y 1) ((((cfg2.win 3).blk t).view.emb y) 0) (fun k => ?_) (fun k q => ?_) (fun q => ?_)
  · show V c main_v42 (((cfg2.win 0).blk t).view.emb (ix2 (y 0) k)) = V c main_v42 (ix2 ((((cfg2.win 3).blk t).view.emb y) 0) k)
    refine congrArg _ (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 64 + 1 * k.val = k.val; omega
  · show V c main_v45 (((cfg2.win 1).blk t).view.emb (ix2 k q)) = V c main_v45 (ix2 k q)
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  · show V c main_v54 (((cfg2.win 2).blk t).view.emb (ix2 (0 : Fin 1) q)) = V c main_v54 (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega

/-- An index of the output array is in point t's block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v55).slice (win2_3.rect t)).set ↔ _
  rw [View.set_slice_whole, Rect.mem_set_unit]
  exact Iff.rfl

/-- Every row of the output lies in the block of the point numbered by its row divided by 5000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  have ht : (i 0).val / 5000 < cfg2.N := by show (i 0).val / 5000 < grid2.N; omega
  refine ⟨⟨(i 0).val / 5000, ht⟩, flush2_3 _, ?_⟩
  rw [mem_blk]
  obtain ⟨f0, f1, f2, f3, f4, f5, f6, f7⟩ := idx_facts ⟨(i 0).val / 5000, ht⟩
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; rw [f6]; show (i 0).val / 5000 * 5000 ≤ (i 0).val ∧ (i 0).val < (i 0).val / 5000 * 5000 + 5000; omega
  | ⟨1, _⟩ => show win2_3.index ⟨(i 0).val / 5000, ht⟩ (1 : Fin 2) * 64 ≤ (i 1).val ∧ (i 1).val < win2_3.index ⟨(i 0).val / 5000, ht⟩ (1 : Fin 2) * 64 + 64; omega

/-- The region's output array after its ten points: the projected features of the arrays the region found. -/
theorem final (c : Dev nD) :
    (dat2 V c).arrAt 3 cfg2.N
      = Cert.Sage.proj (V c main_v42) (V c main_v45) (fun q => V c main_v54 (ix2 (0 : Fin 1) q)) :=
  (dat2 V c).arrAt_eq_of_cover 3 _ (fun t _ => flushed_eq V c t) cover

end Cert.KernelIdeal.Arr2

end
-- ==== Proof.KArr3.lean ====
/-
  Region 3's output array as one function of the arrays the region finds.

  The region runs the combine-and-normalise kernel over twenty-five blocks of 2000 rows: point t reads rows
  2000·t … 2000·t + 1999 of the aggregated sums, of the degree column and of the features, the two whole weight
  matrices and the three whole rows, and writes back the same rows of the output. What point t writes back is block t
  of `comb` of those arrays, and the blocks cover the 50000 rows, so the output array ends holding `comb` whole.
-/
import proofs.«174102_j12249246728621_1_alg».proof.Proof.Gen.KernelIdeal.Frame
import proofs.«174102_j12249246728621_1_alg».proof.Proof.KBody1
import Idealize.ShloMosaic.Lib.Pipeline.Value

set_option maxRecDepth 16384

noncomputable section

namespace Cert.KernelIdeal.Arr3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the sums, degree, feature and output windows move with the point along the
    rows, the weight windows and the three row windows stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- A stored block's entry from the arrays, given where its eight input blocks read them. -/
theorem blk_comb (x0 : Vec Ideal S2000x64 .f32) (x1 : Vec Ideal S2000x1 .f32) (x2 : Vec Ideal S2000x64 .f32) (x3 : Vec Ideal S64x64 .f32)
    (x4 : Vec Ideal S1x64 .f32) (x5 : Vec Ideal S64x64 .f32) (x6 x7 : Vec Ideal S1x64 .f32)
    (A : S50000x64.Idx → EReal) (dg : Fin 50000 → EReal) (H : S50000x64.Idx → EReal) (WlT : S64x64.Idx → EReal) (bl : Fin 64 → EReal)
    (WrT : S64x64.Idx → EReal) (g be : Fin 64 → EReal) (p : Fin 2000) (q : Fin 64) (r : Fin 50000)
    (h0 : ∀ k : Fin 64, x0 (ix2 p k) = A (ix2 r k)) (h1 : x1 (ix2 p (0 : Fin 1)) = dg r) (h2 : ∀ k : Fin 64, x2 (ix2 p k) = H (ix2 r k))
    (h3 : ∀ (k q : Fin 64), x3 (ix2 k q) = WlT (ix2 k q)) (h4 : ∀ q : Fin 64, x4 (ix2 (0 : Fin 1) q) = bl q)
    (h5 : ∀ (k q : Fin 64), x5 (ix2 k q) = WrT (ix2 k q)) (h6 : ∀ q : Fin 64, x6 (ix2 (0 : Fin 1) q) = g q)
    (h7 : ∀ q : Fin 64, x7 (ix2 (0 : Fin 1) q) = be q) :
    k3_pay1 (F := Ideal) (k3_pay2 x0 x1 x2 x3 x5 x4) x6 x7 (ix2 p q) = Cert.Sage.comb A dg H WlT bl WrT g be (ix2 r q) := by
  rw [Cert.KernelIdeal.BodyComb.pay_at', Cert.Sage.comb_ix2]
  simp only [h0, h1, h2, h3, h4, h5, h6, h7]

set_option maxHeartbeats 4000000 in
/-- What point t writes back is block t of `comb` of the arrays as the region finds them. -/
theorem flushed_eq (c : Dev nD) (t : Fin cfg3.N) :
    (dat3 V c).flushed 8 t = ((cfg3.win 8).blk t).view.read (Elt Ideal)
      (Cert.Sage.comb (V c main_v65) (fun p => V c main_v9 (ix2 p (0 : Fin 1))) (V c main_v42) (V c main_v48) (fun q => V c main_v72 (ix2 (0 : Fin 1) q))
        (V c main_v51) (fun q => V c main_v73 (ix2 (0 : Fin 1) q)) (fun q => V c main_v74 (ix2 (0 : Fin 1) q))) := by
  show (cfg3.win 8).cut (grid3.coords t) ((dat3 V c).after 8 t) = _
  rw [after3_8]
  unfold out3_8
  rw [View.canon_unit_zero hz]
  simp only [View.ld_unit_zero (S := S2000x64) hz, View.ld_unit_zero (S := S2000x1) hz, View.ld_unit_zero (S := S64x64) hz, View.ld_unit_zero (S := S1x64) hz]
  obtain ⟨f0, f1, f2, f3, f4, f5, f6, f7, f8, f9, f10, f11, f12, f13, f14, f15, f16, f17⟩ := idx_facts t
  refine funext fun (y : S2000x64.Idx) => ?_
  show k3_pay1 (F := Ideal) (k3_pay2 (iblk3 V c 0 t) (iblk3 V c 1 t) (iblk3 V c 2 t) (iblk3 V c 3 t) (iblk3 V c 5 t) (iblk3 V c 4 t)) (iblk3 V c 6 t) (iblk3 V c 7 t) y
      = (Cert.Sage.comb (V c main_v65) (fun p => V c main_v9 (ix2 p (0 : Fin 1))) (V c main_v42) (V c main_v48) (fun q => V c main_v72 (ix2 (0 : Fin 1) q))
        (V c main_v51) (fun q => V c main_v73 (ix2 (0 : Fin 1) q)) (fun q => V c main_v74 (ix2 (0 : Fin 1) q))) (((cfg3.win 8).blk t).view.emb y)
  have e8 : ((cfg3.win 8).blk t).view.emb y = ix2 ((((cfg3.win 8).blk t).view.emb y) 0) (y 1) := by
    funext a; apply Fin.ext
    match a with
    | ⟨0, _⟩ => rfl
    | ⟨1, _⟩ => show win3_8.index t (1 : Fin 2) * 64 + 1 * (y 1).val = (y 1).val; omega
  rw [e8]
  conv_lhs => rw [eq_ix2 y]
  refine blk_comb (iblk3 V c 0 t) (iblk3 V c 1 t) (iblk3 V c 2 t) (iblk3 V c 3 t) (iblk3 V c 4 t) (iblk3 V c 5 t) (iblk3 V c 6 t) (iblk3 V c 7 t)
    (V c main_v65) (fun p => V c main_v9 (ix2 p (0 : Fin 1))) (V c main_v42) (V c main_v48) (fun q => V c main_v72 (ix2 (0 : Fin 1) q))
    (V c main_v51) (fun q => V c main_v73 (ix2 (0 : Fin 1) q)) (fun q => V c main_v74 (ix2 (0 : Fin 1) q))
    (y 0) (y 1) ((((cfg3.win 8).blk t).view.emb y) 0) (fun k => ?_) ?_ (fun k => ?_) (fun k q => ?_) (fun q => ?_) (fun k q => ?_) (fun q => ?_) (fun q => ?_)
  · show V c main_v65 (((cfg3.win 0).blk t).view.emb (ix2 (y 0) k)) = V c main_v65 (ix2 ((((cfg3.win 8).blk t).view.emb y) 0) k)
    refine congrArg _ (funext fun a => Fin.ext ?_)
    match a with
    | ⟨0, _⟩ => show win3_0.index t (0 : Fin 2) * 2000 + 1 * (y 0).val = win3_8.index t (0 : Fin 2) * 2000 + 1 * (y 0).val; omega
    | ⟨1, _⟩ => show win3_0.index t (1 : Fin 2) * 64 + 1 * k.val = k.val; omega
  · show V c main_v9 (((cfg3.win 1).blk t).view.emb (ix2 (y 0) (0 : Fin 1))) = V c main_v9 (ix2 ((((cfg3.win 8).blk t).view.emb y) 0) (0 : Fin 1))
    refine congrArg _ (funext fun a => Fin.ext ?_)
    match a with
    | ⟨0, _⟩ => show win3_1.index t (0 : Fin 2) * 2000 + 1 * (y 0).val = win3_8.index t (0 : Fin 2) * 2000 + 1 * (y 0).val; omega
    | ⟨1, _⟩ => show win3_1.index t (1 : Fin 2) * 1 + 1 * 0 = 0; omega
  · show V c main_v42 (((cfg3.win 2).blk t).view.emb (ix2 (y 0) k)) = V c main_v42 (ix2 ((((cfg3.win 8).blk t).view.emb y) 0) k)
    refine congrArg _ (funext fun a => Fin.ext ?_)
    match a with
    | ⟨0, _⟩ => show win3_2.index t (0 : Fin 2) * 2000 + 1 * (y 0).val = win3_8.index t (0 : Fin 2) * 2000 + 1 * (y 0).val; omega
    | ⟨1, _⟩ => show win3_2.index t (1 : Fin 2) * 64 + 1 * k.val = k.val; omega
  · show V c main_v48 (((cfg3.win 3).blk t).view.emb (ix2 k q)) = V c main_v48 (ix2 k q)
    refine congrArg _ (funext fun a => Fin.ext ?_)
    match a with
    | ⟨0, _⟩ => show win3_3.index t (0 : Fin 2) * 64 + 1 * k.val = k.val; omega
    | ⟨1, _⟩ => show win3_3.index t (1 : Fin 2) * 64 + 1 * q.val = q.val; omega
  · show V c main_v72 (((cfg3.win 4).blk t).view.emb (ix2 (0 : Fin 1) q)) = V c main_v72 (ix2 (0 : Fin 1) q)
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * q.val = q.val; omega
  · show V c main_v51 (((cfg3.win 5).blk t).view.emb (ix2 k q)) = V c main_v51 (ix2 k q)
    refine congrArg _ (funext fun a => Fin.ext ?_)
    match a with
    | ⟨0, _⟩ => show win3_5.index t (0 : Fin 2) * 64 + 1 * k.val = k.val; omega
    | ⟨1, _⟩ => show win3_5.index t (1 : Fin 2) * 64 + 1 * q.val = q.val; omega
  · show V c main_v73 (((cfg3.win 6).blk t).view.emb (ix2 (0 : Fin 1) q)) = V c main_v73 (ix2 (0 : Fin 1) q)
    refine congrArg _ (funext fun a => Fin.ext ?_)
    match a with
    | ⟨0, _⟩ => show win3_6.index t (0 : Fin 2) * 1 + 1 * 0 = 0; omega
    | ⟨1, _⟩ => show win3_6.index t (1 : Fin 2) * 64 + 1 * q.val = q.val; omega
  · show V c main_v74 (((cfg3.win 7).blk t).view.emb (ix2 (0 : Fin 1) q)) = V c main_v74 (ix2 (0 : Fin 1) q)
    refine congrArg _ (funext fun a => Fin.ext ?_)
    match a with
    | ⟨0, _⟩ => show win3_7.index t (0 : Fin 2) * 1 + 1 * 0 = 0; omega
    | ⟨1, _⟩ => show win3_7.index t (1 : Fin 2) * 64 + 1 * q.val = q.val; omega

/-- An index of the output array is in point t's block iff each coordinate is in the block's range on its axis. -/
theorem mem_blk (t : Fin cfg3.N) (i : S50000x64.Idx) :
    i ∈ ((cfg3.win 8).blk t).view.set ↔ ∀ a : Fin 2, win3_8.index t a * S2000x64.size a ≤ (i a).val ∧ (i a).val < win3_8.index t a * S2000x64.size a + S2000x64.size a := by
  show i ∈ ((View.whole main_v75).slice (win3_8.rect t)).set ↔ _
  rw [View.set_slice_whole, Rect.mem_set_unit]
  exact Iff.rfl

/-- Every row of the output lies in the block of the point numbered by its row divided by 2000. -/
theorem cover (i : S50000x64.Idx) : ∃ t : Fin cfg3.N, (cfg3.win 8).flush t = true ∧ i ∈ ((cfg3.win 8).blk t).view.set := by
  have hi0 : (i 0).val < 50000 := (i 0).isLt
  have hi1 : (i 1).val < 64 := (i 1).isLt
  have hN : grid3.N = 25 := N_3
  have ht : (i 0).val / 2000 < cfg3.N := by show (i 0).val / 2000 < grid3.N; omega
  refine ⟨⟨(i 0).val / 2000, ht⟩, flush3_8 _, ?_⟩
  rw [mem_blk]
  obtain ⟨f0, f1, f2, f3, f4, f5, f6, f7, f8, f9, f10, f11, f12, f13, f14, f15, f16, f17⟩ := idx_facts ⟨(i 0).val / 2000, ht⟩
  intro a
  match a with
  | ⟨0, _⟩ => show win3_8.index ⟨(i 0).val / 2000, ht⟩ (0 : Fin 2) * 2000 ≤ (i 0).val ∧ (i 0).val < win3_8.index ⟨(i 0).val / 2000, ht⟩ (0 : Fin 2) * 2000 + 2000; rw [f16]; show (i 0).val / 2000 * 2000 ≤ (i 0).val ∧ (i 0).val < (i 0).val / 2000 * 2000 + 2000; omega
  | ⟨1, _⟩ => show win3_8.index ⟨(i 0).val / 2000, ht⟩ (1 : Fin 2) * 64 ≤ (i 1).val ∧ (i 1).val < win3_8.index ⟨(i 0).val / 2000, ht⟩ (1 : Fin 2) * 64 + 64; omega

/-- The region's output array after its twenty-five points: the layer's output from the arrays the region found. -/
theorem final (c : Dev nD) :
    (dat3 V c).arrAt 8 cfg3.N
      = (Cert.Sage.comb (V c main_v65) (fun p => V c main_v9 (ix2 p (0 : Fin 1))) (V c main_v42) (V c main_v48) (fun q => V c main_v72 (ix2 (0 : Fin 1) q))
        (V c main_v51) (fun q => V c main_v73 (ix2 (0 : Fin 1) q)) (fun q => V c main_v74 (ix2 (0 : Fin 1) q))) :=
  (dat3 V c).arrAt_eq_of_cover 8 _ (fun t _ => flushed_eq V c t) cover

end Cert.KernelIdeal.Arr3

end
-- ==== Proof.LibBcastRowCol.lean ====
/-
  Rows and columns repeated by `broadcast_in_dim`, read at an entry.

  The host lays a vector down as one row (`dims = [1]`) or stands it up as one column (`dims = [0]`) and then repeats the
  row down the rows or the column along the lanes (`dims = [0, 1]`). Read at (p, q):
  * `vecRow_apply`     an [n] vector as a [1, n] row reads, at (0, k), the vector at k;
  * `vecRows_apply`    that row repeated to [m, n] reads, at (p, k), the vector at k;
  * `vecCol_apply`     an [m] vector as an [m, 1] column reads, at (p, 0), the vector at p;
  * `colSpread_apply`  an [m, 1] column repeated to [m, n] reads, at (p, q), the column at (p, 0).
  Companions of the library's `broadcastInDim_oneRow_apply` (a [1, n] row repeated to [m, n]).
-/
import Idealize.ShloMosaic.Lib.Pipeline.Value
import Idealize.ShloMosaic.Lib.ValueIdx
import Idealize.ShloMosaic.Lib.KernelVsHost

namespace Cert.LibBcastRowCol

open Idealize.ShloMosaic Idealize.ShloMosaic.ValueIdx

variable {α : Type}

/-- A vector laid down as one row reads, at (0, k), the vector at k. -/
theorem vecRow_apply {n : ℕ} (h : (⟨1, ![n]⟩ : Shape).BroadcastsInDim ⟨2, ![1, n]⟩ ![1])
    (b : (⟨1, ![n]⟩ : Shape).Idx → α) (k : Fin n) : broadcastInDim ⟨2, ![1, n]⟩ ![1] h b (ix2 (0 : Fin 1) k) = b (ix1 k) := by
  refine broadcastInDim_apply ![1] h b (ix2 (0 : Fin 1) k) (ix1 k) ?_
  intro a
  fin_cases a
  show k.val = if n = 1 then 0 else k.val
  split_ifs with hn
  · have := k.isLt; omega
  · rfl

/-- A vector repeated down the rows reads, at (p, k), the vector at k. -/
theorem vecRows_apply {m n : ℕ} (h : (⟨1, ![n]⟩ : Shape).BroadcastsInDim ⟨2, ![1, n]⟩ ![1])
    (h' : (⟨2, ![1, n]⟩ : Shape).BroadcastsInDim ⟨2, ![m, n]⟩ ![0, 1]) (b : (⟨1, ![n]⟩ : Shape).Idx → α) (p : Fin m) (k : Fin n) :
    broadcastInDim ⟨2, ![m, n]⟩ ![0, 1] h' (broadcastInDim ⟨2, ![1, n]⟩ ![1] h b) (ix2 p k) = b (ix1 k) := by
  rw [broadcastInDim_oneRow_apply, vecRow_apply]

/-- A per-row value stood up as a column reads, at (p, 0), the value of row p. -/
theorem vecCol_apply {m : ℕ} (h : (⟨1, ![m]⟩ : Shape).BroadcastsInDim ⟨2, ![m, 1]⟩ ![0])
    (u : (⟨1, ![m]⟩ : Shape).Idx → α) (p : Fin m) : broadcastInDim ⟨2, ![m, 1]⟩ ![0] h u (ix2 p (0 : Fin 1)) = u (ix1 p) := by
  refine broadcastInDim_apply ![0] h u (ix2 p (0 : Fin 1)) (ix1 p) ?_
  intro a
  fin_cases a
  show p.val = if m = 1 then 0 else p.val
  split_ifs with hm
  · have := p.isLt; omega
  · rfl

/-- A column repeated along the rows reads, at (p, q), the column at row p. -/
theorem colSpread_apply {m n : ℕ} (h : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] h v (ix2 p q) = v (ix2 p (0 : Fin 1)) := by
  refine broadcastInDim_apply ![0, 1] h v (ix2 p q) (ix2 p (0 : Fin 1)) ?_
  intro a
  fin_cases a
  · show p.val = if m = 1 then 0 else p.val
    split_ifs with hm
    · have := p.isLt; omega
    · rfl
  · show (0 : ℕ) = if (1 : ℕ) = 1 then 0 else _
    simp

end Cert.LibBcastRowCol
-- ==== Proof.KChain.lean ====
/-
  The contents of the idealized kernel program's buffers at each boundary between its segments, as functions of the
  nine arguments.

  The program's fold alternates stretches of host operations with four pipelined regions. At a host stretch a buffer
  it writes holds the operation's value of its operands' contents and every other buffer keeps what it held; at a
  region its output array holds the region's whole-array function of the arrays it found (the four array lemmas) and
  every other buffer keeps what it held. Walking the fold from the launch memory: the edge rows, the clipped degrees as
  one column and layer 0's parameters are cut out and laid out; region 0 projects the input; the host aggregates the
  projection along the edges; region 1 combines and normalises, which is layer 0's output; the same four steps with
  layer 1's parameters, from layer 0's output, end at the network `G` of the arguments. A bias laid down as one row
  reads as the bias vector, the degrees stood up as one column read as the degree vector.
-/
import proofs.«174102_j12249246728621_1_alg».proof.Proof.Gen.KernelIdeal.Frame
import proofs.«174102_j12249246728621_1_alg».proof.Proof.Model
import proofs.«174102_j12249246728621_1_alg».proof.Proof.KArr0
import proofs.«174102_j12249246728621_1_alg».proof.Proof.KArr1
import proofs.«174102_j12249246728621_1_alg».proof.Proof.KArr2
import proofs.«174102_j12249246728621_1_alg».proof.Proof.KArr3
import proofs.«174102_j12249246728621_1_alg».proof.Proof.LibBcastRowCol
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Sage.Model

variable (m : (ℓ : Loc nD τ sig) → Buf (Elt Ideal) ℓ) (ρ : Dev nD → PrngReg) (c : Dev nD)

/-! ## The aggregation as one function of the sources, the targets and the gathered array -/

/-- The rows of `hp` gathered at the sources `s` (a negative source counted from the end) and summed at the targets `d`. -/
def aggOf (s d : I S800000) (hp : A S50000x64) : A S50000x64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 hp
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32)))
          s)))

theorem aggV_eq (E : I S2x800000) (hp : A S50000x64) : aggV E hp = aggOf (srcV E) (dstV E) hp := rfl

set_option maxHeartbeats 2000000 in
/-- The host stretch before region 1 leaves in its aggregation buffer `aggOf` of the edge rows and region 0's output. -/
theorem agg_stage1 (V : Valuation τ sig (Elt Ideal)) :
    StableHlo.after hostOps1 V (Proc.devRef .tc main_v32)
      = aggOf (V (Proc.devRef .tc main_v1)) (V (Proc.devRef .tc main_v3)) (V (Proc.devRef .tc main_v22)) := by
  after_results
  all_goals rfl

set_option maxHeartbeats 2000000 in
/-- The host stretch before region 3 likewise, of region 2's output. -/
theorem agg_stage3 (V : Valuation τ sig (Elt Ideal)) :
    StableHlo.after hostOps3 V (Proc.devRef .tc main_v65)
      = aggOf (V (Proc.devRef .tc main_v1)) (V (Proc.devRef .tc main_v3)) (V (Proc.devRef .tc main_v55)) := by
  after_results
  all_goals rfl

/-! ## Up to region 0's entry -/

theorem h3_x : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
  all_goals rfl

theorem h3_v1 : W3 m ρ c (Proc.devRef .tc main_v1) = srcV (m ((c : Thread nD τ).loc main_arg1)) := by
  show StableHlo.after hostOps0_2 (StableHlo.after hostOps0_1 (StableHlo.after hostOps0 (W0 m ρ c))) (Proc.devRef .tc main_v1) = _
  after_results
  all_goals rfl

theorem h3_v3 : W3 m ρ c (Proc.devRef .tc main_v3) = dstV (m ((c : Thread nD τ).loc main_arg1)) := by
  show StableHlo.after hostOps0_2 (StableHlo.after hostOps0_1 (StableHlo.after hostOps0 (W0 m ρ c))) (Proc.devRef .tc main_v3) = _
  after_results
  all_goals rfl

theorem h1_v7 : W1 m ρ c (Proc.devRef .tc main_v7) = Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 (dstV (m ((c : Thread nD τ).loc main_arg1)))) (broadcastInDim S800000 ![] bcast_S_S800000 (constant (F := Ideal) S_ .f32 0x3F800000#32)) := by
  show StableHlo.after hostOps0 (W0 m ρ c) (Proc.devRef .tc main_v7) = _
  after_results
  all_goals rfl

theorem h2_v8 : W2 m ρ c (Proc.devRef .tc main_v8) = degV (m ((c : Thread nD τ).loc main_arg1)) := by
  show StableHlo.after hostOps0_1 (W1 m ρ c) (Proc.devRef .tc main_v8) = _
  after_results
  dsimp only
  unfold degV
  refine congrArg₂ (maximumf (F := Ideal)) ?_ ?_
  · rfl
  · exact h1_v7 m ρ c ▸ rfl

theorem h3_v9 : W3 m ρ c (Proc.devRef .tc main_v9) = broadcastInDim S50000x1 ![0] bcast_S50000_S50000x1_0 (degV (m ((c : Thread nD τ).loc main_arg1))) := by
  have h := h2_v8 m ρ c
  show StableHlo.after hostOps0_2 (W2 m ρ c) (Proc.devRef .tc main_v9) = _
  generalize W2 m ρ c = V2 at h ⊢
  after_results
  rw [h]

theorem h3_v12 : W3 m ρ c (Proc.devRef .tc main_v12) = matT0 (m ((c : Thread nD τ).loc main_arg2)) := by
  show StableHlo.after hostOps0_2 (StableHlo.after hostOps0_1 (StableHlo.after hostOps0 (W0 m ρ c))) (Proc.devRef .tc main_v12) = _
  after_results
  all_goals rfl

theorem h3_v15 : W3 m ρ c (Proc.devRef .tc main_v15) = matT0 (m ((c : Thread nD τ).loc main_arg4)) := by
  show StableHlo.after hostOps0_2 (StableHlo.after hostOps0_1 (StableHlo.after hostOps0 (W0 m ρ c))) (Proc.devRef .tc main_v15) = _
  after_results
  all_goals rfl

theorem h3_v18 : W3 m ρ c (Proc.devRef .tc main_v18) = matT0 (m ((c : Thread nD τ).loc main_arg6)) := by
  show StableHlo.after hostOps0_2 (StableHlo.after hostOps0_1 (StableHlo.after hostOps0 (W0 m ρ c))) (Proc.devRef .tc main_v18) = _
  after_results
  all_goals rfl

theorem h3_v21 : W3 m ρ c (Proc.devRef .tc main_v21) = shapeCast S1x64 (row0 (m ((c : Thread nD τ).loc main_arg3))) shapeCasts_S64_S1x64 := by
  show StableHlo.after hostOps0_2 (StableHlo.after hostOps0_1 (StableHlo.after hostOps0 (W0 m ρ c))) (Proc.devRef .tc main_v21) = _
  after_results
  all_goals rfl

theorem h3_a2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
  all_goals rfl

theorem h3_a3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
  all_goals rfl

theorem h3_a4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results
  all_goals rfl

theorem h3_a5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results
  all_goals rfl

theorem h3_a6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results
  all_goals rfl

theorem h3_a7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results
  all_goals rfl

theorem h3_a8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results
  all_goals rfl

/-! ## Region 0's exit -/

theorem h4_v22 : W4 m ρ c (Proc.devRef .tc main_v22) = Cert.Sage.proj (m ((c : Thread nD τ).loc main_arg0)) (matT0 (m ((c : Thread nD τ).loc main_arg2))) (fun q => row0 (m ((c : Thread nD τ).loc main_arg3)) (ix1 q)) := by
  refine (W4_arr m ρ c 3).trans ((Cert.KernelIdeal.Arr0.final (V3 m ρ) c).trans ?_)
  show Cert.Sage.proj (W3 m ρ c (Proc.devRef .tc main_arg0)) (W3 m ρ c (Proc.devRef .tc main_v12)) (fun q => W3 m ρ c (Proc.devRef .tc main_v21) (ix2 (0 : Fin 1) q)) = _
  rw [h3_x m ρ c, h3_v12 m ρ c, h3_v21 m ρ c]
  have e2 : ∀ v : A S64, (fun q : Fin 64 => shapeCast S1x64 v shapeCasts_S64_S1x64 (ix2 (0 : Fin 1) q)) = fun q => v (ix1 q) :=
    fun v => funext fun q => shapeCast_a_1a_apply _ _ (0 : Fin 1) q
  rw [e2]

theorem h4_x : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (h3_x m ρ c)

theorem h4_v1 : W4 m ρ c (Proc.devRef .tc main_v1) = srcV (m ((c : Thread nD τ).loc main_arg1)) :=
  (W4_of_ne m ρ c main_v1 (by decide)).trans (h3_v1 m ρ c)

theorem h4_v3 : W4 m ρ c (Proc.devRef .tc main_v3) = dstV (m ((c : Thread nD τ).loc main_arg1)) :=
  (W4_of_ne m ρ c main_v3 (by decide)).trans (h3_v3 m ρ c)

theorem h4_v9 : W4 m ρ c (Proc.devRef .tc main_v9) = broadcastInDim S50000x1 ![0] bcast_S50000_S50000x1_0 (degV (m ((c : Thread nD τ).loc main_arg1))) :=
  (W4_of_ne m ρ c main_v9 (by decide)).trans (h3_v9 m ρ c)

theorem h4_v15 : W4 m ρ c (Proc.devRef .tc main_v15) = matT0 (m ((c : Thread nD τ).loc main_arg4)) :=
  (W4_of_ne m ρ c main_v15 (by decide)).trans (h3_v15 m ρ c)

theorem h4_v18 : W4 m ρ c (Proc.devRef .tc main_v18) = matT0 (m ((c : Thread nD τ).loc main_arg6)) :=
  (W4_of_ne m ρ c main_v18 (by decide)).trans (h3_v18 m ρ c)

theorem h4_a2 : W4 m ρ c (Proc.devRef .tc main_arg2) = (m ((c : Thread nD τ).loc main_arg2)) :=
  (W4_of_ne m ρ c main_arg2 (by decide)).trans (h3_a2 m ρ c)

theorem h4_a3 : W4 m ρ c (Proc.devRef .tc main_arg3) = (m ((c : Thread nD τ).loc main_arg3)) :=
  (W4_of_ne m ρ c main_arg3 (by decide)).trans (h3_a3 m ρ c)

theorem h4_a4 : W4 m ρ c (Proc.devRef .tc main_arg4) = (m ((c : Thread nD τ).loc main_arg4)) :=
  (W4_of_ne m ρ c main_arg4 (by decide)).trans (h3_a4 m ρ c)

theorem h4_a5 : W4 m ρ c (Proc.devRef .tc main_arg5) = (m ((c : Thread nD τ).loc main_arg5)) :=
  (W4_of_ne m ρ c main_arg5 (by decide)).trans (h3_a5 m ρ c)

theorem h4_a6 : W4 m ρ c (Proc.devRef .tc main_arg6) = (m ((c : Thread nD τ).loc main_arg6)) :=
  (W4_of_ne m ρ c main_arg6 (by decide)).trans (h3_a6 m ρ c)

theorem h4_a7 : W4 m ρ c (Proc.devRef .tc main_arg7) = (m ((c : Thread nD τ).loc main_arg7)) :=
  (W4_of_ne m ρ c main_arg7 (by decide)).trans (h3_a7 m ρ c)

theorem h4_a8 : W4 m ρ c (Proc.devRef .tc main_arg8) = (m ((c : Thread nD τ).loc main_arg8)) :=
  (W4_of_ne m ρ c main_arg8 (by decide)).trans (h3_a8 m ρ c)

/-! ## Region 1's entry -/

theorem h5_v32 : W5 m ρ c (Proc.devRef .tc main_v32) = aggV (m ((c : Thread nD τ).loc main_arg1)) (Cert.Sage.proj (m ((c : Thread nD τ).loc main_arg0)) (matT0 (m ((c : Thread nD τ).loc main_arg2))) (fun q => row0 (m ((c : Thread nD τ).loc main_arg3)) (ix1 q))) := by
  show StableHlo.after hostOps1 (W4 m ρ c) (Proc.devRef .tc main_v32) = _
  rw [agg_stage1, h4_v1 m ρ c, h4_v3 m ρ c, h4_v22 m ρ c, aggV_eq]

theorem h5_v39 : W5 m ρ c (Proc.devRef .tc main_v39) = shapeCast S1x64 (row0 (m ((c : Thread nD τ).loc main_arg5))) shapeCasts_S64_S1x64 := by
  show StableHlo.after hostOps1 (W4 m ρ c) (Proc.devRef .tc main_v39) = _
  after_results
  rw [h4_a5 m ρ c]
  all_goals rfl

theorem h5_v40 : W5 m ρ c (Proc.devRef .tc main_v40) = shapeCast S1x64 (row0 (m ((c : Thread nD τ).loc main_arg7))) shapeCasts_S64_S1x64 := by
  show StableHlo.after hostOps1 (W4 m ρ c) (Proc.devRef .tc main_v40) = _
  after_results
  rw [h4_a7 m ρ c]
  all_goals rfl

theorem h5_v41 : W5 m ρ c (Proc.devRef .tc main_v41) = shapeCast S1x64 (row0 (m ((c : Thread nD τ).loc main_arg8))) shapeCasts_S64_S1x64 := by
  show StableHlo.after hostOps1 (W4 m ρ c) (Proc.devRef .tc main_v41) = _
  after_results
  rw [h4_a8 m ρ c]
  all_goals rfl

theorem h5_x : W5 m ρ c (Proc.devRef .tc main_arg0) = (m ((c : Thread nD τ).loc main_arg0)) := by
  show StableHlo.after hostOps1 (W4 m ρ c) (Proc.devRef .tc main_arg0) = _
  after_results
  exact h4_x m ρ c

theorem h5_v1 : W5 m ρ c (Proc.devRef .tc main_v1) = srcV (m ((c : Thread nD τ).loc main_arg1)) := by
  show StableHlo.after hostOps1 (W4 m ρ c) (Proc.devRef .tc main_v1) = _
  after_results
  exact h4_v1 m ρ c

theorem h5_v3 : W5 m ρ c (Proc.devRef .tc main_v3) = dstV (m ((c : Thread nD τ).loc main_arg1)) := by
  show StableHlo.after hostOps1 (W4 m ρ c) (Proc.devRef .tc main_v3) = _
  after_results
  exact h4_v3 m ρ c

theorem h5_v9 : W5 m ρ c (Proc.devRef .tc main_v9) = broadcastInDim S50000x1 ![0] bcast_S50000_S50000x1_0 (degV (m ((c : Thread nD τ).loc main_arg1))) := by
  show StableHlo.after hostOps1 (W4 m ρ c) (Proc.devRef .tc main_v9) = _
  after_results
  exact h4_v9 m ρ c

theorem h5_v15 : W5 m ρ c (Proc.devRef .tc main_v15) = matT0 (m ((c : Thread nD τ).loc main_arg4)) := by
  show StableHlo.after hostOps1 (W4 m ρ c) (Proc.devRef .tc main_v15) = _
  after_results
  exact h4_v15 m ρ c

theorem h5_v18 : W5 m ρ c (Proc.devRef .tc main_v18) = matT0 (m ((c : Thread nD τ).loc main_arg6)) := by
  show StableHlo.after hostOps1 (W4 m ρ c) (Proc.devRef .tc main_v18) = _
  after_results
  exact h4_v18 m ρ c

theorem h5_a2 : W5 m ρ c (Proc.devRef .tc main_arg2) = (m ((c : Thread nD τ).loc main_arg2)) := by
  show StableHlo.after hostOps1 (W4 m ρ c) (Proc.devRef .tc main_arg2) = _
  after_results
  exact h4_a2 m ρ c

theorem h5_a3 : W5 m ρ c (Proc.devRef .tc main_arg3) = (m ((c : Thread nD τ).loc main_arg3)) := by
  show StableHlo.after hostOps1 (W4 m ρ c) (Proc.devRef .tc main_arg3) = _
  after_results
  exact h4_a3 m ρ c

theorem h5_a4 : W5 m ρ c (Proc.devRef .tc main_arg4) = (m ((c : Thread nD τ).loc main_arg4)) := by
  show StableHlo.after hostOps1 (W4 m ρ c) (Proc.devRef .tc main_arg4) = _
  after_results
  exact h4_a4 m ρ c

theorem h5_a5 : W5 m ρ c (Proc.devRef .tc main_arg5) = (m ((c : Thread nD τ).loc main_arg5)) := by
  show StableHlo.after hostOps1 (W4 m ρ c) (Proc.devRef .tc main_arg5) = _
  after_results
  exact h4_a5 m ρ c

theorem h5_a6 : W5 m ρ c (Proc.devRef .tc main_arg6) = (m ((c : Thread nD τ).loc main_arg6)) := by
  show StableHlo.after hostOps1 (W4 m ρ c) (Proc.devRef .tc main_arg6) = _
  after_results
  exact h4_a6 m ρ c

theorem h5_a7 : W5 m ρ c (Proc.devRef .tc main_arg7) = (m ((c : Thread nD τ).loc main_arg7)) := by
  show StableHlo.after hostOps1 (W4 m ρ c) (Proc.devRef .tc main_arg7) = _
  after_results
  exact h4_a7 m ρ c

theorem h5_a8 : W5 m ρ c (Proc.devRef .tc main_arg8) = (m ((c : Thread nD τ).loc main_arg8)) := by
  show StableHlo.after hostOps1 (W4 m ρ c) (Proc.devRef .tc main_arg8) = _
  after_results
  exact h4_a8 m ρ c

/-! ## Region 1's exit: layer 0's output -/

theorem h6_v42 : W6 m ρ c (Proc.devRef .tc main_v42) = layer (m ((c : Thread nD τ).loc main_arg0)) (m ((c : Thread nD τ).loc main_arg1)) (matT0 (m ((c : Thread nD τ).loc main_arg2))) (row0 (m ((c : Thread nD τ).loc main_arg3))) (matT0 (m ((c : Thread nD τ).loc main_arg4))) (row0 (m ((c : Thread nD τ).loc main_arg5))) (matT0 (m ((c : Thread nD τ).loc main_arg6))) (row0 (m ((c : Thread nD τ).loc main_arg7))) (row0 (m ((c : Thread nD τ).loc main_arg8))) := by
  refine (W6_arr m ρ c 8).trans ((Cert.KernelIdeal.Arr1.final (V5 m ρ) c).trans ?_)
  show Cert.Sage.comb (W5 m ρ c (Proc.devRef .tc main_v32)) (fun p => W5 m ρ c (Proc.devRef .tc main_v9) (ix2 p (0 : Fin 1))) (W5 m ρ c (Proc.devRef .tc main_arg0)) (W5 m ρ c (Proc.devRef .tc main_v15))
      (fun q => W5 m ρ c (Proc.devRef .tc main_v39) (ix2 (0 : Fin 1) q)) (W5 m ρ c (Proc.devRef .tc main_v18)) (fun q => W5 m ρ c (Proc.devRef .tc main_v40) (ix2 (0 : Fin 1) q))
      (fun q => W5 m ρ c (Proc.devRef .tc main_v41) (ix2 (0 : Fin 1) q)) = _
  rw [h5_v32 m ρ c, h5_v9 m ρ c, h5_x m ρ c, h5_v15 m ρ c, h5_v39 m ρ c, h5_v18 m ρ c, h5_v40 m ρ c, h5_v41 m ρ c]
  have e1 : (fun p : Fin 50000 => (broadcastInDim S50000x1 ![0] bcast_S50000_S50000x1_0 (degV (m ((c : Thread nD τ).loc main_arg1)))) (ix2 p (0 : Fin 1))) = fun p => degV (m ((c : Thread nD τ).loc main_arg1)) (ix1 p) :=
    funext fun p => Cert.LibBcastRowCol.vecCol_apply _ _ p
  have e2 : ∀ v : A S64, (fun q : Fin 64 => shapeCast S1x64 v shapeCasts_S64_S1x64 (ix2 (0 : Fin 1) q)) = fun q => v (ix1 q) :=
    fun v => funext fun q => shapeCast_a_1a_apply _ _ (0 : Fin 1) q
  rw [e1, e2, e2, e2]
  rfl

theorem h6_v9 : W6 m ρ c (Proc.devRef .tc main_v9) = broadcastInDim S50000x1 ![0] bcast_S50000_S50000x1_0 (degV (m ((c : Thread nD τ).loc main_arg1))) :=
  ((W6_arr m ρ c 1).trans (((dat1 (V5 m ρ) c).arrAt_in 1 rfl _).trans (A_eq1 (V5 m ρ) c 1))).trans (h5_v9 m ρ c)

theorem h6_v1 : W6 m ρ c (Proc.devRef .tc main_v1) = srcV (m ((c : Thread nD τ).loc main_arg1)) :=
  (W6_of_ne m ρ c main_v1 (by decide)).trans (h5_v1 m ρ c)

theorem h6_v3 : W6 m ρ c (Proc.devRef .tc main_v3) = dstV (m ((c : Thread nD τ).loc main_arg1)) :=
  (W6_of_ne m ρ c main_v3 (by decide)).trans (h5_v3 m ρ c)

theorem h6_a2 : W6 m ρ c (Proc.devRef .tc main_arg2) = (m ((c : Thread nD τ).loc main_arg2)) :=
  (W6_of_ne m ρ c main_arg2 (by decide)).trans (h5_a2 m ρ c)

theorem h6_a3 : W6 m ρ c (Proc.devRef .tc main_arg3) = (m ((c : Thread nD τ).loc main_arg3)) :=
  (W6_of_ne m ρ c main_arg3 (by decide)).trans (h5_a3 m ρ c)

theorem h6_a4 : W6 m ρ c (Proc.devRef .tc main_arg4) = (m ((c : Thread nD τ).loc main_arg4)) :=
  (W6_of_ne m ρ c main_arg4 (by decide)).trans (h5_a4 m ρ c)

theorem h6_a5 : W6 m ρ c (Proc.devRef .tc main_arg5) = (m ((c : Thread nD τ).loc main_arg5)) :=
  (W6_of_ne m ρ c main_arg5 (by decide)).trans (h5_a5 m ρ c)

theorem h6_a6 : W6 m ρ c (Proc.devRef .tc main_arg6) = (m ((c : Thread nD τ).loc main_arg6)) :=
  (W6_of_ne m ρ c main_arg6 (by decide)).trans (h5_a6 m ρ c)

theorem h6_a7 : W6 m ρ c (Proc.devRef .tc main_arg7) = (m ((c : Thread nD τ).loc main_arg7)) :=
  (W6_of_ne m ρ c main_arg7 (by decide)).trans (h5_a7 m ρ c)

theorem h6_a8 : W6 m ρ c (Proc.devRef .tc main_arg8) = (m ((c : Thread nD τ).loc main_arg8)) :=
  (W6_of_ne m ρ c main_arg8 (by decide)).trans (h5_a8 m ρ c)

/-! ## Region 2's entry -/

theorem h7_v45 : W7 m ρ c (Proc.devRef .tc main_v45) = matT1 (m ((c : Thread nD τ).loc main_arg2)) := by
  show StableHlo.after hostOps2 (W6 m ρ c) (Proc.devRef .tc main_v45) = _
  after_results
  rw [h6_a2 m ρ c]
  all_goals rfl

theorem h7_v48 : W7 m ρ c (Proc.devRef .tc main_v48) = matT1 (m ((c : Thread nD τ).loc main_arg4)) := by
  show StableHlo.after hostOps2 (W6 m ρ c) (Proc.devRef .tc main_v48) = _
  after_results
  rw [h6_a4 m ρ c]
  all_goals rfl

theorem h7_v51 : W7 m ρ c (Proc.devRef .tc main_v51) = matT1 (m ((c : Thread nD τ).loc main_arg6)) := by
  show StableHlo.after hostOps2 (W6 m ρ c) (Proc.devRef .tc main_v51) = _
  after_results
  rw [h6_a6 m ρ c]
  all_goals rfl

theorem h7_v54 : W7 m ρ c (Proc.devRef .tc main_v54) = shapeCast S1x64 (row1 (m ((c : Thread nD τ).loc main_arg3))) shapeCasts_S64_S1x64 := by
  show StableHlo.after hostOps2 (W6 m ρ c) (Proc.devRef .tc main_v54) = _
  after_results
  rw [h6_a3 m ρ c]
  all_goals rfl

theorem h7_v42 : W7 m ρ c (Proc.devRef .tc main_v42) = layer (m ((c : Thread nD τ).loc main_arg0)) (m ((c : Thread nD τ).loc main_arg1)) (matT0 (m ((c : Thread nD τ).loc main_arg2))) (row0 (m ((c : Thread nD τ).loc main_arg3))) (matT0 (m ((c : Thread nD τ).loc main_arg4))) (row0 (m ((c : Thread nD τ).loc main_arg5))) (matT0 (m ((c : Thread nD τ).loc main_arg6))) (row0 (m ((c : Thread nD τ).loc main_arg7))) (row0 (m ((c : Thread nD τ).loc main_arg8))) := by
  show StableHlo.after hostOps2 (W6 m ρ c) (Proc.devRef .tc main_v42) = _
  after_results
  exact h6_v42 m ρ c

theorem h7_v1 : W7 m ρ c (Proc.devRef .tc main_v1) = srcV (m ((c : Thread nD τ).loc main_arg1)) := by
  show StableHlo.after hostOps2 (W6 m ρ c) (Proc.devRef .tc main_v1) = _
  after_results
  exact h6_v1 m ρ c

theorem h7_v3 : W7 m ρ c (Proc.devRef .tc main_v3) = dstV (m ((c : Thread nD τ).loc main_arg1)) := by
  show StableHlo.after hostOps2 (W6 m ρ c) (Proc.devRef .tc main_v3) = _
  after_results
  exact h6_v3 m ρ c

theorem h7_v9 : W7 m ρ c (Proc.devRef .tc main_v9) = broadcastInDim S50000x1 ![0] bcast_S50000_S50000x1_0 (degV (m ((c : Thread nD τ).loc main_arg1))) := by
  show StableHlo.after hostOps2 (W6 m ρ c) (Proc.devRef .tc main_v9) = _
  after_results
  exact h6_v9 m ρ c

theorem h7_a5 : W7 m ρ c (Proc.devRef .tc main_arg5) = (m ((c : Thread nD τ).loc main_arg5)) := by
  show StableHlo.after hostOps2 (W6 m ρ c) (Proc.devRef .tc main_arg5) = _
  after_results
  exact h6_a5 m ρ c

theorem h7_a7 : W7 m ρ c (Proc.devRef .tc main_arg7) = (m ((c : Thread nD τ).loc main_arg7)) := by
  show StableHlo.after hostOps2 (W6 m ρ c) (Proc.devRef .tc main_arg7) = _
  after_results
  exact h6_a7 m ρ c

theorem h7_a8 : W7 m ρ c (Proc.devRef .tc main_arg8) = (m ((c : Thread nD τ).loc main_arg8)) := by
  show StableHlo.after hostOps2 (W6 m ρ c) (Proc.devRef .tc main_arg8) = _
  after_results
  exact h6_a8 m ρ c

/-! ## Region 2's exit -/

theorem h8_v55 : W8 m ρ c (Proc.devRef .tc main_v55) = Cert.Sage.proj (layer (m ((c : Thread nD τ).loc main_arg0)) (m ((c : Thread nD τ).loc main_arg1)) (matT0 (m ((c : Thread nD τ).loc main_arg2))) (row0 (m ((c : Thread nD τ).loc main_arg3))) (matT0 (m ((c : Thread nD τ).loc main_arg4))) (row0 (m ((c : Thread nD τ).loc main_arg5))) (matT0 (m ((c : Thread nD τ).loc main_arg6))) (row0 (m ((c : Thread nD τ).loc main_arg7))) (row0 (m ((c : Thread nD τ).loc main_arg8)))) (matT1 (m ((c : Thread nD τ).loc main_arg2))) (fun q => row1 (m ((c : Thread nD τ).loc main_arg3)) (ix1 q)) := by
  refine (W8_arr m ρ c 3).trans ((Cert.KernelIdeal.Arr2.final (V7 m ρ) c).trans ?_)
  show Cert.Sage.proj (W7 m ρ c (Proc.devRef .tc main_v42)) (W7 m ρ c (Proc.devRef .tc main_v45)) (fun q => W7 m ρ c (Proc.devRef .tc main_v54) (ix2 (0 : Fin 1) q)) = _
  rw [h7_v42 m ρ c, h7_v45 m ρ c, h7_v54 m ρ c]
  have e2 : ∀ v : A S64, (fun q : Fin 64 => shapeCast S1x64 v shapeCasts_S64_S1x64 (ix2 (0 : Fin 1) q)) = fun q => v (ix1 q) :=
    fun v => funext fun q => shapeCast_a_1a_apply _ _ (0 : Fin 1) q
  rw [e2]

theorem h8_v42 : W8 m ρ c (Proc.devRef .tc main_v42) = layer (m ((c : Thread nD τ).loc main_arg0)) (m ((c : Thread nD τ).loc main_arg1)) (matT0 (m ((c : Thread nD τ).loc main_arg2))) (row0 (m ((c : Thread nD τ).loc main_arg3))) (matT0 (m ((c : Thread nD τ).loc main_arg4))) (row0 (m ((c : Thread nD τ).loc main_arg5))) (matT0 (m ((c : Thread nD τ).loc main_arg6))) (row0 (m ((c : Thread nD τ).loc main_arg7))) (row0 (m ((c : Thread nD τ).loc main_arg8))) :=
  ((W8_arr m ρ c 0).trans (((dat2 (V7 m ρ) c).arrAt_in 0 rfl _).trans (A_eq2 (V7 m ρ) c 0))).trans (h7_v42 m ρ c)

theorem h8_v1 : W8 m ρ c (Proc.devRef .tc main_v1) = srcV (m ((c : Thread nD τ).loc main_arg1)) :=
  (W8_of_ne m ρ c main_v1 (by decide)).trans (h7_v1 m ρ c)

theorem h8_v3 : W8 m ρ c (Proc.devRef .tc main_v3) = dstV (m ((c : Thread nD τ).loc main_arg1)) :=
  (W8_of_ne m ρ c main_v3 (by decide)).trans (h7_v3 m ρ c)

theorem h8_v9 : W8 m ρ c (Proc.devRef .tc main_v9) = broadcastInDim S50000x1 ![0] bcast_S50000_S50000x1_0 (degV (m ((c : Thread nD τ).loc main_arg1))) :=
  (W8_of_ne m ρ c main_v9 (by decide)).trans (h7_v9 m ρ c)

theorem h8_v48 : W8 m ρ c (Proc.devRef .tc main_v48) = matT1 (m ((c : Thread nD τ).loc main_arg4)) :=
  (W8_of_ne m ρ c main_v48 (by decide)).trans (h7_v48 m ρ c)

theorem h8_v51 : W8 m ρ c (Proc.devRef .tc main_v51) = matT1 (m ((c : Thread nD τ).loc main_arg6)) :=
  (W8_of_ne m ρ c main_v51 (by decide)).trans (h7_v51 m ρ c)

theorem h8_a5 : W8 m ρ c (Proc.devRef .tc main_arg5) = (m ((c : Thread nD τ).loc main_arg5)) :=
  (W8_of_ne m ρ c main_arg5 (by decide)).trans (h7_a5 m ρ c)

theorem h8_a7 : W8 m ρ c (Proc.devRef .tc main_arg7) = (m ((c : Thread nD τ).loc main_arg7)) :=
  (W8_of_ne m ρ c main_arg7 (by decide)).trans (h7_a7 m ρ c)

theorem h8_a8 : W8 m ρ c (Proc.devRef .tc main_arg8) = (m ((c : Thread nD τ).loc main_arg8)) :=
  (W8_of_ne m ρ c main_arg8 (by decide)).trans (h7_a8 m ρ c)

/-! ## Region 3's entry -/

theorem h9_v65 : W9 m ρ c (Proc.devRef .tc main_v65) = aggV (m ((c : Thread nD τ).loc main_arg1)) (Cert.Sage.proj (layer (m ((c : Thread nD τ).loc main_arg0)) (m ((c : Thread nD τ).loc main_arg1)) (matT0 (m ((c : Thread nD τ).loc main_arg2))) (row0 (m ((c : Thread nD τ).loc main_arg3))) (matT0 (m ((c : Thread nD τ).loc main_arg4))) (row0 (m ((c : Thread nD τ).loc main_arg5))) (matT0 (m ((c : Thread nD τ).loc main_arg6))) (row0 (m ((c : Thread nD τ).loc main_arg7))) (row0 (m ((c : Thread nD τ).loc main_arg8)))) (matT1 (m ((c : Thread nD τ).loc main_arg2))) (fun q => row1 (m ((c : Thread nD τ).loc main_arg3)) (ix1 q))) := by
  show StableHlo.after hostOps3 (W8 m ρ c) (Proc.devRef .tc main_v65) = _
  rw [agg_stage3, h8_v1 m ρ c, h8_v3 m ρ c, h8_v55 m ρ c, aggV_eq]

theorem h9_v72 : W9 m ρ c (Proc.devRef .tc main_v72) = shapeCast S1x64 (row1 (m ((c : Thread nD τ).loc main_arg5))) shapeCasts_S64_S1x64 := by
  show StableHlo.after hostOps3 (W8 m ρ c) (Proc.devRef .tc main_v72) = _
  after_results
  rw [h8_a5 m ρ c]
  all_goals rfl

theorem h9_v73 : W9 m ρ c (Proc.devRef .tc main_v73) = shapeCast S1x64 (row1 (m ((c : Thread nD τ).loc main_arg7))) shapeCasts_S64_S1x64 := by
  show StableHlo.after hostOps3 (W8 m ρ c) (Proc.devRef .tc main_v73) = _
  after_results
  rw [h8_a7 m ρ c]
  all_goals rfl

theorem h9_v74 : W9 m ρ c (Proc.devRef .tc main_v74) = shapeCast S1x64 (row1 (m ((c : Thread nD τ).loc main_arg8))) shapeCasts_S64_S1x64 := by
  show StableHlo.after hostOps3 (W8 m ρ c) (Proc.devRef .tc main_v74) = _
  after_results
  rw [h8_a8 m ρ c]
  all_goals rfl

theorem h9_v9 : W9 m ρ c (Proc.devRef .tc main_v9) = broadcastInDim S50000x1 ![0] bcast_S50000_S50000x1_0 (degV (m ((c : Thread nD τ).loc main_arg1))) := by
  show StableHlo.after hostOps3 (W8 m ρ c) (Proc.devRef .tc main_v9) = _
  after_results
  exact h8_v9 m ρ c

theorem h9_v42 : W9 m ρ c (Proc.devRef .tc main_v42) = layer (m ((c : Thread nD τ).loc main_arg0)) (m ((c : Thread nD τ).loc main_arg1)) (matT0 (m ((c : Thread nD τ).loc main_arg2))) (row0 (m ((c : Thread nD τ).loc main_arg3))) (matT0 (m ((c : Thread nD τ).loc main_arg4))) (row0 (m ((c : Thread nD τ).loc main_arg5))) (matT0 (m ((c : Thread nD τ).loc main_arg6))) (row0 (m ((c : Thread nD τ).loc main_arg7))) (row0 (m ((c : Thread nD τ).loc main_arg8))) := by
  show StableHlo.after hostOps3 (W8 m ρ c) (Proc.devRef .tc main_v42) = _
  after_results
  exact h8_v42 m ρ c

theorem h9_v48 : W9 m ρ c (Proc.devRef .tc main_v48) = matT1 (m ((c : Thread nD τ).loc main_arg4)) := by
  show StableHlo.after hostOps3 (W8 m ρ c) (Proc.devRef .tc main_v48) = _
  after_results
  exact h8_v48 m ρ c

theorem h9_v51 : W9 m ρ c (Proc.devRef .tc main_v51) = matT1 (m ((c : Thread nD τ).loc main_arg6)) := by
  show StableHlo.after hostOps3 (W8 m ρ c) (Proc.devRef .tc main_v51) = _
  after_results
  exact h8_v51 m ρ c

/-! ## Region 3's exit: the result -/

/-- The result buffer at the last boundary holds the network of the arguments. -/
theorem h10_v75 : W10 m ρ c (Proc.devRef .tc main_v75) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 8).trans ((Cert.KernelIdeal.Arr3.final (V9 m ρ) c).trans ?_)
  show Cert.Sage.comb (W9 m ρ c (Proc.devRef .tc main_v65)) (fun p => W9 m ρ c (Proc.devRef .tc main_v9) (ix2 p (0 : Fin 1))) (W9 m ρ c (Proc.devRef .tc main_v42)) (W9 m ρ c (Proc.devRef .tc main_v48))
      (fun q => W9 m ρ c (Proc.devRef .tc main_v72) (ix2 (0 : Fin 1) q)) (W9 m ρ c (Proc.devRef .tc main_v51)) (fun q => W9 m ρ c (Proc.devRef .tc main_v73) (ix2 (0 : Fin 1) q))
      (fun q => W9 m ρ c (Proc.devRef .tc main_v74) (ix2 (0 : Fin 1) q)) = _
  rw [h9_v65 m ρ c, h9_v9 m ρ c, h9_v42 m ρ c, h9_v48 m ρ c, h9_v72 m ρ c, h9_v51 m ρ c, h9_v73 m ρ c, h9_v74 m ρ c]
  have e1 : (fun p : Fin 50000 => (broadcastInDim S50000x1 ![0] bcast_S50000_S50000x1_0 (degV (m ((c : Thread nD τ).loc main_arg1)))) (ix2 p (0 : Fin 1))) = fun p => degV (m ((c : Thread nD τ).loc main_arg1)) (ix1 p) :=
    funext fun p => Cert.LibBcastRowCol.vecCol_apply _ _ p
  have e2 : ∀ v : A S64, (fun q : Fin 64 => shapeCast S1x64 v shapeCasts_S64_S1x64 (ix2 (0 : Fin 1) q)) = fun q => v (ix1 q) :=
    fun v => funext fun q => shapeCast_a_1a_apply _ _ (0 : Fin 1) q
  rw [e1, e2, e2, e2]
  rfl

end Cert.KernelIdeal.Chain

end
-- ==== Proof.RefRun.lean ====
/- The run of the reference program, read back as a fold over the list of its host operations.

   `ops` is @main's 204 operations in program order, each function the program calls written out at its call
   over that call's own buffers: the positive part (the zero, its broadcast, the maximum); the lower clamp (the
   bound at its own type, its broadcast, the maximum); the row variance with a correction of the count (the row
   sums over 64 for the mean, the squares of the differences from it, their row sums over 64 less the correction,
   and the selection that keeps that quotient where 64 less the correction is positive and is the quiet NaN
   elsewhere: the alternative at its own type, its broadcast, the select under the broadcast predicate).
   @main is that straight line (`main_eq`), every operation touches TensorCore buffers only (`ops_sub`), and so
   every weakly fair execution terminates with each buffer at the fold of the operations' results over the
   launch contents (`run_main`). -/
import proofs.«174102_j12249246728621_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 64 operations. The two rows of the edge table (`main_v1`, `main_v3`) and the first of the two
    stacked blocks of each weight and bias argument are sliced out; the input times the first weight, transposed,
    plus its bias, then the positive part of that (`main_v23`); the first edge row, with 50000 added where it is
    negative, indexes a gather of those rows (`main_v30`), which a scatter-sum over zeros accumulates at the second
    edge row (`main_v33`); ones scatter-summed at the second edge row count the edges arriving at each row
    (`main_v37`), the count is raised to at least one (`main_v38`) and divides the sums (`main_v41`); that quotient
    times the second weight plus its bias, plus the input times the third weight (`main_v49`); and the row sums of
    the result (`main_v50`) with the constant 64 they are divided by next. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v4 main_v5 rfl shapeCasts_S1x64x64_S64x64,
    StableHlo.unary main_arg3 main_v6 ((extractStridedSlice S1x64 ![0, 0] · slices_S2x64_S1x64_0_0) : (⟨S2x64, .f32⟩ : BufTy).Contents (Elt F) → (⟨S1x64, .f32⟩ : BufTy).Contents (Elt F)),
    StableHlo.reshape main_v6 main_v7 rfl shapeCasts_S1x64_S64,
    StableHlo.unary main_arg4 main_v8 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v8 main_v9 rfl shapeCasts_S1x64x64_S64x64,
    StableHlo.unary main_arg5 main_v10 ((extractStridedSlice S1x64 ![0, 0] · slices_S2x64_S1x64_0_0) : (⟨S2x64, .f32⟩ : BufTy).Contents (Elt F) → (⟨S1x64, .f32⟩ : BufTy).Contents (Elt F)),
    StableHlo.reshape main_v10 main_v11 rfl shapeCasts_S1x64_S64,
    StableHlo.unary main_arg6 main_v12 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v12 main_v13 rfl shapeCasts_S1x64x64_S64x64,
    StableHlo.unary main_arg7 main_v14 ((extractStridedSlice S1x64 ![0, 0] · slices_S2x64_S1x64_0_0) : (⟨S2x64, .f32⟩ : BufTy).Contents (Elt F) → (⟨S1x64, .f32⟩ : BufTy).Contents (Elt F)),
    StableHlo.reshape main_v14 main_v15 rfl shapeCasts_S1x64_S64,
    StableHlo.unary main_arg8 main_v16 ((extractStridedSlice S1x64 ![0, 0] · slices_S2x64_S1x64_0_0) : (⟨S2x64, .f32⟩ : BufTy).Contents (Elt F) → (⟨S1x64, .f32⟩ : BufTy).Contents (Elt F)),
    StableHlo.reshape main_v16 main_v17 rfl shapeCasts_S1x64_S64,
    StableHlo.unary main_v5 main_v18 ((transpose S64x64 [1, 0] · transposes_S64x64_S64x64_1_0) : (⟨S64x64, .f32⟩ : BufTy).Contents (Elt F) → (⟨S64x64, .f32⟩ : BufTy).Contents (Elt F)),
    StableHlo.binary main_arg0 main_v18 main_v19 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v7 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S50000x64 ![0, 1] bcast_S1x64_S50000x64_0_1 : (⟨S1x64, .f32⟩ : BufTy).Contents (Elt F) → (⟨S50000x64, .f32⟩ : BufTy).Contents (Elt F)),
    StableHlo.binary main_v19 main_v21 main_v22 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v22 : StableHlo.TRef sig ⟨S50000x64, .f32⟩) main_call0.v0 main_call0.v1 maximumf,
    StableHlo.nullary main_c (constantI S_ 32 0#32),
    StableHlo.unary main_c main_v24 (broadcastInDim S800000 ![] bcast_S_S800000 : (⟨S_, .i32⟩ : BufTy).Contents (Elt F) → (⟨S800000, .i32⟩ : BufTy).Contents (Elt F)),
    StableHlo.binary main_v1 main_v24 main_v25 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v26 (broadcastInDim S800000 ![] bcast_S_S800000 : (⟨S_, .i32⟩ : BufTy).Contents (Elt F) → (⟨S800000, .i32⟩ : BufTy).Contents (Elt F)),
    StableHlo.binary main_v1 main_v26 main_v27 (addi : (⟨S800000, .i32⟩ : BufTy).Contents (Elt F) → (⟨S800000, .i32⟩ : BufTy).Contents (Elt F) → (⟨S800000, .i32⟩ : BufTy).Contents (Elt F)),
    StableHlo.ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v28 main_v29 (broadcastInDim S800000x1 ![0] bcast_S800000_S800000x1_0 : (⟨S800000, .i32⟩ : BufTy).Contents (Elt F) → (⟨S800000x1, .i32⟩ : BufTy).Contents (Elt F)),
    StableHlo.binary main_v23 main_v29 main_v30 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v31 (broadcastInDim S50000x64 ![] bcast_S_S50000x64 : (⟨S_, .f32⟩ : BufTy).Contents (Elt F) → (⟨S50000x64, .f32⟩ : BufTy).Contents (Elt F)),
    StableHlo.unary main_v3 main_v32 (broadcastInDim S800000x1 ![0] bcast_S800000_S800000x1_0 : (⟨S800000, .i32⟩ : BufTy).Contents (Elt F) → (⟨S800000x1, .i32⟩ : BufTy).Contents (Elt F)),
    StableHlo.ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_1 (constant S_ .f32 0x3F800000#32),
    StableHlo.unary main_cst_1 main_v34 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v35 (broadcastInDim S50000 ![] bcast_S_S50000 : (⟨S_, .f32⟩ : BufTy).Contents (Elt F) → (⟨S50000, .f32⟩ : BufTy).Contents (Elt F)),
    StableHlo.unary main_v3 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S50000 ![] bcast_S_S50000),
    StableHlo.TRef.binary main_call1.v1 (.of main_v37 : StableHlo.TRef sig ⟨S50000, .f32⟩) main_call1.v2 maximumf,
    StableHlo.unary main_v38 main_v39 (broadcastInDim S50000x1 ![0] bcast_S50000_S50000x1_0 : (⟨S50000, .f32⟩ : BufTy).Contents (Elt F) → (⟨S50000x1, .f32⟩ : BufTy).Contents (Elt F)),
    StableHlo.unary main_v39 main_v40 (broadcastInDim S50000x64 ![0, 1] bcast_S50000x1_S50000x64_0_1 : (⟨S50000x1, .f32⟩ : BufTy).Contents (Elt F) → (⟨S50000x64, .f32⟩ : BufTy).Contents (Elt F)),
    StableHlo.binary main_v33 main_v40 main_v41 (Host.divf : (⟨S50000x64, .f32⟩ : BufTy).Contents (Elt F) → (⟨S50000x64, .f32⟩ : BufTy).Contents (Elt F) → (⟨S50000x64, .f32⟩ : BufTy).Contents (Elt F)),
    StableHlo.unary main_v9 main_v42 ((transpose S64x64 [1, 0] · transposes_S64x64_S64x64_1_0) : (⟨S64x64, .f32⟩ : BufTy).Contents (Elt F) → (⟨S64x64, .f32⟩ : BufTy).Contents (Elt F)),
    StableHlo.binary main_v41 main_v42 main_v43 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v11 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.unary main_v13 main_v47 ((transpose S64x64 [1, 0] · transposes_S64x64_S64x64_1_0) : (⟨S64x64, .f32⟩ : BufTy).Contents (Elt F) → (⟨S64x64, .f32⟩ : BufTy).Contents (Elt F)),
    StableHlo.binary main_arg0 main_v47 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v46 main_v48 main_v49 (addf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x00000000#32),
    StableHlo.binary main_v49 main_cst_4 main_v50 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v50 main_v51 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0x42800000#32) ]

/-- The next 86 operations. The row means of `main_v49` (`main_v53`); its row variances at correction zero, the
    variance function written out (`main_v54`); `main_v49` less its mean, times the reciprocal square root of the
    variance plus the constant 0x3727C5AC, times the scale (`main_arg7`'s first block), plus the shift
    (`main_arg8`'s first block): `main_v67`. Then the second block of each weight and bias argument is sliced out
    and the same steps start again from `main_v67`: times the first weight plus its bias, the positive part
    (`main_v87`), the gather along the first edge row (`main_v94`), the scatter-sum at the second edge row
    (`main_v97`), and the edge counts (`main_v101`) raised to at least one (`main_v102`), as a column (`main_v103`). -/
abbrev ops1 : List (HloOp τ sig (Elt F)) :=
  [ StableHlo.unary main_cst_5 main_v52 (broadcastInDim S50000x1 ![] bcast_S_S50000x1 : (⟨S_, .f32⟩ : BufTy).Contents (Elt F) → (⟨S50000x1, .f32⟩ : BufTy).Contents (Elt F)),
    StableHlo.binary main_v51 main_v52 main_v53 (Host.divf : (⟨S50000x1, .f32⟩ : BufTy).Contents (Elt F) → (⟨S50000x1, .f32⟩ : BufTy).Contents (Elt F) → (⟨S50000x1, .f32⟩ : BufTy).Contents (Elt F)),
    StableHlo.nullary main_c_6 (constantI S_ 32 0#32),
    StableHlo.TRef.nullary main_call2.cst (constant S_ .f32 0x00000000#32),
    StableHlo.TRef.binary (.of main_v49 : StableHlo.TRef sig ⟨S50000x64, .f32⟩) main_call2.cst main_call2.v0 (fun x v => Host.reduceAdd x v reducesTo_S50000x64_S50000_d1 h_S_),
    StableHlo.TRef.unary main_call2.v0 main_call2.v1 (broadcastInDim S50000x1 ![0] bcast_S50000_S50000x1_0),
    StableHlo.TRef.nullary main_call2.cst_0 (constant S_ .f32 0x42800000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x64 ![0, 1] bcast_S50000x1_S50000x64_0_1),
    StableHlo.TRef.binary (.of main_v49 : StableHlo.TRef sig ⟨S50000x64, .f32⟩) main_call2.v4 main_call2.v5 subf,
    StableHlo.TRef.binary main_call2.v5 main_call2.v5 main_call2.v6 mulf,
    StableHlo.TRef.unary (.of main_c_6 : StableHlo.TRef sig ⟨S_, .i32⟩) main_call2.v7 (sitofp .f32),
    StableHlo.TRef.nullary main_call2.cst_1 (constant S_ .f32 0x42800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b),
    StableHlo.unary main_v53 main_v55 (broadcastInDim S50000x64 ![0, 1] bcast_S50000x1_S50000x64_0_1 : (⟨S50000x1, .f32⟩ : BufTy).Contents (Elt F) → (⟨S50000x64, .f32⟩ : BufTy).Contents (Elt F)),
    StableHlo.binary main_v49 main_v55 main_v56 (subf : (⟨S50000x64, .f32⟩ : BufTy).Contents (Elt F) → (⟨S50000x64, .f32⟩ : BufTy).Contents (Elt F) → (⟨S50000x64, .f32⟩ : BufTy).Contents (Elt F)),
    StableHlo.nullary main_cst_7 (constant S_ .f32 0x3727C5AC#32),
    StableHlo.unary main_cst_7 main_v57 (broadcastInDim S50000x1 ![] bcast_S_S50000x1 : (⟨S_, .f32⟩ : BufTy).Contents (Elt F) → (⟨S50000x1, .f32⟩ : BufTy).Contents (Elt F)),
    StableHlo.binary main_v54 main_v57 main_v58 (addf : (⟨S50000x1, .f32⟩ : BufTy).Contents (Elt F) → (⟨S50000x1, .f32⟩ : BufTy).Contents (Elt F) → (⟨S50000x1, .f32⟩ : BufTy).Contents (Elt F)),
    StableHlo.unary main_v58 main_v59 (Host.rsqrt : (⟨S50000x1, .f32⟩ : BufTy).Contents (Elt F) → (⟨S50000x1, .f32⟩ : BufTy).Contents (Elt F)),
    StableHlo.unary main_v59 main_v60 (broadcastInDim S50000x64 ![0, 1] bcast_S50000x1_S50000x64_0_1 : (⟨S50000x1, .f32⟩ : BufTy).Contents (Elt F) → (⟨S50000x64, .f32⟩ : BufTy).Contents (Elt F)),
    StableHlo.binary main_v56 main_v60 main_v61 (mulf : (⟨S50000x64, .f32⟩ : BufTy).Contents (Elt F) → (⟨S50000x64, .f32⟩ : BufTy).Contents (Elt F) → (⟨S50000x64, .f32⟩ : BufTy).Contents (Elt F)),
    StableHlo.unary main_v15 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (mulf : (⟨S50000x64, .f32⟩ : BufTy).Contents (Elt F) → (⟨S50000x64, .f32⟩ : BufTy).Contents (Elt F) → (⟨S50000x64, .f32⟩ : BufTy).Contents (Elt F)),
    StableHlo.unary main_v17 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S50000x64 ![0, 1] bcast_S1x64_S50000x64_0_1 : (⟨S1x64, .f32⟩ : BufTy).Contents (Elt F) → (⟨S50000x64, .f32⟩ : BufTy).Contents (Elt F)),
    StableHlo.binary main_v64 main_v66 main_v67 (addf : (⟨S50000x64, .f32⟩ : BufTy).Contents (Elt F) → (⟨S50000x64, .f32⟩ : BufTy).Contents (Elt F) → (⟨S50000x64, .f32⟩ : BufTy).Contents (Elt F)),
    StableHlo.unary main_arg2 main_v68 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v68 main_v69 rfl shapeCasts_S1x64x64_S64x64,
    StableHlo.unary main_arg3 main_v70 ((extractStridedSlice S1x64 ![1, 0] · slices_S2x64_S1x64_1_0) : (⟨S2x64, .f32⟩ : BufTy).Contents (Elt F) → (⟨S1x64, .f32⟩ : BufTy).Contents (Elt F)),
    StableHlo.reshape main_v70 main_v71 rfl shapeCasts_S1x64_S64,
    StableHlo.unary main_arg4 main_v72 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v72 main_v73 rfl shapeCasts_S1x64x64_S64x64,
    StableHlo.unary main_arg5 main_v74 ((extractStridedSlice S1x64 ![1, 0] · slices_S2x64_S1x64_1_0) : (⟨S2x64, .f32⟩ : BufTy).Contents (Elt F) → (⟨S1x64, .f32⟩ : BufTy).Contents (Elt F)),
    StableHlo.reshape main_v74 main_v75 rfl shapeCasts_S1x64_S64,
    StableHlo.unary main_arg6 main_v76 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v76 main_v77 rfl shapeCasts_S1x64x64_S64x64,
    StableHlo.unary main_arg7 main_v78 ((extractStridedSlice S1x64 ![1, 0] · slices_S2x64_S1x64_1_0) : (⟨S2x64, .f32⟩ : BufTy).Contents (Elt F) → (⟨S1x64, .f32⟩ : BufTy).Contents (Elt F)),
    StableHlo.reshape main_v78 main_v79 rfl shapeCasts_S1x64_S64,
    StableHlo.unary main_arg8 main_v80 ((extractStridedSlice S1x64 ![1, 0] · slices_S2x64_S1x64_1_0) : (⟨S2x64, .f32⟩ : BufTy).Contents (Elt F) → (⟨S1x64, .f32⟩ : BufTy).Contents (Elt F)),
    StableHlo.reshape main_v80 main_v81 rfl shapeCasts_S1x64_S64,
    StableHlo.unary main_v69 main_v82 ((transpose S64x64 [1, 0] · transposes_S64x64_S64x64_1_0) : (⟨S64x64, .f32⟩ : BufTy).Contents (Elt F) → (⟨S64x64, .f32⟩ : BufTy).Contents (Elt F)),
    StableHlo.binary main_v67 main_v82 main_v83 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v71 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S50000x64 ![0, 1] bcast_S1x64_S50000x64_0_1 : (⟨S1x64, .f32⟩ : BufTy).Contents (Elt F) → (⟨S50000x64, .f32⟩ : BufTy).Contents (Elt F)),
    StableHlo.binary main_v83 main_v85 main_v86 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v86 : StableHlo.TRef sig ⟨S50000x64, .f32⟩) main_call3.v0 main_call3.v1 maximumf,
    StableHlo.nullary main_c_8 (constantI S_ 32 0#32),
    StableHlo.unary main_c_8 main_v88 (broadcastInDim S800000 ![] bcast_S_S800000 : (⟨S_, .i32⟩ : BufTy).Contents (Elt F) → (⟨S800000, .i32⟩ : BufTy).Contents (Elt F)),
    StableHlo.binary main_v1 main_v88 main_v89 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v90 (broadcastInDim S800000 ![] bcast_S_S800000 : (⟨S_, .i32⟩ : BufTy).Contents (Elt F) → (⟨S800000, .i32⟩ : BufTy).Contents (Elt F)),
    StableHlo.binary main_v1 main_v90 main_v91 (addi : (⟨S800000, .i32⟩ : BufTy).Contents (Elt F) → (⟨S800000, .i32⟩ : BufTy).Contents (Elt F) → (⟨S800000, .i32⟩ : BufTy).Contents (Elt F)),
    StableHlo.ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v92 main_v93 (broadcastInDim S800000x1 ![0] bcast_S800000_S800000x1_0 : (⟨S800000, .i32⟩ : BufTy).Contents (Elt F) → (⟨S800000x1, .i32⟩ : BufTy).Contents (Elt F)),
    StableHlo.binary main_v87 main_v93 main_v94 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_10 (constant S_ .f32 0x00000000#32),
    StableHlo.unary main_cst_10 main_v95 (broadcastInDim S50000x64 ![] bcast_S_S50000x64 : (⟨S_, .f32⟩ : BufTy).Contents (Elt F) → (⟨S50000x64, .f32⟩ : BufTy).Contents (Elt F)),
    StableHlo.unary main_v3 main_v96 (broadcastInDim S800000x1 ![0] bcast_S800000_S800000x1_0 : (⟨S800000, .i32⟩ : BufTy).Contents (Elt F) → (⟨S800000x1, .i32⟩ : BufTy).Contents (Elt F)),
    StableHlo.ternary main_v95 main_v96 main_v94 main_v97 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_11 (constant S_ .f32 0x3F800000#32),
    StableHlo.unary main_cst_11 main_v98 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v99 (broadcastInDim S50000 ![] bcast_S_S50000 : (⟨S_, .f32⟩ : BufTy).Contents (Elt F) → (⟨S50000, .f32⟩ : BufTy).Contents (Elt F)),
    StableHlo.unary main_v3 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.TRef.unary (.of main_cst_13 : StableHlo.TRef sig ⟨S_, .f32⟩) main_call4.v0 id,
    StableHlo.TRef.unary main_call4.v0 main_call4.v1 (broadcastInDim S50000 ![] bcast_S_S50000),
    StableHlo.TRef.binary main_call4.v1 (.of main_v101 : StableHlo.TRef sig ⟨S50000, .f32⟩) main_call4.v2 maximumf,
    StableHlo.unary main_v102 main_v103 (broadcastInDim S50000x1 ![0] bcast_S50000_S50000x1_0 : (⟨S50000, .f32⟩ : BufTy).Contents (Elt F) → (⟨S50000x1, .f32⟩ : BufTy).Contents (Elt F)) ]

/-- The last 54 operations. The sums divided by the counts (`main_v105`); that quotient times the second weight
    plus its bias, plus `main_v67` times the third weight (`main_v113`); its row means (`main_v117`) and its row
    variances at correction zero, the variance function written out again (`main_v118`); and `main_v113` less its
    mean, times the reciprocal square root of the variance plus the same constant, times the scale, plus the shift:
    `main_v131`, which @main returns. -/
abbrev ops2 : List (HloOp τ sig (Elt F)) :=
  [ StableHlo.unary main_v103 main_v104 (broadcastInDim S50000x64 ![0, 1] bcast_S50000x1_S50000x64_0_1 : (⟨S50000x1, .f32⟩ : BufTy).Contents (Elt F) → (⟨S50000x64, .f32⟩ : BufTy).Contents (Elt F)),
    StableHlo.binary main_v97 main_v104 main_v105 (Host.divf : (⟨S50000x64, .f32⟩ : BufTy).Contents (Elt F) → (⟨S50000x64, .f32⟩ : BufTy).Contents (Elt F) → (⟨S50000x64, .f32⟩ : BufTy).Contents (Elt F)),
    StableHlo.unary main_v73 main_v106 ((transpose S64x64 [1, 0] · transposes_S64x64_S64x64_1_0) : (⟨S64x64, .f32⟩ : BufTy).Contents (Elt F) → (⟨S64x64, .f32⟩ : BufTy).Contents (Elt F)),
    StableHlo.binary main_v105 main_v106 main_v107 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v75 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S50000x64 ![0, 1] bcast_S1x64_S50000x64_0_1 : (⟨S1x64, .f32⟩ : BufTy).Contents (Elt F) → (⟨S50000x64, .f32⟩ : BufTy).Contents (Elt F)),
    StableHlo.binary main_v107 main_v109 main_v110 (addf : (⟨S50000x64, .f32⟩ : BufTy).Contents (Elt F) → (⟨S50000x64, .f32⟩ : BufTy).Contents (Elt F) → (⟨S50000x64, .f32⟩ : BufTy).Contents (Elt F)),
    StableHlo.unary main_v77 main_v111 ((transpose S64x64 [1, 0] · transposes_S64x64_S64x64_1_0) : (⟨S64x64, .f32⟩ : BufTy).Contents (Elt F) → (⟨S64x64, .f32⟩ : BufTy).Contents (Elt F)),
    StableHlo.binary main_v67 main_v111 main_v112 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v110 main_v112 main_v113 (addf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x00000000#32),
    StableHlo.binary main_v113 main_cst_14 main_v114 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v114 main_v115 (broadcastInDim S50000x1 ![0] bcast_S50000_S50000x1_0 : (⟨S50000, .f32⟩ : BufTy).Contents (Elt F) → (⟨S50000x1, .f32⟩ : BufTy).Contents (Elt F)),
    StableHlo.nullary main_cst_15 (constant S_ .f32 0x42800000#32),
    StableHlo.unary main_cst_15 main_v116 (broadcastInDim S50000x1 ![] bcast_S_S50000x1 : (⟨S_, .f32⟩ : BufTy).Contents (Elt F) → (⟨S50000x1, .f32⟩ : BufTy).Contents (Elt F)),
    StableHlo.binary main_v115 main_v116 main_v117 (Host.divf : (⟨S50000x1, .f32⟩ : BufTy).Contents (Elt F) → (⟨S50000x1, .f32⟩ : BufTy).Contents (Elt F) → (⟨S50000x1, .f32⟩ : BufTy).Contents (Elt F)),
    StableHlo.nullary main_c_16 (constantI S_ 32 0#32),
    StableHlo.TRef.nullary main_call5.cst (constant S_ .f32 0x00000000#32),
    StableHlo.TRef.binary (.of main_v113 : StableHlo.TRef sig ⟨S50000x64, .f32⟩) main_call5.cst main_call5.v0 (fun x v => Host.reduceAdd x v reducesTo_S50000x64_S50000_d1 h_S_),
    StableHlo.TRef.unary main_call5.v0 main_call5.v1 (broadcastInDim S50000x1 ![0] bcast_S50000_S50000x1_0),
    StableHlo.TRef.nullary main_call5.cst_0 (constant S_ .f32 0x42800000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x64 ![0, 1] bcast_S50000x1_S50000x64_0_1),
    StableHlo.TRef.binary (.of main_v113 : StableHlo.TRef sig ⟨S50000x64, .f32⟩) main_call5.v4 main_call5.v5 subf,
    StableHlo.TRef.binary main_call5.v5 main_call5.v5 main_call5.v6 mulf,
    StableHlo.TRef.unary (.of main_c_16 : StableHlo.TRef sig ⟨S_, .i32⟩) main_call5.v7 (sitofp .f32),
    StableHlo.TRef.nullary main_call5.cst_1 (constant S_ .f32 0x42800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b),
    StableHlo.unary main_v117 main_v119 (broadcastInDim S50000x64 ![0, 1] bcast_S50000x1_S50000x64_0_1 : (⟨S50000x1, .f32⟩ : BufTy).Contents (Elt F) → (⟨S50000x64, .f32⟩ : BufTy).Contents (Elt F)),
    StableHlo.binary main_v113 main_v119 main_v120 (subf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3727C5AC#32),
    StableHlo.unary main_cst_17 main_v121 (broadcastInDim S50000x1 ![] bcast_S_S50000x1 : (⟨S_, .f32⟩ : BufTy).Contents (Elt F) → (⟨S50000x1, .f32⟩ : BufTy).Contents (Elt F)),
    StableHlo.binary main_v118 main_v121 main_v122 (addf : (⟨S50000x1, .f32⟩ : BufTy).Contents (Elt F) → (⟨S50000x1, .f32⟩ : BufTy).Contents (Elt F) → (⟨S50000x1, .f32⟩ : BufTy).Contents (Elt F)),
    StableHlo.unary main_v122 main_v123 (Host.rsqrt : (⟨S50000x1, .f32⟩ : BufTy).Contents (Elt F) → (⟨S50000x1, .f32⟩ : BufTy).Contents (Elt F)),
    StableHlo.unary main_v123 main_v124 (broadcastInDim S50000x64 ![0, 1] bcast_S50000x1_S50000x64_0_1 : (⟨S50000x1, .f32⟩ : BufTy).Contents (Elt F) → (⟨S50000x64, .f32⟩ : BufTy).Contents (Elt F)),
    StableHlo.binary main_v120 main_v124 main_v125 (mulf : (⟨S50000x64, .f32⟩ : BufTy).Contents (Elt F) → (⟨S50000x64, .f32⟩ : BufTy).Contents (Elt F) → (⟨S50000x64, .f32⟩ : BufTy).Contents (Elt F)),
    StableHlo.unary main_v79 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S50000x64 ![0, 1] bcast_S1x64_S50000x64_0_1 : (⟨S1x64, .f32⟩ : BufTy).Contents (Elt F) → (⟨S50000x64, .f32⟩ : BufTy).Contents (Elt F)),
    StableHlo.binary main_v125 main_v127 main_v128 (mulf : (⟨S50000x64, .f32⟩ : BufTy).Contents (Elt F) → (⟨S50000x64, .f32⟩ : BufTy).Contents (Elt F) → (⟨S50000x64, .f32⟩ : BufTy).Contents (Elt F)),
    StableHlo.unary main_v81 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S50000x64 ![0, 1] bcast_S1x64_S50000x64_0_1 : (⟨S1x64, .f32⟩ : BufTy).Contents (Elt F) → (⟨S50000x64, .f32⟩ : BufTy).Contents (Elt F)),
    StableHlo.binary main_v128 main_v130 main_v131 (addf : (⟨S50000x64, .f32⟩ : BufTy).Contents (Elt F) → (⟨S50000x64, .f32⟩ : BufTy).Contents (Elt F) → (⟨S50000x64, .f32⟩ : BufTy).Contents (Elt F)) ]

/-- @main's 204 operations, in order. -/
abbrev ops : List (HloOp τ sig (Elt F)) := ops0 ++ ops1 ++ ops2

set_option maxRecDepth 8192 in
/-- The first stretch of @main is the straight line of `ops0`: both sides are one chain of operation steps once
    the called functions are unfolded at their calls, the call records read at their fields, and the sequencing
    reassociated; all of it by computation. -/
theorem main_part0_eq (c : Dev nD) : main_part0 (F := F) c = seq ops0 := rfl

set_option maxRecDepth 8192 in
/-- The second stretch of @main is the straight line of `ops1`: both sides are one chain of operation steps once
    the called functions are unfolded at their calls, the call records read at their fields, and the sequencing
    reassociated; all of it by computation. -/
theorem main_part1_eq (c : Dev nD) : main_part1 (F := F) c = seq ops1 := rfl

set_option maxRecDepth 8192 in
/-- The third stretch of @main is the straight line of `ops2`: both sides are one chain of operation steps once
    the called functions are unfolded at their calls, the call records read at their fields, and the sequencing
    reassociated; all of it by computation. -/
theorem main_part2_eq (c : Dev nD) : main_part2 (F := F) c = seq ops2 := rfl

/-- @main runs its three stretches in order, and lines run one after the other are their concatenation run as
    one (`seq_append`). -/
theorem main_eq (c : Dev nD) : main (F := F) c = seq ops := by
  show (main_part0 (F := F) c >>= fun _ => main_part1 (F := F) c >>= fun _ => main_part2 (F := F) c)
    = seq (ops0 ++ ops1 ++ ops2)
  rw [main_part0_eq, main_part1_eq, main_part2_eq, seq_append, seq_append, bind_assoc]

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation of `ops0` is one of the builders over TensorCore references, so touches only those. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., unary_bufs_sub ..,
    binary_bufs_sub .., unary_bufs_sub .., unary_bufs_sub .., binary_bufs_sub .., unary_bufs_sub .., binary_bufs_sub ..,
    unary_bufs_sub .., unary_bufs_sub .., binary_bufs_sub .., unary_bufs_sub .., binary_bufs_sub .., binary_bufs_sub ..,
    nullary_bufs_sub .., binary_bufs_sub .., unary_bufs_sub .., nullary_bufs_sub ..⟩

set_option maxRecDepth 8192 in
/-- Each operation of `ops1` is one of the builders over TensorCore references, so touches only those. -/
theorem ops1_sub : (ops1 : List (HloOp τ sig (Elt F))).Forall fun op => op.bufs ⊆ tcRefs τ sig :=
  ⟨unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., unary_bufs_sub ..,
    binary_bufs_sub .., unary_bufs_sub ..⟩

set_option maxRecDepth 8192 in
/-- Each operation of `ops2` is one of the builders over TensorCore references, so touches only those. -/
theorem ops2_sub : (ops2 : List (HloOp τ sig (Elt F))).Forall fun op => op.bufs ⊆ tcRefs τ sig :=
  ⟨unary_bufs_sub .., binary_bufs_sub .., unary_bufs_sub .., binary_bufs_sub .., unary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

/-- So does each operation of the whole line: a member of the concatenation is a member of one of the three. -/
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp ops0_sub op h
      · exact List.forall_iff_forall_mem.mp ops1_sub op h
    · exact List.forall_iff_forall_mem.mp ops2_sub op h

/-- On every device, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValueBase.lean ====
/-
  Two facts about running host operations in order, for reading the reference's fold stage by stage: running a
  concatenation is running its parts one after the other, and a value written through a typed reference and read back
  through it is itself.
-/
import Idealize.ShloMosaic.Lib.StableHlo.Run

noncomputable section

namespace Cert.ReferenceIdeal.RefValue

open Idealize.ShloMosaic Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value written through a typed reference and read back through it is itself. -/
theorem ofBuf_toBuf {T : BufTy} (x : StableHlo.TRef sig T) (v : T.Contents Val) : x.ofBuf (x.toBuf v) = v := by
  obtain ⟨r, h, _, _⟩ := x
  subst h
  rfl

end Cert.ReferenceIdeal.RefValue

end
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.RefValueLayer.lean ====
/-
  One layer of the reference program as a pure function, and that it is the model's layer.

  The reference computes a layer with whole-array host operations: the projection `relu (h·Wpᵀ + bp)`; a gather of its
  rows at the edges' sources and a scatter-sum at their targets; the number of edges arriving at each node, raised to at
  least one; the combined linear term `(agg / deg)·Wlᵀ + bl + h·Wrᵀ`; the row means; the row variances (the centred
  squares' sums over 64 less a correction that is zero, selected where that count is positive); and the centred rows
  scaled by the inverse root of variance plus epsilon, by γ, and shifted by β. `refLayer` is that composition. Read at
  an entry (p, q) each local step is the row function of the specification: a matrix product is the sum over the
  contracted feature, a bias row repeated down the rows reads the bias at q, a column repeated along the lanes reads the
  column at p, a row sum is the sum over the lane, the variance's count is 64 and its selection keeps the quotient. The
  gather and the scatter-sum are the model's aggregation applied to the same projected array, and are never opened.
-/
import proofs.«174102_j12249246728621_1_alg».proof.Proof.Gen.ReferenceIdeal
import proofs.«174102_j12249246728621_1_alg».proof.Proof.Model
import proofs.«174102_j12249246728621_1_alg».proof.Proof.LibMatmulAt
import proofs.«174102_j12249246728621_1_alg».proof.Proof.LibBcastRowCol
import proofs.«174102_j12249246728621_1_alg».proof.Proof.LibHostRead
import Idealize.ShloMosaic.PureOps.Ideal.Laws
import Idealize.ShloMosaic.Lib.ValueIdx
import Idealize.ShloMosaic.Lib.ValueLayout

noncomputable section

open scoped BigOperators

namespace Cert.ReferenceIdeal.RefValue

open Cert.ReferenceIdeal Cert.ReferenceIdeal.Gen Idealize.ShloMosaic Idealize.ShloMosaic.ValueIdx

/-- Float and integer arrays of a shape, at the ideal instance. -/
abbrev A (s : Shape) := FVec Ideal s .f32
abbrev I (s : Shape) := IVec s 32

/-- A vector laid down as one row and repeated down the 50000 rows. -/
abbrev rowsOf (b : A S64) : A S50000x64 :=
  broadcastInDim S50000x64 ![0, 1] bcast_S1x64_S50000x64_0_1 (broadcastInDim S1x64 ![1] bcast_S64_S1x64_1 b)

/-- A column repeated along the 64 lanes. -/
abbrev lanesOf (v : A S50000x1) : A S50000x64 :=
  broadcastInDim S50000x64 ![0, 1] bcast_S50000x1_S50000x64_0_1 v

/-- A per-row value stood up as a column. -/
abbrev colOf (u : A S50000) : A S50000x1 :=
  broadcastInDim S50000x1 ![0] bcast_S50000_S50000x1_0 u

/-- The projected features: the positive part of the features times the transposed weight plus the bias. -/
def hpR (h : A S50000x64) (WpT : A S64x64) (bp : A S64) : A S50000x64 :=
  maximumf (F := Ideal)
    (addf (F := Ideal) (Host.dotGeneral (F := Ideal) dot_S50000x64_S64x64_S50000x64_1_0_0_1_n_n none h WpT) (rowsOf bp))
    (broadcastInDim S50000x64 ![] bcast_S_S50000x64 (constant (F := Ideal) S_ .f32 0x00000000#32))

/-- The gather's index column: each source, with 50000 added where it is negative. -/
def idxR (s : I S800000) : I S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows of `hp` gathered at the sources and summed at the targets. -/
def aggR (hp : A S50000x64) (s d : I S800000) : A S50000x64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 hp (idxR s))

/-- The number of edges arriving at each node, raised to at least one. -/
def degR (d : I S800000) : A S50000 :=
  maximumf (F := Ideal) (broadcastInDim S50000 ![] bcast_S_S50000 (id (constant (F := Ideal) S_ .f32 0x3F800000#32)))
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 d)
      (broadcastInDim S800000 ![] bcast_S_S800000 (constant (F := Ideal) S_ .f32 0x3F800000#32)))

/-- The combined linear term: the mean over arriving edges times one weight plus its bias, plus the features times another. -/
def linR (h a : A S50000x64) (dg : A S50000) (WlT : A S64x64) (bl : A S64) (WrT : A S64x64) : A S50000x64 :=
  addf (F := Ideal)
    (addf (F := Ideal)
      (Host.dotGeneral (F := Ideal) dot_S50000x64_S64x64_S50000x64_1_0_0_1_n_n none
        (Host.divf (F := Ideal) a (lanesOf (colOf dg))) WlT)
      (rowsOf bl))
    (Host.dotGeneral (F := Ideal) dot_S50000x64_S64x64_S50000x64_1_0_0_1_n_n none h WrT)

/-- The row sums as a column. -/
def rowSumR (o : A S50000x64) : A S50000x1 :=
  colOf (Host.reduceAdd (F := Ideal) o (constant (F := Ideal) S_ .f32 0x00000000#32) reducesTo_S50000x64_S50000_d1 h_S_)

/-- The row means as a column: the row sums over 64. -/
def meanR (o : A S50000x64) : A S50000x1 :=
  Host.divf (F := Ideal) (rowSumR o)
    (broadcastInDim S50000x1 ![] bcast_S_S50000x1 (constant (F := Ideal) S_ .f32 0x42800000#32))

/-- The rows with their means taken off. -/
def centR (o : A S50000x64) : A S50000x64 := subf (F := Ideal) o (lanesOf (meanR o))

/-- The count the variance divides by: 64 less the correction, which is zero. -/
def cntR : A S_ :=
  subf (F := Ideal) (constant (F := Ideal) S_ .f32 0x42800000#32) (sitofp (F := Ideal) .f32 (constantI S_ 32 0#32))

/-- The row variances as a column: the centred squares' row sums over the count where the count is positive,
    the quiet NaN elsewhere. -/
def varR (o : A S50000x64) : A S50000x1 :=
  select (broadcastInDim S50000x1 ![] bcast_S_S50000x1 (cmpf (F := Ideal) .ogt cntR (constant (F := Ideal) S_ .f32 0x00000000#32)))
    (Host.divf (F := Ideal) (rowSumR (mulf (F := Ideal) (centR o) (centR o))) (broadcastInDim S50000x1 ![] bcast_S_S50000x1 cntR))
    (broadcastInDim S50000x1 ![] bcast_S_S50000x1 (id (constant (F := Ideal) S_ .f32 0x7FC00000#32)))

/-- The last step of the layer norm from the rows, their means and their variances: centred, scaled by the inverse
    root of the variance plus epsilon, then the affine map. -/
def lnCore (o : A S50000x64) (m v : A S50000x1) (g be : A S64) : A S50000x64 :=
  addf (F := Ideal)
    (mulf (F := Ideal)
      (mulf (F := Ideal) (subf (F := Ideal) o (lanesOf m))
        (lanesOf (Host.rsqrt (F := Ideal) (addf (F := Ideal) v
          (broadcastInDim S50000x1 ![] bcast_S_S50000x1 (constant (F := Ideal) S_ .f32 0x3727C5AC#32))))))
      (rowsOf g))
    (rowsOf be)

/-- The layer norm of every row, scaled and shifted. -/
def lnR (o : A S50000x64) (g be : A S64) : A S50000x64 := lnCore o (meanR o) (varR o) g be

/-- One layer as the reference computes it, from the features, the sources and targets, and the layer's parameters. -/
def refLayer (h : A S50000x64) (s d : I S800000) (WpT : A S64x64) (bp : A S64) (WlT : A S64x64) (bl : A S64) (WrT : A S64x64)
    (g be : A S64) : A S50000x64 :=
  lnR (linR h (aggR (hpR h WpT bp) s d) (degR d) WlT bl WrT) g be

/-! ## One layer, read at an entry -/

/-- The product of the 50000-row array with 64 by 64 weights, read at (p, q): the sum over the contracted feature. -/
theorem dot_at (l : A S50000x64) (r : A S64x64) (p : Fin 50000) (q : Fin 64) :
    Host.dotGeneral (F := Ideal) dot_S50000x64_S64x64_S50000x64_1_0_0_1_n_n none l r (ix2 p q)
      = ∑ k : Fin 64, l (ix2 p k) * r (ix2 k q) :=
  MatmulAt.dotGeneral_ix2 dot_S50000x64_S64x64_S50000x64_1_0_0_1_n_n rfl rfl
    (fun _ _ => rfl) (fun i k => dot_S50000x64_S64x64_S50000x64_1_0_0_1_n_n.lhsIdx_val_of_single rfl i k)
    (fun i k => dot_S50000x64_S64x64_S50000x64_1_0_0_1_n_n.rhsIdx_val_of_single rfl i k) (fun _ _ => rfl) none l r p q

/-- A vector repeated down the rows reads, at (p, q), the vector at q. -/
theorem rowsOf_at (b : A S64) (p : Fin 50000) (q : Fin 64) : rowsOf b (ix2 p q) = b (ix1 q) :=
  Cert.LibBcastRowCol.vecRows_apply bcast_S64_S1x64_1 bcast_S1x64_S50000x64_0_1 b p q

/-- A column repeated along the lanes reads, at (p, q), the column at row p. -/
theorem lanesOf_at (v : A S50000x1) (p : Fin 50000) (q : Fin 64) : lanesOf v (ix2 p q) = v (ix2 p (0 : Fin 1)) :=
  Cert.LibBcastRowCol.colSpread_apply bcast_S50000x1_S50000x64_0_1 v p q

/-- A per-row value stood up as a column reads, at (p, 0), the value of row p. -/
theorem colOf_at (u : A S50000) (p : Fin 50000) : colOf u (ix2 p (0 : Fin 1)) = u (ix1 p) :=
  Cert.LibBcastRowCol.vecCol_apply bcast_S50000_S50000x1_0 u p

/-- Entry (p, q) of the projected features: `projRow` of row p. -/
theorem hpR_at (h : A S50000x64) (WpT : A S64x64) (bp : A S64) (p : Fin 50000) (q : Fin 64) :
    hpR h WpT bp (ix2 p q)
      = Cert.Sage.projRow (fun k => h (ix2 p k)) (fun k q => WpT (ix2 k q)) (fun q => bp (ix1 q)) q := by
  unfold hpR Cert.Sage.projRow
  rw [maximumf_apply, addf_apply]
  exact congrArg₂ max (congrArg₂ (· + ·) (dot_at h WpT p q) (rowsOf_at bp p q)) (HostRead.splat_at _ _ _)

/-- The projected features are `proj` of the features. -/
theorem hpR_eq (h : A S50000x64) (WpT : A S64x64) (bp : A S64) :
    hpR h WpT bp = Cert.Sage.proj h WpT (fun q => bp (ix1 q)) :=
  funext fun i => by
    obtain ⟨p, q, rfl⟩ : ∃ (p : Fin 50000) (q : Fin 64), i = ix2 p q := ⟨i 0, i 1, eq_ix2 i⟩
    exact hpR_at h WpT bp p q

/-- Entry (p, q) of the combined linear term: `outRow` of row p's aggregated sums, degree and features. -/
theorem linR_at (h a : A S50000x64) (dg : A S50000) (WlT : A S64x64) (bl : A S64) (WrT : A S64x64) (p : Fin 50000) (q : Fin 64) :
    linR h a dg WlT bl WrT (ix2 p q)
      = Cert.Sage.outRow (fun k => a (ix2 p k)) (dg (ix1 p)) (fun k => h (ix2 p k)) (fun k q => WlT (ix2 k q))
          (fun q => bl (ix1 q)) (fun k q => WrT (ix2 k q)) q := by
  unfold linR Cert.Sage.outRow
  rw [addf_apply, addf_apply]
  refine congrArg₂ (· + ·) (congrArg₂ (· + ·) ?_ (rowsOf_at bl p q)) (dot_at h WrT p q)
  refine (dot_at _ WlT p q).trans (Finset.sum_congr rfl fun k _ => ?_)
  refine congrArg (fun z : EReal => z * WlT (ix2 k q)) ?_
  refine (HostRead.hostDivf_at _ _ _).trans ?_
  exact congrArg (fun z : EReal => Ideal.div (a (ix2 p k)) z) ((lanesOf_at _ p k).trans (colOf_at dg p))

/-- The row sums as a column, read at row p: the sum of row p. -/
theorem rowSumR_at (o : A S50000x64) (p : Fin 50000) : rowSumR o (ix2 p (0 : Fin 1)) = ∑ c : Fin 64, o (ix2 p c) := by
  unfold rowSumR
  refine (colOf_at _ p).trans ?_
  refine (Ideal.hostReduceAdd_single reducesTo_S50000x64_S50000_d1 (by decide) o _ (ix1 p)).trans ?_
  rw [constant_apply, Ideal.ofBits_zero_f32, zero_add]
  exact Finset.sum_congr rfl fun c _ => congrArg o (funext fun a => Fin.ext (by
    match a with
    | ⟨0, _⟩ => rfl
    | ⟨1, _⟩ => rfl))

/-- The row means as a column, read at row p: `rowMean` of row p. -/
theorem meanR_at (o : A S50000x64) (p : Fin 50000) :
    meanR o (ix2 p (0 : Fin 1)) = Cert.Sage.rowMean (fun c => o (ix2 p c)) := by
  unfold meanR Cert.Sage.rowMean
  refine (HostRead.hostDivf_at _ _ _).trans ?_
  exact congrArg₂ Ideal.div (rowSumR_at o p) (HostRead.splat_at _ _ _)

/-- The centred rows at an entry. -/
theorem centR_at (o : A S50000x64) (p : Fin 50000) (q : Fin 64) :
    centR o (ix2 p q) = o (ix2 p q) - Cert.Sage.rowMean (fun c => o (ix2 p c)) := by
  unfold centR
  rw [subf_apply]
  exact congrArg (fun z : EReal => o (ix2 p q) - z) ((lanesOf_at _ p q).trans (meanR_at o p))

/-- The variance's count is the word 64: the correction is the integer zero. -/
theorem cntR_at (j : S_.Idx) : cntR j = Cert.Sage.w64 := by
  unfold cntR
  rw [subf_apply, constant_apply, sitofp_apply]
  show Cert.Sage.w64 - (((0#32 : BitVec 32).toInt : ℝ) : EReal) = Cert.Sage.w64
  simp

/-- 64 is above zero, so the variance's selection keeps the quotient. -/
theorem cnt_pos : Ideal.cmp .ogt Cert.Sage.w64 (Ideal.ofBits .f32 0x00000000#32) = 1#1 := by
  rw [Ideal.ofBits_zero_f32, Cert.Sage.w64_eq]
  have h : (0 : EReal) < ((64 : ℝ) : EReal) := by exact_mod_cast (by norm_num : (0 : ℝ) < 64)
  simp [Ideal.cmp, h]

/-- The row variances as a column, read at row p: the centred squares' sum over 64. -/
theorem varR_at (o : A S50000x64) (p : Fin 50000) :
    varR o (ix2 p (0 : Fin 1))
      = Ideal.div (∑ c : Fin 64, (o (ix2 p c) - Cert.Sage.rowMean (fun c => o (ix2 p c))) * (o (ix2 p c) - Cert.Sage.rowMean (fun c => o (ix2 p c))))
          Cert.Sage.w64 := by
  unfold varR
  rw [select_apply]
  have hp : broadcastInDim S50000x1 ![] bcast_S_S50000x1 (cmpf (F := Ideal) .ogt cntR (constant (F := Ideal) S_ .f32 0x00000000#32))
      (ix2 p (0 : Fin 1)) = 1#1 := by
    rw [broadcastInDim_apply ![] bcast_S_S50000x1 _ (ix2 p (0 : Fin 1)) ix0 (fun a => a.elim0), cmpf_apply, cntR_at, constant_apply]
    exact cnt_pos
  rw [hp, select_one]
  refine (HostRead.hostDivf_at _ _ _).trans ?_
  refine congrArg₂ Ideal.div ?_ ?_
  · refine (rowSumR_at _ p).trans (Finset.sum_congr rfl fun c _ => ?_)
    rw [mulf_apply, centR_at]
  · rw [broadcastInDim_apply ![] bcast_S_S50000x1 _ (ix2 p (0 : Fin 1)) ix0 (fun a => a.elim0), cntR_at]

/-- Entry (p, q) of the layer norm: `lnRow` of row p. -/
theorem lnR_at (o : A S50000x64) (g be : A S64) (p : Fin 50000) (q : Fin 64) :
    lnR o g be (ix2 p q) = Cert.Sage.lnRow (fun c => o (ix2 p c)) (fun q => g (ix1 q)) (fun q => be (ix1 q)) q := by
  unfold lnR lnCore Cert.Sage.lnRow
  rw [addf_apply, mulf_apply, mulf_apply, subf_apply]
  refine congrArg₂ (· + ·) (congrArg₂ (· * ·) (congrArg₂ (· * ·) ?_ ?_) (rowsOf_at g p q)) (rowsOf_at be p q)
  · exact congrArg (fun z : EReal => o (ix2 p q) - z) ((lanesOf_at _ p q).trans (meanR_at o p))
  · refine (lanesOf_at _ p q).trans ?_
    show Ideal.rsqrt _ = _
    refine congrArg Ideal.rsqrt ?_
    rw [addf_apply]
    exact congrArg₂ (· + ·) (varR_at o p) (HostRead.splat_at _ _ _)

/-- The reference's layer is the model's: its projection is `proj`, its gather and scatter-sum are the model's
    aggregation of it, its clamped edge counts the model's degrees, and its linear term and norm are `comb`, row by row. -/
theorem refLayer_eq (h : A S50000x64) (E : I S2x800000) (WpT : A S64x64) (bp : A S64) (WlT : A S64x64) (bl : A S64)
    (WrT : A S64x64) (g be : A S64) :
    refLayer h (Cert.Sage.Model.srcV E) (Cert.Sage.Model.dstV E) WpT bp WlT bl WrT g be
      = Cert.Sage.Model.layer h E WpT bp WlT bl WrT g be := by
  have ha : aggR (hpR h WpT bp) (Cert.Sage.Model.srcV E) (Cert.Sage.Model.dstV E)
      = Cert.Sage.Model.aggV E (Cert.Sage.proj h WpT (fun q => bp (ix1 q))) := by
    rw [hpR_eq]; rfl
  have hd : degR (Cert.Sage.Model.dstV E) = Cert.Sage.Model.degV E := rfl
  funext i
  obtain ⟨p, q, rfl⟩ : ∃ (p : Fin 50000) (q : Fin 64), i = ix2 p q := ⟨i 0, i 1, eq_ix2 i⟩
  unfold refLayer Cert.Sage.Model.layer
  refine (lnR_at _ g be p q).trans ?_
  refine Eq.trans ?_ (Cert.Sage.comb_ix2 _ _ h WlT (fun q => bl (ix1 q)) WrT (fun q => g (ix1 q)) (fun q => be (ix1 q)) p q).symm
  refine congrArg (fun o : Fin 64 → EReal => Cert.Sage.lnRow o (fun q => g (ix1 q)) (fun q => be (ix1 q)) q) (funext fun c => ?_)
  rw [ha, hd]
  exact linR_at h _ _ WlT bl WrT p c

/-- The congruence lemmas of the program's dimension records and of the typed-reference constructor, which rewriting
    under them uses: stated once here, for the modules that read the two layers. -/
theorem congr_simp_realized : True := by
  have := @dot_S50000x64_S64x64_S50000x64_1_0_0_1_n_n.congr_simp
  have := @StableHlo.TRef.of.congr_simp
  have := @scatter_S50000_S800000x1_S800000_n_0_0_1.congr_simp
  have := @gather_S50000x64_S800000x1_S800000x64_1_0_n_n_0_1_164.congr_simp
  have := @scatter_S50000x64_S800000x1_S800000x64_1_0_0_1.congr_simp
  trivial

end Cert.ReferenceIdeal.RefValue

end
-- ==== Proof.RefValueStages0.lean ====
/-
  The first layer's operations of the reference, read stretch by stretch.

  The layer's 86 operations are cut into seven stretches, one per value the layer names: the projection, the aggregated
  sums, the degrees, the combined linear term, the row means, the row variances, the normalised result. From any buffer
  contents, after a stretch its result buffer holds the corresponding function of the buffers the stretch reads, and
  every buffer it does not write keeps its contents. Chained, the layer's result buffer holds `refLayer` of the
  feature, source, target and parameter buffers.
-/
import proofs.«174102_j12249246728621_1_alg».proof.Proof.RefRun
import proofs.«174102_j12249246728621_1_alg».proof.Proof.RefValueBase
import proofs.«174102_j12249246728621_1_alg».proof.Proof.RefValueLayer

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! Reading or writing a literal buffer through its typed reference changes nothing. -/
theorem ofBuf_main_v22 (h1 h2 h3) (v : (main_v22 : Ref sig .tc).ty.Contents (Elt Ideal)) :
    (StableHlo.TRef.of (T := ⟨S50000x64, .f32⟩) main_v22 h1 h2 h3).ofBuf v = v := rfl
theorem ofBuf_main_cst_3 (h1 h2 h3) (v : (main_cst_3 : Ref sig .tc).ty.Contents (Elt Ideal)) :
    (StableHlo.TRef.of (T := ⟨S_, .f32⟩) main_cst_3 h1 h2 h3).ofBuf v = v := rfl
theorem ofBuf_main_v37 (h1 h2 h3) (v : (main_v37 : Ref sig .tc).ty.Contents (Elt Ideal)) :
    (StableHlo.TRef.of (T := ⟨S50000, .f32⟩) main_v37 h1 h2 h3).ofBuf v = v := rfl
theorem ofBuf_main_v49 (h1 h2 h3) (v : (main_v49 : Ref sig .tc).ty.Contents (Elt Ideal)) :
    (StableHlo.TRef.of (T := ⟨S50000x64, .f32⟩) main_v49 h1 h2 h3).ofBuf v = v := rfl
theorem ofBuf_main_c_6 (h1 h2 h3) (v : (main_c_6 : Ref sig .tc).ty.Contents (Elt Ideal)) :
    (StableHlo.TRef.of (T := ⟨S_, .i32⟩) main_c_6 h1 h2 h3).ofBuf v = v := rfl
theorem toBuf_main_v23 (h1 h2 h3) (v : (⟨S50000x64, .f32⟩ : BufTy).Contents (Elt Ideal)) :
    (StableHlo.TRef.of (T := ⟨S50000x64, .f32⟩) main_v23 h1 h2 h3).toBuf v = v := rfl
theorem toBuf_main_v38 (h1 h2 h3) (v : (⟨S50000, .f32⟩ : BufTy).Contents (Elt Ideal)) :
    (StableHlo.TRef.of (T := ⟨S50000, .f32⟩) main_v38 h1 h2 h3).toBuf v = v := rfl
theorem toBuf_main_v54 (h1 h2 h3) (v : (⟨S50000x1, .f32⟩ : BufTy).Contents (Elt Ideal)) :
    (StableHlo.TRef.of (T := ⟨S50000x1, .f32⟩) main_v54 h1 h2 h3).toBuf v = v := rfl

/-- The projection: the features times the first weight, transposed, plus its bias, and the positive part. -/
abbrev La1 {F : FTy → Type} [FloatOps F] : List (HloOp τ sig (Elt F)) :=
  [ StableHlo.unary main_v5 main_v18 ((transpose S64x64 [1, 0] · transposes_S64x64_S64x64_1_0) : (⟨S64x64, .f32⟩ : BufTy).Contents (Elt F) → (⟨S64x64, .f32⟩ : BufTy).Contents (Elt F)),
    StableHlo.binary main_arg0 main_v18 main_v19 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v7 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S50000x64 ![0, 1] bcast_S1x64_S50000x64_0_1 : (⟨S1x64, .f32⟩ : BufTy).Contents (Elt F) → (⟨S50000x64, .f32⟩ : BufTy).Contents (Elt F)),
    StableHlo.binary main_v19 main_v21 main_v22 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v22 : StableHlo.TRef sig ⟨S50000x64, .f32⟩) main_call0.v0 main_call0.v1 maximumf ]

/-- The buffers these operations write. -/
abbrev La1_W : List (Ref sig .tc) := [main_v18, main_v19, main_v20, main_v21, main_v22, main_call0_cst, main_call0_v0, main_v23]

theorem La1_writes : (La1 (F := Ideal)).Forall fun op => op.writes ⊆ (La1_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem La1_keep (W : Valuation τ sig (Elt Ideal)) (r : Ref sig .tc) (h : r ∉ La1_W) :
    after (La1 (F := Ideal)) W (Proc.devRef .tc r) = W (Proc.devRef .tc r) :=
  after_of_writes_sub La1 W La1_writes h

set_option maxRecDepth 8192 in
theorem La1_out (W : Valuation τ sig (Elt Ideal)) :
    after (La1 (F := Ideal)) W (Proc.devRef .tc main_v23)
      = hpR (W (Proc.devRef .tc main_arg0)) (transpose S64x64 [1, 0] (W (Proc.devRef .tc main_v5)) transposes_S64x64_S64x64_1_0) (W (Proc.devRef .tc main_v7)) := by
  simp only [La1]
  after_results_simp
  try simp only [ofBuf_toBuf, ofBuf_main_v22, ofBuf_main_cst_3, ofBuf_main_v37, ofBuf_main_v49, ofBuf_main_c_6, toBuf_main_v23, toBuf_main_v38, toBuf_main_v54]
  rfl

/-- The aggregation: the gather's index column, the gather of the projected rows, and their scatter-sum over zeros. -/
abbrev La2 {F : FTy → Type} [FloatOps F] : List (HloOp τ sig (Elt F)) :=
  [ StableHlo.nullary main_c (constantI S_ 32 0#32),
    StableHlo.unary main_c main_v24 (broadcastInDim S800000 ![] bcast_S_S800000 : (⟨S_, .i32⟩ : BufTy).Contents (Elt F) → (⟨S800000, .i32⟩ : BufTy).Contents (Elt F)),
    StableHlo.binary main_v1 main_v24 main_v25 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v26 (broadcastInDim S800000 ![] bcast_S_S800000 : (⟨S_, .i32⟩ : BufTy).Contents (Elt F) → (⟨S800000, .i32⟩ : BufTy).Contents (Elt F)),
    StableHlo.binary main_v1 main_v26 main_v27 (addi : (⟨S800000, .i32⟩ : BufTy).Contents (Elt F) → (⟨S800000, .i32⟩ : BufTy).Contents (Elt F) → (⟨S800000, .i32⟩ : BufTy).Contents (Elt F)),
    StableHlo.ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v28 main_v29 (broadcastInDim S800000x1 ![0] bcast_S800000_S800000x1_0 : (⟨S800000, .i32⟩ : BufTy).Contents (Elt F) → (⟨S800000x1, .i32⟩ : BufTy).Contents (Elt F)),
    StableHlo.binary main_v23 main_v29 main_v30 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v31 (broadcastInDim S50000x64 ![] bcast_S_S50000x64 : (⟨S_, .f32⟩ : BufTy).Contents (Elt F) → (⟨S50000x64, .f32⟩ : BufTy).Contents (Elt F)),
    StableHlo.unary main_v3 main_v32 (broadcastInDim S800000x1 ![0] bcast_S800000_S800000x1_0 : (⟨S800000, .i32⟩ : BufTy).Contents (Elt F) → (⟨S800000x1, .i32⟩ : BufTy).Contents (Elt F)),
    StableHlo.ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The buffers these operations write. -/
abbrev La2_W : List (Ref sig .tc) := [main_c, main_v24, main_v25, main_c_0, main_v26, main_v27, main_v28, main_v29, main_v30, main_cst, main_v31, main_v32, main_v33]

theorem La2_writes : (La2 (F := Ideal)).Forall fun op => op.writes ⊆ (La2_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem La2_keep (W : Valuation τ sig (Elt Ideal)) (r : Ref sig .tc) (h : r ∉ La2_W) :
    after (La2 (F := Ideal)) W (Proc.devRef .tc r) = W (Proc.devRef .tc r) :=
  after_of_writes_sub La2 W La2_writes h

set_option maxRecDepth 8192 in
theorem La2_out (W : Valuation τ sig (Elt Ideal)) :
    after (La2 (F := Ideal)) W (Proc.devRef .tc main_v33)
      = aggR (W (Proc.devRef .tc main_v23)) (W (Proc.devRef .tc main_v1)) (W (Proc.devRef .tc main_v3)) := by
  simp only [La2]
  after_results_simp
  try simp only [ofBuf_toBuf, ofBuf_main_v22, ofBuf_main_cst_3, ofBuf_main_v37, ofBuf_main_v49, ofBuf_main_c_6, toBuf_main_v23, toBuf_main_v38, toBuf_main_v54]
  rfl

/-- The degrees: ones scatter-summed at the targets, raised to at least one. -/
abbrev La3 {F : FTy → Type} [FloatOps F] : List (HloOp τ sig (Elt F)) :=
  [ StableHlo.nullary main_cst_1 (constant S_ .f32 0x3F800000#32),
    StableHlo.unary main_cst_1 main_v34 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v35 (broadcastInDim S50000 ![] bcast_S_S50000 : (⟨S_, .f32⟩ : BufTy).Contents (Elt F) → (⟨S50000, .f32⟩ : BufTy).Contents (Elt F)),
    StableHlo.unary main_v3 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S50000 ![] bcast_S_S50000),
    StableHlo.TRef.binary main_call1.v1 (.of main_v37 : StableHlo.TRef sig ⟨S50000, .f32⟩) main_call1.v2 maximumf ]

/-- The buffers these operations write. -/
abbrev La3_W : List (Ref sig .tc) := [main_cst_1, main_v34, main_cst_2, main_v35, main_v36, main_v37, main_cst_3, main_call1_v0, main_call1_v1, main_v38]

theorem La3_writes : (La3 (F := Ideal)).Forall fun op => op.writes ⊆ (La3_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem La3_keep (W : Valuation τ sig (Elt Ideal)) (r : Ref sig .tc) (h : r ∉ La3_W) :
    after (La3 (F := Ideal)) W (Proc.devRef .tc r) = W (Proc.devRef .tc r) :=
  after_of_writes_sub La3 W La3_writes h

set_option maxRecDepth 8192 in
theorem La3_out (W : Valuation τ sig (Elt Ideal)) :
    after (La3 (F := Ideal)) W (Proc.devRef .tc main_v38)
      = degR (W (Proc.devRef .tc main_v3)) := by
  simp only [La3]
  after_results_simp
  try simp only [ofBuf_toBuf, ofBuf_main_v22, ofBuf_main_cst_3, ofBuf_main_v37, ofBuf_main_v49, ofBuf_main_c_6, toBuf_main_v23, toBuf_main_v38, toBuf_main_v54]
  rfl

/-- The combined linear term: the sums over the degrees times the second weight plus its bias, plus the features times the third. -/
abbrev La4 {F : FTy → Type} [FloatOps F] : List (HloOp τ sig (Elt F)) :=
  [ StableHlo.unary main_v38 main_v39 (broadcastInDim S50000x1 ![0] bcast_S50000_S50000x1_0 : (⟨S50000, .f32⟩ : BufTy).Contents (Elt F) → (⟨S50000x1, .f32⟩ : BufTy).Contents (Elt F)),
    StableHlo.unary main_v39 main_v40 (broadcastInDim S50000x64 ![0, 1] bcast_S50000x1_S50000x64_0_1 : (⟨S50000x1, .f32⟩ : BufTy).Contents (Elt F) → (⟨S50000x64, .f32⟩ : BufTy).Contents (Elt F)),
    StableHlo.binary main_v33 main_v40 main_v41 (Host.divf : (⟨S50000x64, .f32⟩ : BufTy).Contents (Elt F) → (⟨S50000x64, .f32⟩ : BufTy).Contents (Elt F) → (⟨S50000x64, .f32⟩ : BufTy).Contents (Elt F)),
    StableHlo.unary main_v9 main_v42 ((transpose S64x64 [1, 0] · transposes_S64x64_S64x64_1_0) : (⟨S64x64, .f32⟩ : BufTy).Contents (Elt F) → (⟨S64x64, .f32⟩ : BufTy).Contents (Elt F)),
    StableHlo.binary main_v41 main_v42 main_v43 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v11 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.unary main_v13 main_v47 ((transpose S64x64 [1, 0] · transposes_S64x64_S64x64_1_0) : (⟨S64x64, .f32⟩ : BufTy).Contents (Elt F) → (⟨S64x64, .f32⟩ : BufTy).Contents (Elt F)),
    StableHlo.binary main_arg0 main_v47 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v46 main_v48 main_v49 (addf : (⟨S50000x64, .f32⟩ : BufTy).Contents (Elt F) → (⟨S50000x64, .f32⟩ : BufTy).Contents (Elt F) → (⟨S50000x64, .f32⟩ : BufTy).Contents (Elt F)) ]

/-- The buffers these operations write. -/
abbrev La4_W : List (Ref sig .tc) := [main_v39, main_v40, main_v41, main_v42, main_v43, main_v44, main_v45, main_v46, main_v47, main_v48, main_v49]

theorem La4_writes : (La4 (F := Ideal)).Forall fun op => op.writes ⊆ (La4_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem La4_keep (W : Valuation τ sig (Elt Ideal)) (r : Ref sig .tc) (h : r ∉ La4_W) :
    after (La4 (F := Ideal)) W (Proc.devRef .tc r) = W (Proc.devRef .tc r) :=
  after_of_writes_sub La4 W La4_writes h

set_option maxRecDepth 8192 in
theorem La4_out (W : Valuation τ sig (Elt Ideal)) :
    after (La4 (F := Ideal)) W (Proc.devRef .tc main_v49)
      = linR (W (Proc.devRef .tc main_arg0)) (W (Proc.devRef .tc main_v33)) (W (Proc.devRef .tc main_v38)) (transpose S64x64 [1, 0] (W (Proc.devRef .tc main_v9)) transposes_S64x64_S64x64_1_0) (W (Proc.devRef .tc main_v11)) (transpose S64x64 [1, 0] (W (Proc.devRef .tc main_v13)) transposes_S64x64_S64x64_1_0) := by
  simp only [La4]
  after_results_simp
  try simp only [ofBuf_toBuf, ofBuf_main_v22, ofBuf_main_cst_3, ofBuf_main_v37, ofBuf_main_v49, ofBuf_main_c_6, toBuf_main_v23, toBuf_main_v38, toBuf_main_v54]
  rfl

/-- The row means: the row sums over 64. -/
abbrev La5 {F : FTy → Type} [FloatOps F] : List (HloOp τ sig (Elt F)) :=
  [ StableHlo.nullary main_cst_4 (constant S_ .f32 0x00000000#32),
    StableHlo.binary main_v49 main_cst_4 main_v50 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v50 main_v51 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0x42800000#32),
    StableHlo.unary main_cst_5 main_v52 (broadcastInDim S50000x1 ![] bcast_S_S50000x1 : (⟨S_, .f32⟩ : BufTy).Contents (Elt F) → (⟨S50000x1, .f32⟩ : BufTy).Contents (Elt F)),
    StableHlo.binary main_v51 main_v52 main_v53 (Host.divf : (⟨S50000x1, .f32⟩ : BufTy).Contents (Elt F) → (⟨S50000x1, .f32⟩ : BufTy).Contents (Elt F) → (⟨S50000x1, .f32⟩ : BufTy).Contents (Elt F)) ]

/-- The buffers these operations write. -/
abbrev La5_W : List (Ref sig .tc) := [main_cst_4, main_v50, main_v51, main_cst_5, main_v52, main_v53]

theorem La5_writes : (La5 (F := Ideal)).Forall fun op => op.writes ⊆ (La5_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem La5_keep (W : Valuation τ sig (Elt Ideal)) (r : Ref sig .tc) (h : r ∉ La5_W) :
    after (La5 (F := Ideal)) W (Proc.devRef .tc r) = W (Proc.devRef .tc r) :=
  after_of_writes_sub La5 W La5_writes h

set_option maxRecDepth 8192 in
theorem La5_out (W : Valuation τ sig (Elt Ideal)) :
    after (La5 (F := Ideal)) W (Proc.devRef .tc main_v53)
      = meanR (W (Proc.devRef .tc main_v49)) := by
  simp only [La5]
  after_results_simp
  try simp only [ofBuf_toBuf, ofBuf_main_v22, ofBuf_main_cst_3, ofBuf_main_v37, ofBuf_main_v49, ofBuf_main_c_6, toBuf_main_v23, toBuf_main_v38, toBuf_main_v54]
  rfl

/-- The row variances: the variance function written out. -/
abbrev La6 {F : FTy → Type} [FloatOps F] : List (HloOp τ sig (Elt F)) :=
  [ StableHlo.nullary main_c_6 (constantI S_ 32 0#32),
    StableHlo.TRef.nullary main_call2.cst (constant S_ .f32 0x00000000#32),
    StableHlo.TRef.binary (.of main_v49 : StableHlo.TRef sig ⟨S50000x64, .f32⟩) main_call2.cst main_call2.v0 (fun x v => Host.reduceAdd x v reducesTo_S50000x64_S50000_d1 h_S_),
    StableHlo.TRef.unary main_call2.v0 main_call2.v1 (broadcastInDim S50000x1 ![0] bcast_S50000_S50000x1_0),
    StableHlo.TRef.nullary main_call2.cst_0 (constant S_ .f32 0x42800000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x64 ![0, 1] bcast_S50000x1_S50000x64_0_1),
    StableHlo.TRef.binary (.of main_v49 : StableHlo.TRef sig ⟨S50000x64, .f32⟩) main_call2.v4 main_call2.v5 subf,
    StableHlo.TRef.binary main_call2.v5 main_call2.v5 main_call2.v6 mulf,
    StableHlo.TRef.unary (.of main_c_6 : StableHlo.TRef sig ⟨S_, .i32⟩) main_call2.v7 (sitofp .f32),
    StableHlo.TRef.nullary main_call2.cst_1 (constant S_ .f32 0x42800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b) ]

/-- The buffers these operations write. -/
abbrev La6_W : List (Ref sig .tc) := [main_c_6, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v54]

theorem La6_writes : (La6 (F := Ideal)).Forall fun op => op.writes ⊆ (La6_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem La6_keep (W : Valuation τ sig (Elt Ideal)) (r : Ref sig .tc) (h : r ∉ La6_W) :
    after (La6 (F := Ideal)) W (Proc.devRef .tc r) = W (Proc.devRef .tc r) :=
  after_of_writes_sub La6 W La6_writes h

set_option maxRecDepth 8192 in
theorem La6_out (W : Valuation τ sig (Elt Ideal)) :
    after (La6 (F := Ideal)) W (Proc.devRef .tc main_v54)
      = varR (W (Proc.devRef .tc main_v49)) := by
  simp only [La6]
  after_results_simp
  try simp only [ofBuf_toBuf, ofBuf_main_v22, ofBuf_main_cst_3, ofBuf_main_v37, ofBuf_main_v49, ofBuf_main_c_6, toBuf_main_v23, toBuf_main_v38, toBuf_main_v54]
  rfl

/-- The norm's last step: centred, scaled by the inverse root of variance plus epsilon, by the scale, and shifted. -/
abbrev La7 {F : FTy → Type} [FloatOps F] : List (HloOp τ sig (Elt F)) :=
  [ StableHlo.unary main_v53 main_v55 (broadcastInDim S50000x64 ![0, 1] bcast_S50000x1_S50000x64_0_1 : (⟨S50000x1, .f32⟩ : BufTy).Contents (Elt F) → (⟨S50000x64, .f32⟩ : BufTy).Contents (Elt F)),
    StableHlo.binary main_v49 main_v55 main_v56 (subf : (⟨S50000x64, .f32⟩ : BufTy).Contents (Elt F) → (⟨S50000x64, .f32⟩ : BufTy).Contents (Elt F) → (⟨S50000x64, .f32⟩ : BufTy).Contents (Elt F)),
    StableHlo.nullary main_cst_7 (constant S_ .f32 0x3727C5AC#32),
    StableHlo.unary main_cst_7 main_v57 (broadcastInDim S50000x1 ![] bcast_S_S50000x1 : (⟨S_, .f32⟩ : BufTy).Contents (Elt F) → (⟨S50000x1, .f32⟩ : BufTy).Contents (Elt F)),
    StableHlo.binary main_v54 main_v57 main_v58 (addf : (⟨S50000x1, .f32⟩ : BufTy).Contents (Elt F) → (⟨S50000x1, .f32⟩ : BufTy).Contents (Elt F) → (⟨S50000x1, .f32⟩ : BufTy).Contents (Elt F)),
    StableHlo.unary main_v58 main_v59 (Host.rsqrt : (⟨S50000x1, .f32⟩ : BufTy).Contents (Elt F) → (⟨S50000x1, .f32⟩ : BufTy).Contents (Elt F)),
    StableHlo.unary main_v59 main_v60 (broadcastInDim S50000x64 ![0, 1] bcast_S50000x1_S50000x64_0_1 : (⟨S50000x1, .f32⟩ : BufTy).Contents (Elt F) → (⟨S50000x64, .f32⟩ : BufTy).Contents (Elt F)),
    StableHlo.binary main_v56 main_v60 main_v61 (mulf : (⟨S50000x64, .f32⟩ : BufTy).Contents (Elt F) → (⟨S50000x64, .f32⟩ : BufTy).Contents (Elt F) → (⟨S50000x64, .f32⟩ : BufTy).Contents (Elt F)),
    StableHlo.unary main_v15 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (mulf : (⟨S50000x64, .f32⟩ : BufTy).Contents (Elt F) → (⟨S50000x64, .f32⟩ : BufTy).Contents (Elt F) → (⟨S50000x64, .f32⟩ : BufTy).Contents (Elt F)),
    StableHlo.unary main_v17 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S50000x64 ![0, 1] bcast_S1x64_S50000x64_0_1 : (⟨S1x64, .f32⟩ : BufTy).Contents (Elt F) → (⟨S50000x64, .f32⟩ : BufTy).Contents (Elt F)),
    StableHlo.binary main_v64 main_v66 main_v67 (addf : (⟨S50000x64, .f32⟩ : BufTy).Contents (Elt F) → (⟨S50000x64, .f32⟩ : BufTy).Contents (Elt F) → (⟨S50000x64, .f32⟩ : BufTy).Contents (Elt F)) ]

/-- The buffers these operations write. -/
abbrev La7_W : List (Ref sig .tc) := [main_v55, main_v56, main_cst_7, main_v57, main_v58, main_v59, main_v60, main_v61, main_v62, main_v63, main_v64, main_v65, main_v66, main_v67]

theorem La7_writes : (La7 (F := Ideal)).Forall fun op => op.writes ⊆ (La7_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem La7_keep (W : Valuation τ sig (Elt Ideal)) (r : Ref sig .tc) (h : r ∉ La7_W) :
    after (La7 (F := Ideal)) W (Proc.devRef .tc r) = W (Proc.devRef .tc r) :=
  after_of_writes_sub La7 W La7_writes h

set_option maxRecDepth 8192 in
theorem La7_out (W : Valuation τ sig (Elt Ideal)) :
    after (La7 (F := Ideal)) W (Proc.devRef .tc main_v67)
      = lnCore (W (Proc.devRef .tc main_v49)) (W (Proc.devRef .tc main_v53)) (W (Proc.devRef .tc main_v54)) (W (Proc.devRef .tc main_v15)) (W (Proc.devRef .tc main_v17)) := by
  simp only [La7]
  after_results_simp
  try simp only [ofBuf_toBuf, ofBuf_main_v22, ofBuf_main_cst_3, ofBuf_main_v37, ofBuf_main_v49, ofBuf_main_c_6, toBuf_main_v23, toBuf_main_v38, toBuf_main_v54]
  rfl

/-- The first layer's operations: the seven stretches in order. -/
abbrev La {F : FTy → Type} [FloatOps F] : List (HloOp τ sig (Elt F)) := La1 ++ (La2 ++ (La3 ++ (La4 ++ (La5 ++ (La6 ++ (La7))))))

/-- The buffers the layer's operations write. -/
abbrev La_W : List (Ref sig .tc) := La1_W ++ (La2_W ++ (La3_W ++ (La4_W ++ (La5_W ++ (La6_W ++ (La7_W))))))

/-- A buffer the layer does not write keeps its contents through it. -/
theorem La_keep (W : Valuation τ sig (Elt Ideal)) (r : Ref sig .tc) (h : r ∉ La_W) :
    after (La (F := Ideal)) W (Proc.devRef .tc r) = W (Proc.devRef .tc r) := by
  simp only [La_W, List.mem_append, not_or] at h
  obtain ⟨h1, h2, h3, h4, h5, h6, h7⟩ := h
  show after (La1 ++ (La2 ++ (La3 ++ (La4 ++ (La5 ++ (La6 ++ (La7))))))) W _ = _
  rw [after_append, after_append, after_append, after_append, after_append, after_append,
    La7_keep _ r h7, La6_keep _ r h6, La5_keep _ r h5, La4_keep _ r h4, La3_keep _ r h3, La2_keep _ r h2, La1_keep _ r h1]

/-- The layer's result buffer after its operations, from any contents: `refLayer` of the contents of the feature, source,
    target and parameter buffers. Each stretch gives its result from the buffers it reads; the buffers a later stretch
    reads are kept by the stretches between. -/
theorem La_out (W : Valuation τ sig (Elt Ideal)) :
    after (La (F := Ideal)) W (Proc.devRef .tc main_v67)
      = refLayer (W (Proc.devRef .tc main_arg0)) (W (Proc.devRef .tc main_v1)) (W (Proc.devRef .tc main_v3)) (transpose S64x64 [1, 0] (W (Proc.devRef .tc main_v5)) transposes_S64x64_S64x64_1_0) (W (Proc.devRef .tc main_v7))
          (transpose S64x64 [1, 0] (W (Proc.devRef .tc main_v9)) transposes_S64x64_S64x64_1_0) (W (Proc.devRef .tc main_v11)) (transpose S64x64 [1, 0] (W (Proc.devRef .tc main_v13)) transposes_S64x64_S64x64_1_0) (W (Proc.devRef .tc main_v15)) (W (Proc.devRef .tc main_v17)) := by
  show after (La1 ++ (La2 ++ (La3 ++ (La4 ++ (La5 ++ (La6 ++ (La7))))))) W _ = _
  rw [after_append, after_append, after_append, after_append, after_append, after_append]
  rw [La7_out]
  rw [La6_out, La6_keep _ main_v49 (by decide), La6_keep _ main_v53 (by decide), La6_keep _ main_v15 (by decide), La6_keep _ main_v17 (by decide)]
  rw [La5_out, La5_keep _ main_v49 (by decide), La5_keep _ main_v15 (by decide), La5_keep _ main_v17 (by decide)]
  rw [La4_out, La4_keep _ main_v15 (by decide), La4_keep _ main_v17 (by decide)]
  rw [La3_out, La3_keep _ main_arg0 (by decide), La3_keep _ main_v33 (by decide), La3_keep _ main_v9 (by decide), La3_keep _ main_v11 (by decide), La3_keep _ main_v13 (by decide), La3_keep _ main_v15 (by decide), La3_keep _ main_v17 (by decide)]
  rw [La2_out, La2_keep _ main_v3 (by decide), La2_keep _ main_arg0 (by decide), La2_keep _ main_v9 (by decide), La2_keep _ main_v11 (by decide), La2_keep _ main_v13 (by decide), La2_keep _ main_v15 (by decide), La2_keep _ main_v17 (by decide)]
  rw [La1_out, La1_keep _ main_v1 (by decide), La1_keep _ main_v3 (by decide), La1_keep _ main_arg0 (by decide), La1_keep _ main_v9 (by decide), La1_keep _ main_v11 (by decide), La1_keep _ main_v13 (by decide), La1_keep _ main_v15 (by decide), La1_keep _ main_v17 (by decide)]
  rfl

end Cert.ReferenceIdeal.RefValue

end
-- ==== Proof.RefValueStages1.lean ====
/-
  The second layer's operations of the reference, read stretch by stretch: the same seven stretches as the first
  layer's, over the second layer's buffers, from the first layer's result as the features.
-/
import proofs.«174102_j12249246728621_1_alg».proof.Proof.RefRun
import proofs.«174102_j12249246728621_1_alg».proof.Proof.RefValueBase
import proofs.«174102_j12249246728621_1_alg».proof.Proof.RefValueLayer

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! Reading or writing a literal buffer through its typed reference changes nothing. -/
theorem ofBuf_main_v86 (h1 h2 h3) (v : (main_v86 : Ref sig .tc).ty.Contents (Elt Ideal)) :
    (StableHlo.TRef.of (T := ⟨S50000x64, .f32⟩) main_v86 h1 h2 h3).ofBuf v = v := rfl
theorem ofBuf_main_cst_13 (h1 h2 h3) (v : (main_cst_13 : Ref sig .tc).ty.Contents (Elt Ideal)) :
    (StableHlo.TRef.of (T := ⟨S_, .f32⟩) main_cst_13 h1 h2 h3).ofBuf v = v := rfl
theorem ofBuf_main_v101 (h1 h2 h3) (v : (main_v101 : Ref sig .tc).ty.Contents (Elt Ideal)) :
    (StableHlo.TRef.of (T := ⟨S50000, .f32⟩) main_v101 h1 h2 h3).ofBuf v = v := rfl
theorem ofBuf_main_v113 (h1 h2 h3) (v : (main_v113 : Ref sig .tc).ty.Contents (Elt Ideal)) :
    (StableHlo.TRef.of (T := ⟨S50000x64, .f32⟩) main_v113 h1 h2 h3).ofBuf v = v := rfl
theorem ofBuf_main_c_16 (h1 h2 h3) (v : (main_c_16 : Ref sig .tc).ty.Contents (Elt Ideal)) :
    (StableHlo.TRef.of (T := ⟨S_, .i32⟩) main_c_16 h1 h2 h3).ofBuf v = v := rfl
theorem toBuf_main_v87 (h1 h2 h3) (v : (⟨S50000x64, .f32⟩ : BufTy).Contents (Elt Ideal)) :
    (StableHlo.TRef.of (T := ⟨S50000x64, .f32⟩) main_v87 h1 h2 h3).toBuf v = v := rfl
theorem toBuf_main_v102 (h1 h2 h3) (v : (⟨S50000, .f32⟩ : BufTy).Contents (Elt Ideal)) :
    (StableHlo.TRef.of (T := ⟨S50000, .f32⟩) main_v102 h1 h2 h3).toBuf v = v := rfl
theorem toBuf_main_v118 (h1 h2 h3) (v : (⟨S50000x1, .f32⟩ : BufTy).Contents (Elt Ideal)) :
    (StableHlo.TRef.of (T := ⟨S50000x1, .f32⟩) main_v118 h1 h2 h3).toBuf v = v := rfl

/-- The projection: the features times the first weight, transposed, plus its bias, and the positive part. -/
abbrev Lb1 {F : FTy → Type} [FloatOps F] : List (HloOp τ sig (Elt F)) :=
  [ StableHlo.unary main_v69 main_v82 ((transpose S64x64 [1, 0] · transposes_S64x64_S64x64_1_0) : (⟨S64x64, .f32⟩ : BufTy).Contents (Elt F) → (⟨S64x64, .f32⟩ : BufTy).Contents (Elt F)),
    StableHlo.binary main_v67 main_v82 main_v83 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v71 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S50000x64 ![0, 1] bcast_S1x64_S50000x64_0_1 : (⟨S1x64, .f32⟩ : BufTy).Contents (Elt F) → (⟨S50000x64, .f32⟩ : BufTy).Contents (Elt F)),
    StableHlo.binary main_v83 main_v85 main_v86 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v86 : StableHlo.TRef sig ⟨S50000x64, .f32⟩) main_call3.v0 main_call3.v1 maximumf ]

/-- The buffers these operations write. -/
abbrev Lb1_W : List (Ref sig .tc) := [main_v82, main_v83, main_v84, main_v85, main_v86, main_call3_cst, main_call3_v0, main_v87]

theorem Lb1_writes : (Lb1 (F := Ideal)).Forall fun op => op.writes ⊆ (Lb1_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem Lb1_keep (W : Valuation τ sig (Elt Ideal)) (r : Ref sig .tc) (h : r ∉ Lb1_W) :
    after (Lb1 (F := Ideal)) W (Proc.devRef .tc r) = W (Proc.devRef .tc r) :=
  after_of_writes_sub Lb1 W Lb1_writes h

set_option maxRecDepth 8192 in
theorem Lb1_out (W : Valuation τ sig (Elt Ideal)) :
    after (Lb1 (F := Ideal)) W (Proc.devRef .tc main_v87)
      = hpR (W (Proc.devRef .tc main_v67)) (transpose S64x64 [1, 0] (W (Proc.devRef .tc main_v69)) transposes_S64x64_S64x64_1_0) (W (Proc.devRef .tc main_v71)) := by
  simp only [Lb1]
  after_results_simp
  try simp only [ofBuf_toBuf, ofBuf_main_v86, ofBuf_main_cst_13, ofBuf_main_v101, ofBuf_main_v113, ofBuf_main_c_16, toBuf_main_v87, toBuf_main_v102, toBuf_main_v118]
  rfl

/-- The aggregation: the gather's index column, the gather of the projected rows, and their scatter-sum over zeros. -/
abbrev Lb2 {F : FTy → Type} [FloatOps F] : List (HloOp τ sig (Elt F)) :=
  [ StableHlo.nullary main_c_8 (constantI S_ 32 0#32),
    StableHlo.unary main_c_8 main_v88 (broadcastInDim S800000 ![] bcast_S_S800000 : (⟨S_, .i32⟩ : BufTy).Contents (Elt F) → (⟨S800000, .i32⟩ : BufTy).Contents (Elt F)),
    StableHlo.binary main_v1 main_v88 main_v89 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v90 (broadcastInDim S800000 ![] bcast_S_S800000 : (⟨S_, .i32⟩ : BufTy).Contents (Elt F) → (⟨S800000, .i32⟩ : BufTy).Contents (Elt F)),
    StableHlo.binary main_v1 main_v90 main_v91 (addi : (⟨S800000, .i32⟩ : BufTy).Contents (Elt F) → (⟨S800000, .i32⟩ : BufTy).Contents (Elt F) → (⟨S800000, .i32⟩ : BufTy).Contents (Elt F)),
    StableHlo.ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v92 main_v93 (broadcastInDim S800000x1 ![0] bcast_S800000_S800000x1_0 : (⟨S800000, .i32⟩ : BufTy).Contents (Elt F) → (⟨S800000x1, .i32⟩ : BufTy).Contents (Elt F)),
    StableHlo.binary main_v87 main_v93 main_v94 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_10 (constant S_ .f32 0x00000000#32),
    StableHlo.unary main_cst_10 main_v95 (broadcastInDim S50000x64 ![] bcast_S_S50000x64 : (⟨S_, .f32⟩ : BufTy).Contents (Elt F) → (⟨S50000x64, .f32⟩ : BufTy).Contents (Elt F)),
    StableHlo.unary main_v3 main_v96 (broadcastInDim S800000x1 ![0] bcast_S800000_S800000x1_0 : (⟨S800000, .i32⟩ : BufTy).Contents (Elt F) → (⟨S800000x1, .i32⟩ : BufTy).Contents (Elt F)),
    StableHlo.ternary main_v95 main_v96 main_v94 main_v97 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The buffers these operations write. -/
abbrev Lb2_W : List (Ref sig .tc) := [main_c_8, main_v88, main_v89, main_c_9, main_v90, main_v91, main_v92, main_v93, main_v94, main_cst_10, main_v95, main_v96, main_v97]

theorem Lb2_writes : (Lb2 (F := Ideal)).Forall fun op => op.writes ⊆ (Lb2_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem Lb2_keep (W : Valuation τ sig (Elt Ideal)) (r : Ref sig .tc) (h : r ∉ Lb2_W) :
    after (Lb2 (F := Ideal)) W (Proc.devRef .tc r) = W (Proc.devRef .tc r) :=
  after_of_writes_sub Lb2 W Lb2_writes h

set_option maxRecDepth 8192 in
theorem Lb2_out (W : Valuation τ sig (Elt Ideal)) :
    after (Lb2 (F := Ideal)) W (Proc.devRef .tc main_v97)
      = aggR (W (Proc.devRef .tc main_v87)) (W (Proc.devRef .tc main_v1)) (W (Proc.devRef .tc main_v3)) := by
  simp only [Lb2]
  after_results_simp
  try simp only [ofBuf_toBuf, ofBuf_main_v86, ofBuf_main_cst_13, ofBuf_main_v101, ofBuf_main_v113, ofBuf_main_c_16, toBuf_main_v87, toBuf_main_v102, toBuf_main_v118]
  rfl

/-- The degrees: ones scatter-summed at the targets, raised to at least one. -/
abbrev Lb3 {F : FTy → Type} [FloatOps F] : List (HloOp τ sig (Elt F)) :=
  [ StableHlo.nullary main_cst_11 (constant S_ .f32 0x3F800000#32),
    StableHlo.unary main_cst_11 main_v98 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v99 (broadcastInDim S50000 ![] bcast_S_S50000 : (⟨S_, .f32⟩ : BufTy).Contents (Elt F) → (⟨S50000, .f32⟩ : BufTy).Contents (Elt F)),
    StableHlo.unary main_v3 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.TRef.unary (.of main_cst_13 : StableHlo.TRef sig ⟨S_, .f32⟩) main_call4.v0 id,
    StableHlo.TRef.unary main_call4.v0 main_call4.v1 (broadcastInDim S50000 ![] bcast_S_S50000),
    StableHlo.TRef.binary main_call4.v1 (.of main_v101 : StableHlo.TRef sig ⟨S50000, .f32⟩) main_call4.v2 maximumf ]

/-- The buffers these operations write. -/
abbrev Lb3_W : List (Ref sig .tc) := [main_cst_11, main_v98, main_cst_12, main_v99, main_v100, main_v101, main_cst_13, main_call4_v0, main_call4_v1, main_v102]

theorem Lb3_writes : (Lb3 (F := Ideal)).Forall fun op => op.writes ⊆ (Lb3_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem Lb3_keep (W : Valuation τ sig (Elt Ideal)) (r : Ref sig .tc) (h : r ∉ Lb3_W) :
    after (Lb3 (F := Ideal)) W (Proc.devRef .tc r) = W (Proc.devRef .tc r) :=
  after_of_writes_sub Lb3 W Lb3_writes h

set_option maxRecDepth 8192 in
theorem Lb3_out (W : Valuation τ sig (Elt Ideal)) :
    after (Lb3 (F := Ideal)) W (Proc.devRef .tc main_v102)
      = degR (W (Proc.devRef .tc main_v3)) := by
  simp only [Lb3]
  after_results_simp
  try simp only [ofBuf_toBuf, ofBuf_main_v86, ofBuf_main_cst_13, ofBuf_main_v101, ofBuf_main_v113, ofBuf_main_c_16, toBuf_main_v87, toBuf_main_v102, toBuf_main_v118]
  rfl

/-- The combined linear term: the sums over the degrees times the second weight plus its bias, plus the features times the third. -/
abbrev Lb4 {F : FTy → Type} [FloatOps F] : List (HloOp τ sig (Elt F)) :=
  [ StableHlo.unary main_v102 main_v103 (broadcastInDim S50000x1 ![0] bcast_S50000_S50000x1_0 : (⟨S50000, .f32⟩ : BufTy).Contents (Elt F) → (⟨S50000x1, .f32⟩ : BufTy).Contents (Elt F)),
    StableHlo.unary main_v103 main_v104 (broadcastInDim S50000x64 ![0, 1] bcast_S50000x1_S50000x64_0_1 : (⟨S50000x1, .f32⟩ : BufTy).Contents (Elt F) → (⟨S50000x64, .f32⟩ : BufTy).Contents (Elt F)),
    StableHlo.binary main_v97 main_v104 main_v105 (Host.divf : (⟨S50000x64, .f32⟩ : BufTy).Contents (Elt F) → (⟨S50000x64, .f32⟩ : BufTy).Contents (Elt F) → (⟨S50000x64, .f32⟩ : BufTy).Contents (Elt F)),
    StableHlo.unary main_v73 main_v106 ((transpose S64x64 [1, 0] · transposes_S64x64_S64x64_1_0) : (⟨S64x64, .f32⟩ : BufTy).Contents (Elt F) → (⟨S64x64, .f32⟩ : BufTy).Contents (Elt F)),
    StableHlo.binary main_v105 main_v106 main_v107 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v75 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S50000x64 ![0, 1] bcast_S1x64_S50000x64_0_1 : (⟨S1x64, .f32⟩ : BufTy).Contents (Elt F) → (⟨S50000x64, .f32⟩ : BufTy).Contents (Elt F)),
    StableHlo.binary main_v107 main_v109 main_v110 (addf : (⟨S50000x64, .f32⟩ : BufTy).Contents (Elt F) → (⟨S50000x64, .f32⟩ : BufTy).Contents (Elt F) → (⟨S50000x64, .f32⟩ : BufTy).Contents (Elt F)),
    StableHlo.unary main_v77 main_v111 ((transpose S64x64 [1, 0] · transposes_S64x64_S64x64_1_0) : (⟨S64x64, .f32⟩ : BufTy).Contents (Elt F) → (⟨S64x64, .f32⟩ : BufTy).Contents (Elt F)),
    StableHlo.binary main_v67 main_v111 main_v112 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v110 main_v112 main_v113 (addf : (⟨S50000x64, .f32⟩ : BufTy).Contents (Elt F) → (⟨S50000x64, .f32⟩ : BufTy).Contents (Elt F) → (⟨S50000x64, .f32⟩ : BufTy).Contents (Elt F)) ]

/-- The buffers these operations write. -/
abbrev Lb4_W : List (Ref sig .tc) := [main_v103, main_v104, main_v105, main_v106, main_v107, main_v108, main_v109, main_v110, main_v111, main_v112, main_v113]

theorem Lb4_writes : (Lb4 (F := Ideal)).Forall fun op => op.writes ⊆ (Lb4_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem Lb4_keep (W : Valuation τ sig (Elt Ideal)) (r : Ref sig .tc) (h : r ∉ Lb4_W) :
    after (Lb4 (F := Ideal)) W (Proc.devRef .tc r) = W (Proc.devRef .tc r) :=
  after_of_writes_sub Lb4 W Lb4_writes h

set_option maxRecDepth 8192 in
theorem Lb4_out (W : Valuation τ sig (Elt Ideal)) :
    after (Lb4 (F := Ideal)) W (Proc.devRef .tc main_v113)
      = linR (W (Proc.devRef .tc main_v67)) (W (Proc.devRef .tc main_v97)) (W (Proc.devRef .tc main_v102)) (transpose S64x64 [1, 0] (W (Proc.devRef .tc main_v73)) transposes_S64x64_S64x64_1_0) (W (Proc.devRef .tc main_v75)) (transpose S64x64 [1, 0] (W (Proc.devRef .tc main_v77)) transposes_S64x64_S64x64_1_0) := by
  simp only [Lb4]
  after_results_simp
  try simp only [ofBuf_toBuf, ofBuf_main_v86, ofBuf_main_cst_13, ofBuf_main_v101, ofBuf_main_v113, ofBuf_main_c_16, toBuf_main_v87, toBuf_main_v102, toBuf_main_v118]
  rfl

/-- The row means: the row sums over 64. -/
abbrev Lb5 {F : FTy → Type} [FloatOps F] : List (HloOp τ sig (Elt F)) :=
  [ StableHlo.nullary main_cst_14 (constant S_ .f32 0x00000000#32),
    StableHlo.binary main_v113 main_cst_14 main_v114 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v114 main_v115 (broadcastInDim S50000x1 ![0] bcast_S50000_S50000x1_0 : (⟨S50000, .f32⟩ : BufTy).Contents (Elt F) → (⟨S50000x1, .f32⟩ : BufTy).Contents (Elt F)),
    StableHlo.nullary main_cst_15 (constant S_ .f32 0x42800000#32),
    StableHlo.unary main_cst_15 main_v116 (broadcastInDim S50000x1 ![] bcast_S_S50000x1 : (⟨S_, .f32⟩ : BufTy).Contents (Elt F) → (⟨S50000x1, .f32⟩ : BufTy).Contents (Elt F)),
    StableHlo.binary main_v115 main_v116 main_v117 (Host.divf : (⟨S50000x1, .f32⟩ : BufTy).Contents (Elt F) → (⟨S50000x1, .f32⟩ : BufTy).Contents (Elt F) → (⟨S50000x1, .f32⟩ : BufTy).Contents (Elt F)) ]

/-- The buffers these operations write. -/
abbrev Lb5_W : List (Ref sig .tc) := [main_cst_14, main_v114, main_v115, main_cst_15, main_v116, main_v117]

theorem Lb5_writes : (Lb5 (F := Ideal)).Forall fun op => op.writes ⊆ (Lb5_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem Lb5_keep (W : Valuation τ sig (Elt Ideal)) (r : Ref sig .tc) (h : r ∉ Lb5_W) :
    after (Lb5 (F := Ideal)) W (Proc.devRef .tc r) = W (Proc.devRef .tc r) :=
  after_of_writes_sub Lb5 W Lb5_writes h

set_option maxRecDepth 8192 in
theorem Lb5_out (W : Valuation τ sig (Elt Ideal)) :
    after (Lb5 (F := Ideal)) W (Proc.devRef .tc main_v117)
      = meanR (W (Proc.devRef .tc main_v113)) := by
  simp only [Lb5]
  after_results_simp
  try simp only [ofBuf_toBuf, ofBuf_main_v86, ofBuf_main_cst_13, ofBuf_main_v101, ofBuf_main_v113, ofBuf_main_c_16, toBuf_main_v87, toBuf_main_v102, toBuf_main_v118]
  rfl

/-- The row variances: the variance function written out. -/
abbrev Lb6 {F : FTy → Type} [FloatOps F] : List (HloOp τ sig (Elt F)) :=
  [ StableHlo.nullary main_c_16 (constantI S_ 32 0#32),
    StableHlo.TRef.nullary main_call5.cst (constant S_ .f32 0x00000000#32),
    StableHlo.TRef.binary (.of main_v113 : StableHlo.TRef sig ⟨S50000x64, .f32⟩) main_call5.cst main_call5.v0 (fun x v => Host.reduceAdd x v reducesTo_S50000x64_S50000_d1 h_S_),
    StableHlo.TRef.unary main_call5.v0 main_call5.v1 (broadcastInDim S50000x1 ![0] bcast_S50000_S50000x1_0),
    StableHlo.TRef.nullary main_call5.cst_0 (constant S_ .f32 0x42800000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x64 ![0, 1] bcast_S50000x1_S50000x64_0_1),
    StableHlo.TRef.binary (.of main_v113 : StableHlo.TRef sig ⟨S50000x64, .f32⟩) main_call5.v4 main_call5.v5 subf,
    StableHlo.TRef.binary main_call5.v5 main_call5.v5 main_call5.v6 mulf,
    StableHlo.TRef.unary (.of main_c_16 : StableHlo.TRef sig ⟨S_, .i32⟩) main_call5.v7 (sitofp .f32),
    StableHlo.TRef.nullary main_call5.cst_1 (constant S_ .f32 0x42800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b) ]

/-- The buffers these operations write. -/
abbrev Lb6_W : List (Ref sig .tc) := [main_c_16, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v118]

theorem Lb6_writes : (Lb6 (F := Ideal)).Forall fun op => op.writes ⊆ (Lb6_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem Lb6_keep (W : Valuation τ sig (Elt Ideal)) (r : Ref sig .tc) (h : r ∉ Lb6_W) :
    after (Lb6 (F := Ideal)) W (Proc.devRef .tc r) = W (Proc.devRef .tc r) :=
  after_of_writes_sub Lb6 W Lb6_writes h

set_option maxRecDepth 8192 in
theorem Lb6_out (W : Valuation τ sig (Elt Ideal)) :
    after (Lb6 (F := Ideal)) W (Proc.devRef .tc main_v118)
      = varR (W (Proc.devRef .tc main_v113)) := by
  simp only [Lb6]
  after_results_simp
  try simp only [ofBuf_toBuf, ofBuf_main_v86, ofBuf_main_cst_13, ofBuf_main_v101, ofBuf_main_v113, ofBuf_main_c_16, toBuf_main_v87, toBuf_main_v102, toBuf_main_v118]
  rfl

/-- The norm's last step: centred, scaled by the inverse root of variance plus epsilon, by the scale, and shifted. -/
abbrev Lb7 {F : FTy → Type} [FloatOps F] : List (HloOp τ sig (Elt F)) :=
  [ StableHlo.unary main_v117 main_v119 (broadcastInDim S50000x64 ![0, 1] bcast_S50000x1_S50000x64_0_1 : (⟨S50000x1, .f32⟩ : BufTy).Contents (Elt F) → (⟨S50000x64, .f32⟩ : BufTy).Contents (Elt F)),
    StableHlo.binary main_v113 main_v119 main_v120 (subf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3727C5AC#32),
    StableHlo.unary main_cst_17 main_v121 (broadcastInDim S50000x1 ![] bcast_S_S50000x1 : (⟨S_, .f32⟩ : BufTy).Contents (Elt F) → (⟨S50000x1, .f32⟩ : BufTy).Contents (Elt F)),
    StableHlo.binary main_v118 main_v121 main_v122 (addf : (⟨S50000x1, .f32⟩ : BufTy).Contents (Elt F) → (⟨S50000x1, .f32⟩ : BufTy).Contents (Elt F) → (⟨S50000x1, .f32⟩ : BufTy).Contents (Elt F)),
    StableHlo.unary main_v122 main_v123 (Host.rsqrt : (⟨S50000x1, .f32⟩ : BufTy).Contents (Elt F) → (⟨S50000x1, .f32⟩ : BufTy).Contents (Elt F)),
    StableHlo.unary main_v123 main_v124 (broadcastInDim S50000x64 ![0, 1] bcast_S50000x1_S50000x64_0_1 : (⟨S50000x1, .f32⟩ : BufTy).Contents (Elt F) → (⟨S50000x64, .f32⟩ : BufTy).Contents (Elt F)),
    StableHlo.binary main_v120 main_v124 main_v125 (mulf : (⟨S50000x64, .f32⟩ : BufTy).Contents (Elt F) → (⟨S50000x64, .f32⟩ : BufTy).Contents (Elt F) → (⟨S50000x64, .f32⟩ : BufTy).Contents (Elt F)),
    StableHlo.unary main_v79 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S50000x64 ![0, 1] bcast_S1x64_S50000x64_0_1 : (⟨S1x64, .f32⟩ : BufTy).Contents (Elt F) → (⟨S50000x64, .f32⟩ : BufTy).Contents (Elt F)),
    StableHlo.binary main_v125 main_v127 main_v128 (mulf : (⟨S50000x64, .f32⟩ : BufTy).Contents (Elt F) → (⟨S50000x64, .f32⟩ : BufTy).Contents (Elt F) → (⟨S50000x64, .f32⟩ : BufTy).Contents (Elt F)),
    StableHlo.unary main_v81 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S50000x64 ![0, 1] bcast_S1x64_S50000x64_0_1 : (⟨S1x64, .f32⟩ : BufTy).Contents (Elt F) → (⟨S50000x64, .f32⟩ : BufTy).Contents (Elt F)),
    StableHlo.binary main_v128 main_v130 main_v131 (addf : (⟨S50000x64, .f32⟩ : BufTy).Contents (Elt F) → (⟨S50000x64, .f32⟩ : BufTy).Contents (Elt F) → (⟨S50000x64, .f32⟩ : BufTy).Contents (Elt F)) ]

/-- The buffers these operations write. -/
abbrev Lb7_W : List (Ref sig .tc) := [main_v119, main_v120, main_cst_17, main_v121, main_v122, main_v123, main_v124, main_v125, main_v126, main_v127, main_v128, main_v129, main_v130, main_v131]

theorem Lb7_writes : (Lb7 (F := Ideal)).Forall fun op => op.writes ⊆ (Lb7_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem Lb7_keep (W : Valuation τ sig (Elt Ideal)) (r : Ref sig .tc) (h : r ∉ Lb7_W) :
    after (Lb7 (F := Ideal)) W (Proc.devRef .tc r) = W (Proc.devRef .tc r) :=
  after_of_writes_sub Lb7 W Lb7_writes h

set_option maxRecDepth 8192 in
theorem Lb7_out (W : Valuation τ sig (Elt Ideal)) :
    after (Lb7 (F := Ideal)) W (Proc.devRef .tc main_v131)
      = lnCore (W (Proc.devRef .tc main_v113)) (W (Proc.devRef .tc main_v117)) (W (Proc.devRef .tc main_v118)) (W (Proc.devRef .tc main_v79)) (W (Proc.devRef .tc main_v81)) := by
  simp only [Lb7]
  after_results_simp
  try simp only [ofBuf_toBuf, ofBuf_main_v86, ofBuf_main_cst_13, ofBuf_main_v101, ofBuf_main_v113, ofBuf_main_c_16, toBuf_main_v87, toBuf_main_v102, toBuf_main_v118]
  rfl

/-- The second layer's operations: the seven stretches in order. -/
abbrev Lb {F : FTy → Type} [FloatOps F] : List (HloOp τ sig (Elt F)) := Lb1 ++ (Lb2 ++ (Lb3 ++ (Lb4 ++ (Lb5 ++ (Lb6 ++ (Lb7))))))

/-- The buffers the layer's operations write. -/
abbrev Lb_W : List (Ref sig .tc) := Lb1_W ++ (Lb2_W ++ (Lb3_W ++ (Lb4_W ++ (Lb5_W ++ (Lb6_W ++ (Lb7_W))))))

/-- A buffer the layer does not write keeps its contents through it. -/
theorem Lb_keep (W : Valuation τ sig (Elt Ideal)) (r : Ref sig .tc) (h : r ∉ Lb_W) :
    after (Lb (F := Ideal)) W (Proc.devRef .tc r) = W (Proc.devRef .tc r) := by
  simp only [Lb_W, List.mem_append, not_or] at h
  obtain ⟨h1, h2, h3, h4, h5, h6, h7⟩ := h
  show after (Lb1 ++ (Lb2 ++ (Lb3 ++ (Lb4 ++ (Lb5 ++ (Lb6 ++ (Lb7))))))) W _ = _
  rw [after_append, after_append, after_append, after_append, after_append, after_append,
    Lb7_keep _ r h7, Lb6_keep _ r h6, Lb5_keep _ r h5, Lb4_keep _ r h4, Lb3_keep _ r h3, Lb2_keep _ r h2, Lb1_keep _ r h1]

/-- The layer's result buffer after its operations, from any contents: `refLayer` of the contents of the feature, source,
    target and parameter buffers. Each stretch gives its result from the buffers it reads; the buffers a later stretch
    reads are kept by the stretches between. -/
theorem Lb_out (W : Valuation τ sig (Elt Ideal)) :
    after (Lb (F := Ideal)) W (Proc.devRef .tc main_v131)
      = refLayer (W (Proc.devRef .tc main_v67)) (W (Proc.devRef .tc main_v1)) (W (Proc.devRef .tc main_v3)) (transpose S64x64 [1, 0] (W (Proc.devRef .tc main_v69)) transposes_S64x64_S64x64_1_0) (W (Proc.devRef .tc main_v71))
          (transpose S64x64 [1, 0] (W (Proc.devRef .tc main_v73)) transposes_S64x64_S64x64_1_0) (W (Proc.devRef .tc main_v75)) (transpose S64x64 [1, 0] (W (Proc.devRef .tc main_v77)) transposes_S64x64_S64x64_1_0) (W (Proc.devRef .tc main_v79)) (W (Proc.devRef .tc main_v81)) := by
  show after (Lb1 ++ (Lb2 ++ (Lb3 ++ (Lb4 ++ (Lb5 ++ (Lb6 ++ (Lb7))))))) W _ = _
  rw [after_append, after_append, after_append, after_append, after_append, after_append]
  rw [Lb7_out]
  rw [Lb6_out, Lb6_keep _ main_v113 (by decide), Lb6_keep _ main_v117 (by decide), Lb6_keep _ main_v79 (by decide), Lb6_keep _ main_v81 (by decide)]
  rw [Lb5_out, Lb5_keep _ main_v113 (by decide), Lb5_keep _ main_v79 (by decide), Lb5_keep _ main_v81 (by decide)]
  rw [Lb4_out, Lb4_keep _ main_v79 (by decide), Lb4_keep _ main_v81 (by decide)]
  rw [Lb3_out, Lb3_keep _ main_v67 (by decide), Lb3_keep _ main_v97 (by decide), Lb3_keep _ main_v73 (by decide), Lb3_keep _ main_v75 (by decide), Lb3_keep _ main_v77 (by decide), Lb3_keep _ main_v79 (by decide), Lb3_keep _ main_v81 (by decide)]
  rw [Lb2_out, Lb2_keep _ main_v3 (by decide), Lb2_keep _ main_v67 (by decide), Lb2_keep _ main_v73 (by decide), Lb2_keep _ main_v75 (by decide), Lb2_keep _ main_v77 (by decide), Lb2_keep _ main_v79 (by decide), Lb2_keep _ main_v81 (by decide)]
  rw [Lb1_out, Lb1_keep _ main_v1 (by decide), Lb1_keep _ main_v3 (by decide), Lb1_keep _ main_v67 (by decide), Lb1_keep _ main_v73 (by decide), Lb1_keep _ main_v75 (by decide), Lb1_keep _ main_v77 (by decide), Lb1_keep _ main_v79 (by decide), Lb1_keep _ main_v81 (by decide)]
  rfl

end Cert.ReferenceIdeal.RefValue

end
-- ==== Proof.RefValuePre.lean ====
/-
  The two stretches of the reference that cut the layers' parameters out of the stacked arguments.

  Before the first layer the program slices the edge table's two rows (the sources and the targets) and block 0 of
  every stacked weight and bias, each slice then reshaped to drop its unit axis; before the second layer it does the
  same for block 1. From any buffer contents, after such a stretch each reshaped buffer holds the model's cut of the
  argument it was sliced from, and every buffer the stretch does not write keeps its contents.
-/
import proofs.«174102_j12249246728621_1_alg».proof.Proof.RefRun
import proofs.«174102_j12249246728621_1_alg».proof.Proof.RefValueBase
import proofs.«174102_j12249246728621_1_alg».proof.Proof.RefValueLayer
import proofs.«174102_j12249246728621_1_alg».proof.Proof.Model

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- Block 0 and block 1 of a stacked weight, not yet transposed. -/
def blk0 (W : A S2x64x64) : A S64x64 :=
  shapeCast S64x64 (extractStridedSlice S1x64x64 ![0, 0, 0] W slices_S2x64x64_S1x64x64_0_0_0) shapeCasts_S1x64x64_S64x64
def blk1 (W : A S2x64x64) : A S64x64 :=
  shapeCast S64x64 (extractStridedSlice S1x64x64 ![1, 0, 0] W slices_S2x64x64_S1x64x64_1_0_0) shapeCasts_S1x64x64_S64x64

/-- Transposed, they are the model's weight blocks. -/
theorem T_blk0 (W : A S2x64x64) : transpose S64x64 [1, 0] (blk0 W) transposes_S64x64_S64x64_1_0 = Cert.Sage.Model.matT0 W := rfl
theorem T_blk1 (W : A S2x64x64) : transpose S64x64 [1, 0] (blk1 W) transposes_S64x64_S64x64_1_0 = Cert.Sage.Model.matT1 W := rfl

/-- The slices before the first layer: the edge table's two rows and block 0 of each stacked parameter, each reshaped to drop its unit axis. -/
abbrev pre0 {F : FTy → Type} [FloatOps F] : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v4 main_v5 rfl shapeCasts_S1x64x64_S64x64,
    StableHlo.unary main_arg3 main_v6 ((extractStridedSlice S1x64 ![0, 0] · slices_S2x64_S1x64_0_0) : (⟨S2x64, .f32⟩ : BufTy).Contents (Elt F) → (⟨S1x64, .f32⟩ : BufTy).Contents (Elt F)),
    StableHlo.reshape main_v6 main_v7 rfl shapeCasts_S1x64_S64,
    StableHlo.unary main_arg4 main_v8 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v8 main_v9 rfl shapeCasts_S1x64x64_S64x64,
    StableHlo.unary main_arg5 main_v10 ((extractStridedSlice S1x64 ![0, 0] · slices_S2x64_S1x64_0_0) : (⟨S2x64, .f32⟩ : BufTy).Contents (Elt F) → (⟨S1x64, .f32⟩ : BufTy).Contents (Elt F)),
    StableHlo.reshape main_v10 main_v11 rfl shapeCasts_S1x64_S64,
    StableHlo.unary main_arg6 main_v12 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v12 main_v13 rfl shapeCasts_S1x64x64_S64x64,
    StableHlo.unary main_arg7 main_v14 ((extractStridedSlice S1x64 ![0, 0] · slices_S2x64_S1x64_0_0) : (⟨S2x64, .f32⟩ : BufTy).Contents (Elt F) → (⟨S1x64, .f32⟩ : BufTy).Contents (Elt F)),
    StableHlo.reshape main_v14 main_v15 rfl shapeCasts_S1x64_S64,
    StableHlo.unary main_arg8 main_v16 ((extractStridedSlice S1x64 ![0, 0] · slices_S2x64_S1x64_0_0) : (⟨S2x64, .f32⟩ : BufTy).Contents (Elt F) → (⟨S1x64, .f32⟩ : BufTy).Contents (Elt F)),
    StableHlo.reshape main_v16 main_v17 rfl shapeCasts_S1x64_S64 ]

/-- The buffers these operations write. -/
abbrev pre0_W : List (Ref sig .tc) := [main_v0, main_v1, main_v2, main_v3, main_v4, main_v5, main_v6, main_v7, main_v8, main_v9, main_v10, main_v11, main_v12, main_v13, main_v14, main_v15, main_v16, main_v17]

theorem pre0_writes : (pre0 (F := Ideal)).Forall fun op => op.writes ⊆ (pre0_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem pre0_keep (W : Valuation τ sig (Elt Ideal)) (r : Ref sig .tc) (h : r ∉ pre0_W) :
    after (pre0 (F := Ideal)) W (Proc.devRef .tc r) = W (Proc.devRef .tc r) :=
  after_of_writes_sub pre0 W pre0_writes h

set_option maxRecDepth 8192 in
theorem pre0_v1 (W : Valuation τ sig (Elt Ideal)) :
    after (pre0 (F := Ideal)) W (Proc.devRef .tc main_v1) = Cert.Sage.Model.srcV (W (Proc.devRef .tc main_arg1)) := by
  simp only [pre0]
  after_results_simp
  rfl

set_option maxRecDepth 8192 in
theorem pre0_v3 (W : Valuation τ sig (Elt Ideal)) :
    after (pre0 (F := Ideal)) W (Proc.devRef .tc main_v3) = Cert.Sage.Model.dstV (W (Proc.devRef .tc main_arg1)) := by
  simp only [pre0]
  after_results_simp
  rfl

set_option maxRecDepth 8192 in
theorem pre0_v5 (W : Valuation τ sig (Elt Ideal)) :
    after (pre0 (F := Ideal)) W (Proc.devRef .tc main_v5) = blk0 (W (Proc.devRef .tc main_arg2)) := by
  simp only [pre0]
  after_results_simp
  rfl

set_option maxRecDepth 8192 in
theorem pre0_v7 (W : Valuation τ sig (Elt Ideal)) :
    after (pre0 (F := Ideal)) W (Proc.devRef .tc main_v7) = Cert.Sage.Model.row0 (W (Proc.devRef .tc main_arg3)) := by
  simp only [pre0]
  after_results_simp
  rfl

set_option maxRecDepth 8192 in
theorem pre0_v9 (W : Valuation τ sig (Elt Ideal)) :
    after (pre0 (F := Ideal)) W (Proc.devRef .tc main_v9) = blk0 (W (Proc.devRef .tc main_arg4)) := by
  simp only [pre0]
  after_results_simp
  rfl

set_option maxRecDepth 8192 in
theorem pre0_v11 (W : Valuation τ sig (Elt Ideal)) :
    after (pre0 (F := Ideal)) W (Proc.devRef .tc main_v11) = Cert.Sage.Model.row0 (W (Proc.devRef .tc main_arg5)) := by
  simp only [pre0]
  after_results_simp
  rfl

set_option maxRecDepth 8192 in
theorem pre0_v13 (W : Valuation τ sig (Elt Ideal)) :
    after (pre0 (F := Ideal)) W (Proc.devRef .tc main_v13) = blk0 (W (Proc.devRef .tc main_arg6)) := by
  simp only [pre0]
  after_results_simp
  rfl

set_option maxRecDepth 8192 in
theorem pre0_v15 (W : Valuation τ sig (Elt Ideal)) :
    after (pre0 (F := Ideal)) W (Proc.devRef .tc main_v15) = Cert.Sage.Model.row0 (W (Proc.devRef .tc main_arg7)) := by
  simp only [pre0]
  after_results_simp
  rfl

set_option maxRecDepth 8192 in
theorem pre0_v17 (W : Valuation τ sig (Elt Ideal)) :
    after (pre0 (F := Ideal)) W (Proc.devRef .tc main_v17) = Cert.Sage.Model.row0 (W (Proc.devRef .tc main_arg8)) := by
  simp only [pre0]
  after_results_simp
  rfl

/-- The slices before the second layer: block 1 of each stacked parameter, each reshaped to drop its unit axis. -/
abbrev pre1 {F : FTy → Type} [FloatOps F] : List (HloOp τ sig (Elt F)) :=
  [ StableHlo.unary main_arg2 main_v68 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v68 main_v69 rfl shapeCasts_S1x64x64_S64x64,
    StableHlo.unary main_arg3 main_v70 ((extractStridedSlice S1x64 ![1, 0] · slices_S2x64_S1x64_1_0) : (⟨S2x64, .f32⟩ : BufTy).Contents (Elt F) → (⟨S1x64, .f32⟩ : BufTy).Contents (Elt F)),
    StableHlo.reshape main_v70 main_v71 rfl shapeCasts_S1x64_S64,
    StableHlo.unary main_arg4 main_v72 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v72 main_v73 rfl shapeCasts_S1x64x64_S64x64,
    StableHlo.unary main_arg5 main_v74 ((extractStridedSlice S1x64 ![1, 0] · slices_S2x64_S1x64_1_0) : (⟨S2x64, .f32⟩ : BufTy).Contents (Elt F) → (⟨S1x64, .f32⟩ : BufTy).Contents (Elt F)),
    StableHlo.reshape main_v74 main_v75 rfl shapeCasts_S1x64_S64,
    StableHlo.unary main_arg6 main_v76 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v76 main_v77 rfl shapeCasts_S1x64x64_S64x64,
    StableHlo.unary main_arg7 main_v78 ((extractStridedSlice S1x64 ![1, 0] · slices_S2x64_S1x64_1_0) : (⟨S2x64, .f32⟩ : BufTy).Contents (Elt F) → (⟨S1x64, .f32⟩ : BufTy).Contents (Elt F)),
    StableHlo.reshape main_v78 main_v79 rfl shapeCasts_S1x64_S64,
    StableHlo.unary main_arg8 main_v80 ((extractStridedSlice S1x64 ![1, 0] · slices_S2x64_S1x64_1_0) : (⟨S2x64, .f32⟩ : BufTy).Contents (Elt F) → (⟨S1x64, .f32⟩ : BufTy).Contents (Elt F)),
    StableHlo.reshape main_v80 main_v81 rfl shapeCasts_S1x64_S64 ]

/-- The buffers these operations write. -/
abbrev pre1_W : List (Ref sig .tc) := [main_v68, main_v69, main_v70, main_v71, main_v72, main_v73, main_v74, main_v75, main_v76, main_v77, main_v78, main_v79, main_v80, main_v81]

theorem pre1_writes : (pre1 (F := Ideal)).Forall fun op => op.writes ⊆ (pre1_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- A buffer these operations do not write keeps its contents through them. -/
theorem pre1_keep (W : Valuation τ sig (Elt Ideal)) (r : Ref sig .tc) (h : r ∉ pre1_W) :
    after (pre1 (F := Ideal)) W (Proc.devRef .tc r) = W (Proc.devRef .tc r) :=
  after_of_writes_sub pre1 W pre1_writes h

set_option maxRecDepth 8192 in
theorem pre1_v69 (W : Valuation τ sig (Elt Ideal)) :
    after (pre1 (F := Ideal)) W (Proc.devRef .tc main_v69) = blk1 (W (Proc.devRef .tc main_arg2)) := by
  simp only [pre1]
  after_results_simp
  rfl

set_option maxRecDepth 8192 in
theorem pre1_v71 (W : Valuation τ sig (Elt Ideal)) :
    after (pre1 (F := Ideal)) W (Proc.devRef .tc main_v71) = Cert.Sage.Model.row1 (W (Proc.devRef .tc main_arg3)) := by
  simp only [pre1]
  after_results_simp
  rfl

set_option maxRecDepth 8192 in
theorem pre1_v73 (W : Valuation τ sig (Elt Ideal)) :
    after (pre1 (F := Ideal)) W (Proc.devRef .tc main_v73) = blk1 (W (Proc.devRef .tc main_arg4)) := by
  simp only [pre1]
  after_results_simp
  rfl

set_option maxRecDepth 8192 in
theorem pre1_v75 (W : Valuation τ sig (Elt Ideal)) :
    after (pre1 (F := Ideal)) W (Proc.devRef .tc main_v75) = Cert.Sage.Model.row1 (W (Proc.devRef .tc main_arg5)) := by
  simp only [pre1]
  after_results_simp
  rfl

set_option maxRecDepth 8192 in
theorem pre1_v77 (W : Valuation τ sig (Elt Ideal)) :
    after (pre1 (F := Ideal)) W (Proc.devRef .tc main_v77) = blk1 (W (Proc.devRef .tc main_arg6)) := by
  simp only [pre1]
  after_results_simp
  rfl

set_option maxRecDepth 8192 in
theorem pre1_v79 (W : Valuation τ sig (Elt Ideal)) :
    after (pre1 (F := Ideal)) W (Proc.devRef .tc main_v79) = Cert.Sage.Model.row1 (W (Proc.devRef .tc main_arg7)) := by
  simp only [pre1]
  after_results_simp
  rfl

set_option maxRecDepth 8192 in
theorem pre1_v81 (W : Valuation τ sig (Elt Ideal)) :
    after (pre1 (F := Ideal)) W (Proc.devRef .tc main_v81) = Cert.Sage.Model.row1 (W (Proc.devRef .tc main_arg8)) := by
  simp only [pre1]
  after_results_simp
  rfl

end Cert.ReferenceIdeal.RefValue

end
-- ==== Proof.RefValue.lean ====
/-
  The value of the reference program: its result buffer after all its operations is the model network of the nine
  arguments, and the arguments are unchanged.

  The program's operations are the slices before the first layer, the first layer, the slices before the second layer
  and the second layer, in that order. Running them in order from any contents, the second layer's result is
  `refLayer` of the first layer's result, the sources and targets, and block 1 of each parameter; the first layer's
  result is `refLayer` of the input features, the same sources and targets, and block 0 of each parameter; the stretches
  in between keep every buffer they do not write. Each `refLayer` is the model's layer, so the whole is the model's
  layer 1 of layer 0. No operation writes an argument.
-/
import proofs.«174102_j12249246728621_1_alg».proof.Proof.RefRun
import proofs.«174102_j12249246728621_1_alg».proof.Proof.RefValueBase
import proofs.«174102_j12249246728621_1_alg».proof.Proof.RefValueLayer
import proofs.«174102_j12249246728621_1_alg».proof.Proof.RefValueStages0
import proofs.«174102_j12249246728621_1_alg».proof.Proof.RefValueStages1
import proofs.«174102_j12249246728621_1_alg».proof.Proof.RefValuePre
import proofs.«174102_j12249246728621_1_alg».proof.Proof.Model

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

set_option maxRecDepth 16384 in
/-- The program's operations are the four stretches in order. -/
theorem ops_split : (Cert.ReferenceIdeal.RefRun.ops (F := Ideal)) = pre0 ++ (La ++ (pre1 ++ Lb)) := rfl

/-- The result buffer after all the operations is the model network of the arguments. -/
theorem value_eq (V : Valuation τ sig (Elt Ideal)) :
    after (Cert.ReferenceIdeal.RefRun.ops (F := Ideal)) V (Proc.devRef .tc main_v131)
      = Cert.Sage.Model.G (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  rw [ops_split, after_append, after_append, after_append]
  rw [Lb_out]
  rw [pre1_keep _ main_v67 (by decide), pre1_keep _ main_v1 (by decide), pre1_keep _ main_v3 (by decide),
    pre1_v69, pre1_v71, pre1_v73, pre1_v75, pre1_v77, pre1_v79, pre1_v81]
  rw [La_out, La_keep _ main_v1 (by decide), La_keep _ main_v3 (by decide), La_keep _ main_arg2 (by decide), La_keep _ main_arg3 (by decide), La_keep _ main_arg4 (by decide), La_keep _ main_arg5 (by decide), La_keep _ main_arg6 (by decide), La_keep _ main_arg7 (by decide), La_keep _ main_arg8 (by decide)]
  rw [pre0_keep _ main_arg0 (by decide), pre0_keep _ main_arg2 (by decide), pre0_keep _ main_arg3 (by decide), pre0_keep _ main_arg4 (by decide), pre0_keep _ main_arg5 (by decide), pre0_keep _ main_arg6 (by decide), pre0_keep _ main_arg7 (by decide), pre0_keep _ main_arg8 (by decide),
    pre0_v1, pre0_v3, pre0_v5, pre0_v7, pre0_v9, pre0_v11, pre0_v13, pre0_v15, pre0_v17]
  rw [T_blk0, T_blk0, T_blk0, T_blk1, T_blk1, T_blk1, refLayer_eq, refLayer_eq]
  rfl

/-- No operation writes argument 0. -/
theorem arg0_kept (V : Valuation τ sig (Elt Ideal)) :
    after (Cert.ReferenceIdeal.RefRun.ops (F := Ideal)) V (Proc.devRef .tc main_arg0) = V (Proc.devRef .tc main_arg0) := by
  rw [ops_split, after_append, after_append, after_append,
    Lb_keep _ main_arg0 (by decide), pre1_keep _ main_arg0 (by decide), La_keep _ main_arg0 (by decide), pre0_keep _ main_arg0 (by decide)]

/-- No operation writes argument 1. -/
theorem arg1_kept (V : Valuation τ sig (Elt Ideal)) :
    after (Cert.ReferenceIdeal.RefRun.ops (F := Ideal)) V (Proc.devRef .tc main_arg1) = V (Proc.devRef .tc main_arg1) := by
  rw [ops_split, after_append, after_append, after_append,
    Lb_keep _ main_arg1 (by decide), pre1_keep _ main_arg1 (by decide), La_keep _ main_arg1 (by decide), pre0_keep _ main_arg1 (by decide)]

/-- No operation writes argument 2. -/
theorem arg2_kept (V : Valuation τ sig (Elt Ideal)) :
    after (Cert.ReferenceIdeal.RefRun.ops (F := Ideal)) V (Proc.devRef .tc main_arg2) = V (Proc.devRef .tc main_arg2) := by
  rw [ops_split, after_append, after_append, after_append,
    Lb_keep _ main_arg2 (by decide), pre1_keep _ main_arg2 (by decide), La_keep _ main_arg2 (by decide), pre0_keep _ main_arg2 (by decide)]

/-- No operation writes argument 3. -/
theorem arg3_kept (V : Valuation τ sig (Elt Ideal)) :
    after (Cert.ReferenceIdeal.RefRun.ops (F := Ideal)) V (Proc.devRef .tc main_arg3) = V (Proc.devRef .tc main_arg3) := by
  rw [ops_split, after_append, after_append, after_append,
    Lb_keep _ main_arg3 (by decide), pre1_keep _ main_arg3 (by decide), La_keep _ main_arg3 (by decide), pre0_keep _ main_arg3 (by decide)]

/-- No operation writes argument 4. -/
theorem arg4_kept (V : Valuation τ sig (Elt Ideal)) :
    after (Cert.ReferenceIdeal.RefRun.ops (F := Ideal)) V (Proc.devRef .tc main_arg4) = V (Proc.devRef .tc main_arg4) := by
  rw [ops_split, after_append, after_append, after_append,
    Lb_keep _ main_arg4 (by decide), pre1_keep _ main_arg4 (by decide), La_keep _ main_arg4 (by decide), pre0_keep _ main_arg4 (by decide)]

/-- No operation writes argument 5. -/
theorem arg5_kept (V : Valuation τ sig (Elt Ideal)) :
    after (Cert.ReferenceIdeal.RefRun.ops (F := Ideal)) V (Proc.devRef .tc main_arg5) = V (Proc.devRef .tc main_arg5) := by
  rw [ops_split, after_append, after_append, after_append,
    Lb_keep _ main_arg5 (by decide), pre1_keep _ main_arg5 (by decide), La_keep _ main_arg5 (by decide), pre0_keep _ main_arg5 (by decide)]

/-- No operation writes argument 6. -/
theorem arg6_kept (V : Valuation τ sig (Elt Ideal)) :
    after (Cert.ReferenceIdeal.RefRun.ops (F := Ideal)) V (Proc.devRef .tc main_arg6) = V (Proc.devRef .tc main_arg6) := by
  rw [ops_split, after_append, after_append, after_append,
    Lb_keep _ main_arg6 (by decide), pre1_keep _ main_arg6 (by decide), La_keep _ main_arg6 (by decide), pre0_keep _ main_arg6 (by decide)]

/-- No operation writes argument 7. -/
theorem arg7_kept (V : Valuation τ sig (Elt Ideal)) :
    after (Cert.ReferenceIdeal.RefRun.ops (F := Ideal)) V (Proc.devRef .tc main_arg7) = V (Proc.devRef .tc main_arg7) := by
  rw [ops_split, after_append, after_append, after_append,
    Lb_keep _ main_arg7 (by decide), pre1_keep _ main_arg7 (by decide), La_keep _ main_arg7 (by decide), pre0_keep _ main_arg7 (by decide)]

/-- No operation writes argument 8. -/
theorem arg8_kept (V : Valuation τ sig (Elt Ideal)) :
    after (Cert.ReferenceIdeal.RefRun.ops (F := Ideal)) V (Proc.devRef .tc main_arg8) = V (Proc.devRef .tc main_arg8) := by
  rw [ops_split, after_append, after_append, after_append,
    Lb_keep _ main_arg8 (by decide), pre1_keep _ main_arg8 (by decide), La_keep _ main_arg8 (by decide), pre0_keep _ main_arg8 (by decide)]

end Cert.ReferenceIdeal.RefValue

end
-- ==== Proof.lean ====
/-
  The certificate of a two-layer GraphSAGE network with layer norms: a kernel program of four pipelined regions among
  host gather and scatter-sum operations, against its reference on the host.

  Both idealized programs compute, on the extended reals, the one function `G` of the nine arguments (Proof/Model.lean):
  per layer, `relu (h·Wpᵀ + bp)` of every node, its rows gathered at the edges' sources and summed at their targets,
  that sum divided by the clipped degree and combined as `·Wlᵀ + bl + h·Wrᵀ`, then the layer norm of every row. The
  kernel's matrix products are taken block by block over the rows and the reference's whole, each entry the same sum
  over the 64 features; the lane sums of the norm are the reference's row sums; the roundings to bf16 on the way into
  the products are the identity; the aggregation is the same two host operations in both programs. No law beyond
  re-indexing is used, so the precondition is never opened. The kernel's side is its run with the result named and
  the walk through its boundaries (Proof/KRun.lean, Proof/KChain.lean), the reference's its run as a fold and the
  fold's value (Proof/RefRun.lean, Proof/RefValue.lean). The idealization rewrote nothing.
-/
import proofs.«174102_j12249246728621_1_alg».proof.Defs
import proofs.«174102_j12249246728621_1_alg».proof.Proof.Gen.Kernel
import proofs.«174102_j12249246728621_1_alg».proof.Proof.Gen.Kernel.Skeleton
import proofs.«174102_j12249246728621_1_alg».proof.Proof.Gen.Kernel.Launch
import proofs.«174102_j12249246728621_1_alg».proof.Proof.Gen.Kernel.Points
import proofs.«174102_j12249246728621_1_alg».proof.Proof.Gen.Kernel.Frame
import proofs.«174102_j12249246728621_1_alg».proof.Proof.Gen.KernelIdeal
import proofs.«174102_j12249246728621_1_alg».proof.Proof.Gen.KernelIdeal.Skeleton
import proofs.«174102_j12249246728621_1_alg».proof.Proof.Gen.KernelIdeal.Launch
import proofs.«174102_j12249246728621_1_alg».proof.Proof.Gen.KernelIdeal.Points
import proofs.«174102_j12249246728621_1_alg».proof.Proof.Gen.KernelIdeal.Frame
import proofs.«174102_j12249246728621_1_alg».proof.Proof.Gen.ReferenceIdeal
import proofs.«174102_j12249246728621_1_alg».proof.Proof.Gen.Pre_finite_inputs
import proofs.«174102_j12249246728621_1_alg».proof.Proof.KRun
import proofs.«174102_j12249246728621_1_alg».proof.Proof.KChain
import proofs.«174102_j12249246728621_1_alg».proof.Proof.RefRun
import proofs.«174102_j12249246728621_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs: every buffer ends at the fold of its operations over the launch contents, and no operation
    writes an argument. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefValue.arg0_kept _),
       (h c Cert.ReferenceIdeal.main_arg1).trans (Cert.ReferenceIdeal.RefValue.arg1_kept _),
       (h c Cert.ReferenceIdeal.main_arg2).trans (Cert.ReferenceIdeal.RefValue.arg2_kept _),
       (h c Cert.ReferenceIdeal.main_arg3).trans (Cert.ReferenceIdeal.RefValue.arg3_kept _),
       (h c Cert.ReferenceIdeal.main_arg4).trans (Cert.ReferenceIdeal.RefValue.arg4_kept _),
       (h c Cert.ReferenceIdeal.main_arg5).trans (Cert.ReferenceIdeal.RefValue.arg5_kept _),
       (h c Cert.ReferenceIdeal.main_arg6).trans (Cert.ReferenceIdeal.RefValue.arg6_kept _),
       (h c Cert.ReferenceIdeal.main_arg7).trans (Cert.ReferenceIdeal.RefValue.arg7_kept _),
       (h c Cert.ReferenceIdeal.main_arg8).trans (Cert.ReferenceIdeal.RefValue.arg8_kept _)⟩)
    (Cert.ReferenceIdeal.RefRun.run_main (F := Ideal) m ρ)

/-- From memories agreeing on the arguments both idealized programs end with their result at the network `G` of the
    arguments: the kernel program by its run and the walk through its boundaries, the reference by its fold's value. -/
theorem algebraic : Cert.algebraic_KernelIdeal_ReferenceIdeal := by
  intro m ρ m' ρ' _ hagree
  refine ⟨fun (c : Dev Cert.KernelIdeal.nD) => Cert.Sage.Model.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.h10_v75 m ρ c), (h c).2⟩)
      (Cert.KernelIdeal.Gen.run_result (F := Ideal) m ρ)
  · refine (θ_run Cert.ReferenceIdeal.defs _ _).mono (fun r h c => ?_) (Cert.ReferenceIdeal.RefRun.run_main (F := Ideal) m' ρ')
    obtain ⟨e0, e1, e2, e3, e4, e5, e6, e7, e8⟩ := hagree c
    refine ⟨?_,
       (h c Cert.ReferenceIdeal.main_arg0).trans (Cert.ReferenceIdeal.RefValue.arg0_kept _),
       (h c Cert.ReferenceIdeal.main_arg1).trans (Cert.ReferenceIdeal.RefValue.arg1_kept _),
       (h c Cert.ReferenceIdeal.main_arg2).trans (Cert.ReferenceIdeal.RefValue.arg2_kept _),
       (h c Cert.ReferenceIdeal.main_arg3).trans (Cert.ReferenceIdeal.RefValue.arg3_kept _),
       (h c Cert.ReferenceIdeal.main_arg4).trans (Cert.ReferenceIdeal.RefValue.arg4_kept _),
       (h c Cert.ReferenceIdeal.main_arg5).trans (Cert.ReferenceIdeal.RefValue.arg5_kept _),
       (h c Cert.ReferenceIdeal.main_arg6).trans (Cert.ReferenceIdeal.RefValue.arg6_kept _),
       (h c Cert.ReferenceIdeal.main_arg7).trans (Cert.ReferenceIdeal.RefValue.arg7_kept _),
       (h c Cert.ReferenceIdeal.main_arg8).trans (Cert.ReferenceIdeal.RefValue.arg8_kept _)⟩
    refine (h c Cert.ReferenceIdeal.main_v131).trans ((Cert.ReferenceIdeal.RefValue.value_eq _).trans ?_)
    show Cert.Sage.Model.G
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) = _
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
